-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S64x64 .f32) (main_arg8 : FVec F S64 .f32) (main_arg9 : FVec F S64 .f32) (main_arg10 : FVec F S64 .f32) (main_arg11 : FVec F S64 .f32) (main_arg12 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x64 .f32) (main_arg1 : FVec F S8192x64 .f32) (main_arg2 : FVec F S8192x8192 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S1024x64 : Shape := ⟨2, ![1024, 64]⟩
abbrev S512x64 : Shape := ⟨2, ![512, 64]⟩
abbrev S1x512 : Shape := ⟨2, ![1, 512]⟩
abbrev S64x512 : Shape := ⟨2, ![64, 512]⟩
abbrev S512 : Shape := ⟨1, ![512]⟩

abbrev nBuf : Space → Nat
  | .hbm => 122
  | .vmem => 25
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S8192x64, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .i32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x64, .f32⟩
  | .hbm, ⟨55, _⟩ => ⟨S8192x64, .f32⟩
  | .hbm, ⟨56, _⟩ => ⟨S64x64, .f32⟩
  | .hbm, ⟨57, _⟩ => ⟨S8192x64, .f32⟩
  | .hbm, ⟨58, _⟩ => ⟨S1x64, .f32⟩
  | .hbm, ⟨59, _⟩ => ⟨S8192x64, .f32⟩
  | .hbm, ⟨60, _⟩ => ⟨S8192x64, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .i32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x64, .f32⟩
  | .hbm, ⟨75, _⟩ => ⟨S8192x64, .f32⟩
  | .hbm, ⟨76, _⟩ => ⟨S8192x64, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x64, .f32⟩
  | .hbm, ⟨92, _⟩ => ⟨S8192x64, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S8192x64, .f32⟩
  | .hbm, ⟨98, _⟩ => ⟨S8192x64, .f32⟩
  | .hbm, ⟨99, _⟩ => ⟨S64x64, .f32⟩
  | .hbm, ⟨100, _⟩ => ⟨S8192x64, .f32⟩
  | .hbm, ⟨101, _⟩ => ⟨S1x64, .f32⟩
  | .hbm, ⟨102, _⟩ => ⟨S8192x64, .f32⟩
  | .hbm, ⟨103, _⟩ => ⟨S8192x64, .f32⟩
  | .hbm, ⟨104, _⟩ => ⟨S1x64, .f32⟩
  | .hbm, ⟨105, _⟩ => ⟨S8192x64, .f32⟩
  | .hbm, ⟨106, _⟩ => ⟨S8192x64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64, .f32⟩
  | .hbm, ⟨111, _⟩ => ⟨S1x64, .f32⟩
  | .hbm, ⟨112, _⟩ => ⟨S8192x64, .f32⟩
  | .hbm, ⟨113, _⟩ => ⟨S8192x64, .f32⟩
  | .hbm, ⟨114, _⟩ => ⟨S1x64, .f32⟩
  | .hbm, ⟨115, _⟩ => ⟨S8192x64, .f32⟩
  | .hbm, ⟨116, _⟩ => ⟨S8192x64, .f32⟩
  | .hbm, ⟨117, _⟩ => ⟨S1x64, .f32⟩
  | .hbm, ⟨118, _⟩ => ⟨S8192x64, .f32⟩
  | .hbm, ⟨119, _⟩ => ⟨S8192x64, .f32⟩
  | .hbm, ⟨120, _⟩ => ⟨S1x8192, .f32⟩
  | .hbm, ⟨121, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S1024x64, .f32⟩
  | .local _ .vmem, ⟨3, _⟩ => ⟨S1024x64, .f32⟩
  | .local _ .vmem, ⟨4, _⟩ => ⟨S512x64, .f32⟩
  | .local _ .vmem, ⟨5, _⟩ => ⟨S512x64, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x64, .f32⟩
  | .local _ .vmem, ⟨13, _⟩ => ⟨S1024x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S1x512, .f32⟩
  | .local _ .vmem, ⟨21, _⟩ => ⟨S1x512, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_2 : Ref sig .tc := ⟨.hbm, 61, rfl⟩
abbrev main_v22 : Ref sig .tc := ⟨.hbm, 62, rfl⟩
abbrev main_v23 : Ref sig .tc := ⟨.hbm, 63, rfl⟩
abbrev main_cst_3 : Ref sig .tc := ⟨.hbm, 64, rfl⟩
abbrev main_v24 : Ref sig .tc := ⟨.hbm, 65, rfl⟩
abbrev main_v25 : Ref sig .tc := ⟨.hbm, 66, rfl⟩
abbrev main_c_4 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst_5 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_6 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_20 : BitVec 32 := 0#32
  let v39 : BitVec 1 := Scalar.cmpi .ne v38 c0_i32_20
  v39

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bcast_S_S64 : S_.BroadcastsInDim S64 (![] : Fin 0 → Fin S64.rank)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  transposes_S512x64_p1_0_S64x512 : S512x64.Transposes [1, 0] S64x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  broadcasts_S1x512_S1024x512 : S1x512.Broadcasts S1024x512
  dot_S8192x64_S64x64_S8192x64_1_0_0_1_n_n_wf : DotDims.WF S8192x64 S64x64 S8192x64 [1] [0] [0] [1] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S8192x64.size a
  hwx1_2 : ∀ i : grid1.Coords, EltTy.bits .f32 = 32 ∨ (Rect.block (s := S8192x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S8192x64.size a
  hwx1_3 : ∀ i : grid1.Coords, EltTy.bits .f32 = 32 ∨ (Rect.block (s := S8192x64) S512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S8192x64.size a
  hwx1_4 : ∀ i : grid1.Coords, EltTy.bits .f32 = 32 ∨ (Rect.block (s := S8192x64) S512x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x8192.size a
  hwx1_5 : ∀ i : grid1.Coords, EltTy.bits .f32 = 32 ∨ (Rect.block (s := S1x8192) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x64.size a ≤ S8192x64.size a
  hwx1_6 : ∀ i : grid1.Coords, EltTy.bits .f32 = 32 ∨ (Rect.block (s := S8192x64) S1024x64.size (cc1_transform_6 i) (hinb1_6 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S512x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S1x8192 : Shape := ⟨2, ![1, 8192]⟩

abbrev nBuf : Space → Nat
  | .hbm => 146
  | .vmem => 0
  | .smem => 0
  | _ => 0

abbrev hbmTy0_0 (i : Nat) : BufTy := match i % 128 with
  | 0 => ⟨S8192x64, .f32⟩
  | 1 => ⟨S8192x64, .f32⟩
  | 2 => ⟨S8192x8192, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64x64, .f32⟩
  | 14 => ⟨S8192x64, .f32⟩
  | 15 => ⟨S1x64, .f32⟩
  | 16 => ⟨S8192x64, .f32⟩
  | 17 => ⟨S8192x64, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .i32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x64, .f32⟩
  | 32 => ⟨S8192x64, .f32⟩
  | 33 => ⟨S8192x64, .f32⟩
  | 34 => ⟨S_, .f32⟩
  | 35 => ⟨S_, .f32⟩
  | 36 => ⟨S_, .f32⟩
  | 37 => ⟨S_, .f32⟩
  | 38 => ⟨S8192, .f32⟩
  | 39 => ⟨S8192x1, .f32⟩
  | 40 => ⟨S8192x1, .f32⟩
  | 41 => ⟨S8192x1, .f32⟩
  | 42 => ⟨S_, .f32⟩
  | 43 => ⟨S_, .i1⟩
  | 44 => ⟨S_, .f32⟩
  | 45 => ⟨S_, .f32⟩
  | 46 => ⟨S8192x1, .f32⟩
  | 47 => ⟨S8192x1, .f32⟩
  | 48 => ⟨S8192x64, .f32⟩
  | 49 => ⟨S8192x64, .f32⟩
  | 50 => ⟨S_, .f32⟩
  | 51 => ⟨S8192x1, .f32⟩
  | 52 => ⟨S8192x1, .f32⟩
  | 53 => ⟨S8192x1, .f32⟩
  | 54 => ⟨S8192x64, .f32⟩
  | 55 => ⟨S8192x64, .f32⟩
  | 56 => ⟨S64x64, .f32⟩
  | 57 => ⟨S8192x64, .f32⟩
  | 58 => ⟨S1x64, .f32⟩
  | 59 => ⟨S8192x64, .f32⟩
  | 60 => ⟨S8192x64, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .i32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S8192x64, .f32⟩
  | 75 => ⟨S8192x64, .f32⟩
  | 76 => ⟨S8192x64, .f32⟩
  | 77 => ⟨S_, .f32⟩
  | 78 => ⟨S_, .f32⟩
  | 79 => ⟨S_, .f32⟩
  | 80 => ⟨S_, .f32⟩
  | 81 => ⟨S8192, .f32⟩
  | 82 => ⟨S8192x1, .f32⟩
  | 83 => ⟨S8192x1, .f32⟩
  | 84 => ⟨S8192x1, .f32⟩
  | 85 => ⟨S_, .f32⟩
  | 86 => ⟨S_, .i1⟩
  | 87 => ⟨S_, .f32⟩
  | 88 => ⟨S_, .f32⟩
  | 89 => ⟨S8192x1, .f32⟩
  | 90 => ⟨S8192x1, .f32⟩
  | 91 => ⟨S8192x64, .f32⟩
  | 92 => ⟨S8192x64, .f32⟩
  | 93 => ⟨S_, .f32⟩
  | 94 => ⟨S8192x1, .f32⟩
  | 95 => ⟨S8192x1, .f32⟩
  | 96 => ⟨S8192x1, .f32⟩
  | 97 => ⟨S8192x64, .f32⟩
  | 98 => ⟨S8192x64, .f32⟩
  | 99 => ⟨S64x64, .f32⟩
  | 100 => ⟨S8192x64, .f32⟩
  | 101 => ⟨S1x64, .f32⟩
  | 102 => ⟨S8192x64, .f32⟩
  | 103 => ⟨S8192x64, .f32⟩
  | 104 => ⟨S1x64, .f32⟩
  | 105 => ⟨S8192x64, .f32⟩
  | 106 => ⟨S8192x64, .f32⟩
  | 107 => ⟨S_, .f32⟩
  | 108 => ⟨S64, .f32⟩
  | 109 => ⟨S64, .f32⟩
  | 110 => ⟨S64, .f32⟩
  | 111 => ⟨S1x64, .f32⟩
  | 112 => ⟨S8192x64, .f32⟩
  | 113 => ⟨S8192x64, .f32⟩
  | 114 => ⟨S1x64, .f32⟩
  | 115 => ⟨S8192x64, .f32⟩
  | 116 => ⟨S8192x64, .f32⟩
  | 117 => ⟨S1x64, .f32⟩
  | 118 => ⟨S8192x64, .f32⟩
  | 119 => ⟨S8192x64, .f32⟩
  | 120 => ⟨S64x8192, .f32⟩
  | 121 => ⟨S8192x8192, .f32⟩
  | 122 => ⟨S_, .f32⟩
  | 123 => ⟨S8192x8192, .f32⟩
  | 124 => ⟨S8192x8192, .f32⟩
  | 125 => ⟨S8192x8192, .f32⟩
  | 126 => ⟨S_, .f32⟩
  | 127 => ⟨S8192, .f32⟩
  | _ => ⟨S8192x64, .f32⟩

abbrev hbmTy0_1 (i : Nat) : BufTy := match i % 128 with
  | 0 => ⟨S_, .f32⟩
  | 1 => ⟨S8192, .f32⟩
  | 2 => ⟨S8192, .f32⟩
  | 3 => ⟨S1x8192, .f32⟩
  | 4 => ⟨S8192x8192, .f32⟩
  | 5 => ⟨S8192x8192, .f32⟩
  | 6 => ⟨S8192x8192, .f32⟩
  | 7 => ⟨S_, .f32⟩
  | 8 => ⟨S8192, .f32⟩
  | 9 => ⟨S1x8192, .f32⟩
  | 10 => ⟨S8192x8192, .f32⟩
  | 11 => ⟨S8192x8192, .f32⟩
  | 12 => ⟨S8192x64, .f32⟩
  | 13 => ⟨S_, .f32⟩
  | 14 => ⟨S8192x64, .f32⟩
  | 15 => ⟨S8192x64, .f32⟩
  | 16 => ⟨S8192x64, .f32⟩
  | 17 => ⟨S8192x64, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_2 : Ref sig .tc := ⟨.hbm, 61, rfl⟩
abbrev main_v22 : Ref sig .tc := ⟨.hbm, 62, rfl⟩
abbrev main_v23 : Ref sig .tc := ⟨.hbm, 63, rfl⟩
abbrev main_cst_3 : Ref sig .tc := ⟨.hbm, 64, rfl⟩
abbrev main_v24 : Ref sig .tc := ⟨.hbm, 65, rfl⟩
abbrev main_v25 : Ref sig .tc := ⟨.hbm, 66, rfl⟩
abbrev main_c_4 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst_5 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_6 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_7 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_8 : Ref sig .tc := ⟨.hbm, 126, rfl⟩
abbrev main_v59 : Ref sig .tc := ⟨.hbm, 127, rfl⟩
abbrev main_cst_9 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_cst_10 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_cst_11 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bcast_S_S64 : S_.BroadcastsInDim S64 (![] : Fin 0 → Fin S64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d0 : S8192x8192.ReducesTo [0] S8192
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x64 : S_.BroadcastsInDim S8192x64 (![] : Fin 0 → Fin S8192x64.rank)
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Reg0Defs.lean ====
/-
  Region 0 computes, for each block of 512 key columns, the column-wise log-sum-exp of the masked scores by a running
  (maximum, rescaled sum of exponentials) kept in two one-row scratch buffers across the 8 row tiles of the column block:
  the first row tile resets them, every tile updates them, the last tile writes maximum + log sum into the output block.
  This module fixes what the three kinds of grid point share: the two branch conditions in closed form over the grid,
  where the output window is idle, and the names of the staging and scratch buffers the body is called with.
-/
import proofs.«147333_j46926812676545_1_alg».proof.Proof.Gen.KernelIdeal.Launch
import proofs.«147333_j46926812676545_1_alg».proof.Proof.Gen.KernelIdeal.Skeleton
import proofs.«147333_j46926812676545_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid (16 column blocks by 8 row tiles; point t = 8 * block + tile) -/

/-- "This is the first row tile": the running statistics are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last row tile": the output block is written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last row tile nothing is stored into the output block, and it is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The buffers the body is called with -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
/-- The running maximum's and the running sum's scratch rows. -/
abbrev scM0_0 : Memref sig .tc .vmem S1x512 .f32 := Memref.whole cc0_scratch0
abbrev scM0_1 : Memref sig .tc .vmem S1x512 .f32 := Memref.whole cc0_scratch1
abbrev VS0_0 : View sig .tc .vmem S1x512 .f32 := scM0_0.view
abbrev VS0_1 : View sig .tc .vmem S1x512 .f32 := scM0_1.view
/-- One staging buffer of the output window, through which its contents are stated. -/
abbrev VO0_3 : View sig .tc .vmem S1x512 .f32 := (ms0_3 ⟨0, by decide⟩).view

end Cert.KernelIdeal.Frm

end
-- ==== Proof.Reg0RunA.lean ====
/-
  The body at a point of the first row tile of a column block (the reset is taken, the final write is not): whatever the
  two scratch rows held, they end at the pieces the body's stores wrote; the three input blocks and the untouched output
  block are handed back as they were.
-/
import proofs.«147333_j46926812676545_1_alg».proof.Proof.Reg0Defs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) :
    Σ' (LS0 : List (View.Piece (Elt F) S1x512 .f32)), { LS1 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Frm

end
-- ==== Proof.Reg0RunB.lean ====
/-
  The body at a point of a middle row tile (neither the reset nor the final write is taken): the two scratch rows are
  read at what the tile before left and end at the pieces the stores wrote; inputs and the untouched output block are
  handed back as they were.
-/
import proofs.«147333_j46926812676545_1_alg».proof.Proof.Reg0RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) :
    Σ' (LS0 : List (View.Piece (Elt F) S1x512 .f32)), { LS1 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Frm

end
-- ==== Proof.Reg0RunC.lean ====
/-
  The body at a point of the last row tile of a column block (no reset; the final write is taken): the scratch rows are
  read at what the tile before left and updated, and the output block — whatever it held — ends at the pieces of the
  final store, maximum + log sum.
-/
import proofs.«147333_j46926812676545_1_alg».proof.Proof.Reg0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) :
    Σ' (L3 : List (View.Piece (Elt F) S1x512 .f32)) (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Frm

end
-- ==== Proof.Reg0Frame.lean ====
/-
  Region 0's frame half, at any contents `V` the region is entered from. After the body at grid point t the output block
  and the two scratch rows hold: at the first row tile of a column block, what the reset-and-update leaves; at a middle
  tile, the update of what the tile before left; at the last tile, also the output block at maximum + log sum. This is
  stated by recursion on the point; between points the scratch rows are kept in the region's invariant at exactly these
  contents (before the first point they hold anything), beside the scoped buffers the region does not use and the
  generator register. The body obligation is a case split on the two closed-form conditions, each leaf the run of that case.
-/
import proofs.«147333_j46926812676545_1_alg».proof.Proof.Reg0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces cover the buffer, and are read back -/

theorem scover0_A_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) (y : S1x512.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x512.size (by sl_kernel_rfl) y

def sout0_A_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) : Vec F S1x512 .f32 :=
  VS0_0.read (Elt F) (VS0_0.writes (Elt F) VS0_0.junk (kernelRun0_A c i arg2 harg2 arg3 harg3 arg4 harg4 arg5 harg5 arg6 harg6 arg7 harg7 hc0 hc1 x0 x1 x2).1)

theorem scover0_A_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) (y : S1x512.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x512.size (by sl_kernel_rfl) y

def sout0_A_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) : Vec F S1x512 .f32 :=
  VS0_1.read (Elt F) (VS0_1.writes (Elt F) VS0_1.junk (kernelRun0_A c i arg2 harg2 arg3 harg3 arg4 harg4 arg5 harg5 arg6 harg6 arg7 harg7 hc0 hc1 x0 x1 x2).2.1)

theorem scover0_B_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_B c i arg2 harg2 arg3 harg3 arg4 harg4 arg5 harg5 arg6 harg6 arg7 harg7 hc0 hc1 x0 x1 x2 xs0 xs1).1, y ∈ pc.1.set :=
  View.cover_of_tiledL (kernelRun0_B c i arg2 harg2 arg3 harg3 arg4 harg4 arg5 harg5 arg6 harg6 arg7 harg7 hc0 hc1 x0 x1 x2 xs0 xs1).1 S1x512.size (by sl_kernel_rfl) y

def sout0_B_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).1)

theorem scover0_B_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1x512.size (by sl_kernel_rfl) y

def sout0_B_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.1)

theorem cover0_C_3 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x512.size (by sl_kernel_rfl) y

def out0_C_3 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) : Vec F S1x512 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

theorem scover0_C_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1x512.size (by sl_kernel_rfl) y

def sout0_C_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

theorem scover0_C_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x512.size (by sl_kernel_rfl) y

def sout0_C_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- The output block where no case stores into it: a placeholder nothing consults (the block is neither written back nor read there). -/
def idle0_3 : Vec F S1x512 .f32 := VO0_3.read (Elt F) (VO0_3.writes (Elt F) VO0_3.junk [])

/-! ## Point by point -/

/-- After the body at position `n`: (the output block, the running-maximum row, the running-sum row). -/
def outsAt0 (c : Dev nD) : (n : ℕ) → n < cfg0.N → Vec F S1x512 .f32 × Vec F S1x512 .f32 × Vec F S1x512 .f32
  | 0, hn => (idle0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (idle0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (idle0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (idle0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idle0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers region 0 never touches (the other region's staging buffers and scratch), each at some contents. -/
def other0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ other0 c) ∗ (∃ r, prngReg c r)) := by
  unfold Pipeline.ΦA other0; rw [scopedRest0_eq]; simp only [scM0_0, scM0_1, owns_whole]; try rfl

/-- Before position `n`: before the first point every scoped buffer at anything; afterwards the two scratch rows at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ other0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ other0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ other0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 128 := lt_of_lt_of_eq t.isLt (show cfg0.N = 128 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0 sout0_A_1; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the region is handed (every scoped buffer at anything, the generator register) is the invariant before the first point. -/
theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives that back: the scratch rows' named contents are forgotten. -/
theorem Phi0_out (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, Hoth⟩, Hg⟩
  isplitr [Hg]
  · isplitl [HS0]; · iexists _; iexact HS0
    isplitl [HS1]; · iexists _; iexact HS1
    iexact Hoth
  iexact Hg

end Region0

end Cert.KernelIdeal.Frm

end
-- ==== Proof.Reg1Defs.lean ====
/-
  Region 1 forms, for each block of 1024 query rows, 0.1 * (weights · values) + mask · features by accumulating over the
  16 column tiles of 512 keys in one scratch block: the first column tile resets the accumulator, every tile adds its
  contribution, the last tile copies the accumulator into the output block. This module fixes what the three kinds of
  grid point share: the two branch conditions in closed form over the grid, where the output window is idle, and the
  names of the staging and scratch buffers the body is called with.
-/
import proofs.«147333_j46926812676545_1_alg».proof.Proof.Gen.KernelIdeal.Launch
import proofs.«147333_j46926812676545_1_alg».proof.Proof.Gen.KernelIdeal.Skeleton
import proofs.«147333_j46926812676545_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid (8 row blocks by 16 column tiles; point t = 16 * block + tile) -/

/-- "This is the first column tile": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column tile": the output block is written. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The buffers the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
/-- The accumulator's scratch block. -/
abbrev scM1_0 : Memref sig .tc .vmem S1024x64 .f32 := Memref.whole cc1_scratch0
abbrev VS1_0 : View sig .tc .vmem S1024x64 .f32 := scM1_0.view
/-- One staging buffer of the output window, through which its contents are stated. -/
abbrev VO1_6 : View sig .tc .vmem S1024x64 .f32 := (ms1_6 ⟨0, by decide⟩).view

end Cert.KernelIdeal.Frm

end
-- ==== Proof.Reg1RunA.lean ====
/-
  The body at a point of the first column tile of a row block (the reset is taken, the final copy is not): whatever the
  accumulator held, it ends at the pieces the body's stores wrote; the six input blocks and the untouched output block are
  handed back as they were.
-/
import proofs.«147333_j46926812676545_1_alg».proof.Proof.Reg1Defs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) :
    { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, fun xi6 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frm

end
-- ==== Proof.Reg1RunB.lean ====
/-
  The body at a point of a middle column tile (neither the reset nor the final copy is taken): the accumulator is read at
  what the tile before left and ends at the pieces the stores wrote; inputs and the untouched output block are handed back.
-/
import proofs.«147333_j46926812676545_1_alg».proof.Proof.Reg1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, fun xi6 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frm

end
-- ==== Proof.Reg1RunC.lean ====
/-
  The body at a point of the last column tile of a row block (no reset; the final copy is taken): the accumulator is read
  at what the tile before left and updated, and the output block — whatever it held — ends at the pieces of the final store.
-/
import proofs.«147333_j46926812676545_1_alg».proof.Proof.Reg1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    Σ' (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Frm

end
-- ==== Proof.Reg1Frame.lean ====
/-
  Region 1's frame half, at any contents `V` the region is entered from. After the body at grid point t the output block
  and the accumulator hold: at the first column tile of a row block, the reset accumulator plus the tile's contribution;
  at a middle tile, what the tile before left plus the tile's contribution; at the last tile, also the output block at the
  accumulator. Stated by recursion on the point; between points the accumulator is kept in the region's invariant at
  exactly these contents (before the first point it holds anything), beside the scoped buffers the region does not use
  and the generator register. The body obligation is a case split on the two closed-form conditions.
-/
import proofs.«147333_j46926812676545_1_alg».proof.Proof.Reg1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces cover the buffer, and are read back -/

theorem scover1_A_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (y : S1024x64.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1024x64.size (by sl_kernel_rfl) y

def sout1_A_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) : Vec F S1024x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).1)

theorem scover1_B_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1024x64.size (by sl_kernel_rfl) y

def sout1_B_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).1)

theorem cover1_C_6 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x64.size (by sl_kernel_rfl) y

def out1_C_6 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) : Vec F S1024x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x64.size (by sl_kernel_rfl) y

def sout1_C_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-- The output block where no case stores into it: a placeholder nothing consults. -/
def idle1_6 : Vec F S1024x64 .f32 := VO1_6.read (Elt F) (VO1_6.writes (Elt F) VO1_6.junk [])

/-! ## Point by point -/

/-- After the body at position `n`: (the output block, the accumulator). -/
def outsAt1 (c : Dev nD) : (n : ℕ) → n < cfg1.N → Vec F S1024x64 .f32 × Vec F S1024x64 .f32
  | 0, hn => (idle1_6, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (idle1_6, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (idle1_6, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idle1_6, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idle1_6, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers region 1 never touches (the other region's staging buffers and scratch rows), each at some contents, around what is said of the accumulator. -/
def rest1 (c : Dev nD) (S : sProp 𝕄) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

theorem PhiA1_eq (c : Dev nD) :
    (Pipeline.ΦA spec1 c : sProp 𝕄)
      = iprop(rest1 c (iprop(∃ d, owns (c : Thread nD τ) scM1_0 fullShare d)) ∗ (∃ r, prngReg c r)) := by
  unfold Pipeline.ΦA rest1; rw [scopedRest1_eq]; simp only [scM1_0, owns_whole]; try rfl

/-- Before position `n`: before the first point every scoped buffer at anything; afterwards the accumulator at what the point before left. -/
def PhiS1 (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  have hN : t.val < 128 := lt_of_lt_of_eq t.isLt (show cfg1.N = 128 from N_1)
  by_cases h0 : t.val % 16 = 0
  · have h1 : ¬t.val % 16 = 15 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 16 = 15
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      rw [PhiS1_castSucc V c t, PhiS1_pos V c _ _ hz]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      rw [PhiS1_castSucc V c t, PhiS1_pos V c _ _ hz]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold rest1
  iintro ⟨⟨B1, B2, B3, B4, B5, B6, B7, B8, B9, B10, HS0⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexists _; iexact HS0
  iexact Hg

end Region1

end Cert.KernelIdeal.Frm

end
-- ==== Proof.KernelRun.lean ====
/-
  The whole run of the program: five stretches of host operations (the three projections and their normalisations), then
  the two kernel regions. Between two items every unscoped buffer of the core is held whole at a named valuation: the
  launch memory, then each stretch's operations applied, then — after a region — that region's arrays at what its
  write-backs leave (the inputs as entered, the output's blocks folded in) and every other buffer as entered. Each
  region is entered from the valuation before it and left at the one after it; the generator register and the core owing
  nothing ride along. One launch then gives: every weakly fair execution terminates, faults nowhere, and every unscoped
  buffer ends at the last valuation — from which the arguments are read back unchanged (no stretch and no region writes
  one) and the result array is what region 1's write-backs leave.
-/
import proofs.«147333_j46926812676545_1_alg».proof.Proof.Reg0Frame
import proofs.«147333_j46926812676545_1_alg».proof.Proof.Reg1Frame
import proofs.«147333_j46926812676545_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What region 0 is entered from (after the five host stretches), read at the TensorCore's references. -/
abbrev VA : (c : Dev nD) → (b : Ref sig .tc) → Buf (Elt F) ((c : Thread nD τ).loc b) := fun c b => V5 m c b

/-- At region 0's exit: its arrays at what the pipeline leaves, every other buffer as entered. -/
def W6 (c : Dev nD) : Valuation τ sig (Elt F) :=
  Pipeline.withArrays spec0 c (V5 m c) fun w => (dat0 (VA m) c).arrAt w cfg0.N
theorem W6_arr (c : Dev nD) (w : Fin cfg0.W) :
    W6 m c (Proc.devRef .tc (Pipeline.arrRef spec0 w)) = (dat0 (VA m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev VB : (c : Dev nD) → (b : Ref sig .tc) → Buf (Elt F) ((c : Thread nD τ).loc b) := fun c b => W6 m c b
theorem hF0 (c : Dev nD) (w : Fin cfg0.W) : (dat0 (VA m) c).arrAt w cfg0.N = VB m c (Pipeline.arrRef spec0 w) :=
  (W6_arr m c w).symm
theorem hrest0 (c : Dev nD) : ∀ b, b ∉ Finset.univ.image (Pipeline.arrRef spec0) → VB m c b = VA m c b :=
  fun b hb => W6_of_ne m c b fun w e => hb (Finset.mem_image.mpr ⟨w, Finset.mem_univ _, e⟩)

/-- At region 1's exit, likewise. -/
def W7 (c : Dev nD) : Valuation τ sig (Elt F) :=
  Pipeline.withArrays spec1 c (W6 m c) fun w => (dat1 (VB m) c).arrAt w cfg1.N
theorem W7_arr (c : Dev nD) (w : Fin cfg1.W) :
    W7 m c (Proc.devRef .tc (Pipeline.arrRef spec1 w)) = (dat1 (VB m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev VC : (c : Dev nD) → (b : Ref sig .tc) → Buf (Elt F) ((c : Thread nD τ).loc b) := fun c b => W7 m c b
theorem hF1 (c : Dev nD) (w : Fin cfg1.W) : (dat1 (VB m) c).arrAt w cfg1.N = VC m c (Pipeline.arrRef spec1 w) :=
  (W7_arr m c w).symm
theorem hrest1 (c : Dev nD) : ∀ b, b ∉ Finset.univ.image (Pipeline.arrRef spec1) → VC m c b = VB m c b :=
  fun b hb => W7_of_ne m c b fun w e => hb (Finset.mem_image.mpr ⟨w, Finset.mem_univ _, e⟩)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = V5 m c (Proc.devRef .tc main_arg0) := W6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := (W7_arr m c 4).trans (((dat1 (VB m) c).arrAt_in 4 rfl _).trans (A_eq1 (VB m) c 4))
    _ = V5 m c (Proc.devRef .tc main_arg1) := W6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := (W7_arr m c 0).trans (((dat1 (VB m) c).arrAt_in 0 rfl _).trans (A_eq1 (VB m) c 0))
    _ = V5 m c (Proc.devRef .tc main_arg2) := (W6_arr m c 0).trans (((dat0 (VA m) c).arrAt_in 0 rfl _).trans (A_eq0 (VA m) c 0))
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = V5 m c (Proc.devRef .tc main_arg3) := W6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = V5 m c (Proc.devRef .tc main_arg4) := W6_of_ne m c main_arg4 (by decide)
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = V5 m c (Proc.devRef .tc main_arg5) := W6_of_ne m c main_arg5 (by decide)
    _ = m ((c : Thread nD τ).loc main_arg5) := (V5_of m c main_arg5 (by decide)).trans <| (V4_of m c main_arg5 (by decide)).trans <| (V3_of m c main_arg5 (by decide)).trans <| (V2_of m c main_arg5 (by decide)).trans <| (V1_of m c main_arg5 (by decide)).trans rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of_ne m c main_arg6 (by decide)
    _ = V5 m c (Proc.devRef .tc main_arg6) := W6_of_ne m c main_arg6 (by decide)
    _ = m ((c : Thread nD τ).loc main_arg6) := (V5_of m c main_arg6 (by decide)).trans <| (V4_of m c main_arg6 (by decide)).trans <| (V3_of m c main_arg6 (by decide)).trans <| (V2_of m c main_arg6 (by decide)).trans <| (V1_of m c main_arg6 (by decide)).trans rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = V5 m c (Proc.devRef .tc main_arg7) := W6_of_ne m c main_arg7 (by decide)
    _ = m ((c : Thread nD τ).loc main_arg7) := (V5_of m c main_arg7 (by decide)).trans <| (V4_of m c main_arg7 (by decide)).trans <| (V3_of m c main_arg7 (by decide)).trans <| (V2_of m c main_arg7 (by decide)).trans <| (V1_of m c main_arg7 (by decide)).trans rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_of_ne m c main_arg8 (by decide)
    _ = V5 m c (Proc.devRef .tc main_arg8) := W6_of_ne m c main_arg8 (by decide)
    _ = m ((c : Thread nD τ).loc main_arg8) := (V5_of m c main_arg8 (by decide)).trans <| (V4_of m c main_arg8 (by decide)).trans <| (V3_of m c main_arg8 (by decide)).trans <| (V2_of m c main_arg8 (by decide)).trans <| (V1_of m c main_arg8 (by decide)).trans rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_of_ne m c main_arg9 (by decide)
    _ = V5 m c (Proc.devRef .tc main_arg9) := W6_of_ne m c main_arg9 (by decide)
    _ = m ((c : Thread nD τ).loc main_arg9) := (V5_of m c main_arg9 (by decide)).trans <| (V4_of m c main_arg9 (by decide)).trans <| (V3_of m c main_arg9 (by decide)).trans <| (V2_of m c main_arg9 (by decide)).trans <| (V1_of m c main_arg9 (by decide)).trans rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_of_ne m c main_arg10 (by decide)
    _ = V5 m c (Proc.devRef .tc main_arg10) := W6_of_ne m c main_arg10 (by decide)
    _ = m ((c : Thread nD τ).loc main_arg10) := (V5_of m c main_arg10 (by decide)).trans <| (V4_of m c main_arg10 (by decide)).trans <| (V3_of m c main_arg10 (by decide)).trans <| (V2_of m c main_arg10 (by decide)).trans <| (V1_of m c main_arg10 (by decide)).trans rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := W7_of_ne m c main_arg11 (by decide)
    _ = V5 m c (Proc.devRef .tc main_arg11) := W6_of_ne m c main_arg11 (by decide)
    _ = m ((c : Thread nD τ).loc main_arg11) := (V5_of m c main_arg11 (by decide)).trans <| (V4_of m c main_arg11 (by decide)).trans <| (V3_of m c main_arg11 (by decide)).trans <| (V2_of m c main_arg11 (by decide)).trans <| (V1_of m c main_arg11 (by decide)).trans rfl

theorem W7_main_arg12 (c : Dev nD) : W7 m c (Proc.devRef .tc main_arg12) = m ((c : Thread nD τ).loc main_arg12) :=
  calc W7 m c (Proc.devRef .tc main_arg12)
    _ = W6 m c (Proc.devRef .tc main_arg12) := W7_of_ne m c main_arg12 (by decide)
    _ = V5 m c (Proc.devRef .tc main_arg12) := W6_of_ne m c main_arg12 (by decide)
    _ = m ((c : Thread nD τ).loc main_arg12) := (V5_of m c main_arg12 (by decide)).trans <| (V4_of m c main_arg12 (by decide)).trans <| (V3_of m c main_arg12 (by decide)).trans <| (V2_of m c main_arg12 (by decide)).trans <| (V1_of m c main_arg12 (by decide)).trans rfl

/-! ## The proof data family and the thread state -/

abbrev admK : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admK p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the boundary's contents, left at the next
    boundary's. Its arrays are split out of the unscoped buffers and put back at their exit contents; the generator
    register goes into the region's invariant and comes back; nothing is owed; the kernel has no semaphore of its own. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) admK (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Phi0_in (VA m) c)
    unfold Pipeline.ΦA
    iintro ⟨Hp, -, Hr⟩
    isplitl [Hr]; · iexact Hr
    iexact Hp
  hout c := by
    refine (Phi0_out (VA m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at their exit contents; the generator
    register goes into the region's invariant and comes back; nothing is owed; the kernel has no semaphore of its own. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) admK (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Phi1_in (VB m) c)
    unfold Pipeline.ΦA
    iintro ⟨Hp, -, Hr⟩
    isplitl [Hr]; · iexact Hr
    iexact Hp
  hout c := by
    refine (Phi1_out (VB m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's seven items in order. -/
abbrev segsK : List (Pipeline.Seg (pcfgs (F := F)) admK (pdats m) () defs₀ 𝒱₀ L lv) :=
  [ .host (seg0 m 𝒱₀ L lv fun _ => R), .host (seg1 m 𝒱₀ L lv fun _ => R), .host (seg2 m 𝒱₀ L lv fun _ => R),
    .host (seg3 m 𝒱₀ L lv fun _ => R), .host (seg4 m 𝒱₀ L lv fun _ => R), .region (reg0 m), .region (reg1 m) ]

set_option backward.isDefEq.respectTransparency.types false in
/-- Every weakly fair execution of @main terminates, nothing faulting, with every unscoped buffer of every core at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit_dev (pcfgs (F := F)) admK (pdats m) () cellOf_inj emb₁ defs₀ 𝒱₀ L lv m ρ main (fun _ => segsK m)
    (fun c Q => by
      rewrite [main_chain c, Pipeline.Seg.run_eq_chain,
        show (segsK m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (fun c => by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c),
     (h c _ (mem_uc main_arg12 (by decide))).trans (W7_main_arg12 m c)⟩) (run_all m ρ)

/-- The run with the result named: the result array ends at what region 1's write-backs leave. -/
theorem run_result : θ_run defs (onTc (τ := τ) (main (F := F))) ⟨m, fun _ => 0, ρ⟩ (fun r => ∀ c : Dev nD,
      r.2.mem ((c.tc : Thread nD τ).loc main_v55) = (dat1 (VB m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v55 (by decide))).trans (W7_arr m c 6),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c),
     (h c _ (mem_uc main_arg12 (by decide))).trans (W7_main_arg12 m c)⟩) (run_all m ρ)

end Cert.KernelIdeal.Frm

end
-- ==== Proof.BReg0Defs.lean ====
/-
  Region 0 computes, for each block of 512 key columns, the column-wise log-sum-exp of the masked scores by a running
  (maximum, rescaled sum of exponentials) kept in two one-row scratch buffers across the 8 row tiles of the column block:
  the first row tile resets them, every tile updates them, the last tile writes maximum + log sum into the output block.
  This module fixes what the three kinds of grid point share: the two branch conditions in closed form over the grid,
  where the output window is idle, and the names of the staging and scratch buffers the body is called with.
-/
import proofs.«147333_j46926812676545_1_alg».proof.Proof.Gen.Kernel.Launch
import proofs.«147333_j46926812676545_1_alg».proof.Proof.Gen.Kernel.Skeleton
import proofs.«147333_j46926812676545_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid (16 column blocks by 8 row tiles; point t = 8 * block + tile) -/

/-- "This is the first row tile": the running statistics are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last row tile": the output block is written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last row tile nothing is stored into the output block, and it is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The buffers the body is called with -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
/-- The running maximum's and the running sum's scratch rows. -/
abbrev scM0_0 : Memref sig .tc .vmem S1x512 .f32 := Memref.whole cc0_scratch0
abbrev scM0_1 : Memref sig .tc .vmem S1x512 .f32 := Memref.whole cc0_scratch1
abbrev VS0_0 : View sig .tc .vmem S1x512 .f32 := scM0_0.view
abbrev VS0_1 : View sig .tc .vmem S1x512 .f32 := scM0_1.view
/-- One staging buffer of the output window, through which its contents are stated. -/
abbrev VO0_3 : View sig .tc .vmem S1x512 .f32 := (ms0_3 ⟨0, by decide⟩).view

end Cert.Kernel.Frm

end
-- ==== Proof.BReg0RunA.lean ====
/-
  The body at a point of the first row tile of a column block (the reset is taken, the final write is not): whatever the
  two scratch rows held, they end at the pieces the body's stores wrote; the three input blocks and the untouched output
  block are handed back as they were.
-/
import proofs.«147333_j46926812676545_1_alg».proof.Proof.BReg0Defs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) :
    Σ' (LS0 : List (View.Piece (Elt F) S1x512 .f32)), { LS1 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Frm

end
-- ==== Proof.BReg0RunB.lean ====
/-
  The body at a point of a middle row tile (neither the reset nor the final write is taken): the two scratch rows are
  read at what the tile before left and end at the pieces the stores wrote; inputs and the untouched output block are
  handed back as they were.
-/
import proofs.«147333_j46926812676545_1_alg».proof.Proof.BReg0RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) :
    Σ' (LS0 : List (View.Piece (Elt F) S1x512 .f32)), { LS1 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Frm

end
-- ==== Proof.BReg0RunC.lean ====
/-
  The body at a point of the last row tile of a column block (no reset; the final write is taken): the scratch rows are
  read at what the tile before left and updated, and the output block — whatever it held — ends at the pieces of the
  final store, maximum + log sum.
-/
import proofs.«147333_j46926812676545_1_alg».proof.Proof.BReg0RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) :
    Σ' (L3 : List (View.Piece (Elt F) S1x512 .f32)) (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Frm

end
-- ==== Proof.BReg0Frame.lean ====
/-
  Region 0's frame half, at any contents `V` the region is entered from. After the body at grid point t the output block
  and the two scratch rows hold: at the first row tile of a column block, what the reset-and-update leaves; at a middle
  tile, the update of what the tile before left; at the last tile, also the output block at maximum + log sum. This is
  stated by recursion on the point; between points the scratch rows are kept in the region's invariant at exactly these
  contents (before the first point they hold anything), beside the scoped buffers the region does not use and the
  generator register. The body obligation is a case split on the two closed-form conditions, each leaf the run of that case.
-/
import proofs.«147333_j46926812676545_1_alg».proof.Proof.BReg0RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces cover the buffer, and are read back -/

theorem scover0_A_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) (y : S1x512.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x512.size (by sl_kernel_rfl) y

def sout0_A_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) : Vec F S1x512 .f32 :=
  VS0_0.read (Elt F) (VS0_0.writes (Elt F) VS0_0.junk (kernelRun0_A c i arg2 harg2 arg3 harg3 arg4 harg4 arg5 harg5 arg6 harg6 arg7 harg7 hc0 hc1 x0 x1 x2).1)

theorem scover0_A_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) (y : S1x512.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x512.size (by sl_kernel_rfl) y

def sout0_A_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1024x512 .f32) (x1 : Vec F S1024x64 .f32) (x2 : Vec F S512x64 .f32) : Vec F S1x512 .f32 :=
  VS0_1.read (Elt F) (VS0_1.writes (Elt F) VS0_1.junk (kernelRun0_A c i arg2 harg2 arg3 harg3 arg4 harg4 arg5 harg5 arg6 harg6 arg7 harg7 hc0 hc1 x0 x1 x2).2.1)

theorem scover0_B_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_B c i arg2 harg2 arg3 harg3 arg4 harg4 arg5 harg5 arg6 harg6 arg7 harg7 hc0 hc1 x0 x1 x2 xs0 xs1).1, y ∈ pc.1.set :=
  View.cover_of_tiledL (kernelRun0_B c i arg2 harg2 arg3 harg3 arg4 harg4 arg5 harg5 arg6 harg6 arg7 harg7 hc0 hc1 x0 x1 x2 xs0 xs1).1 S1x512.size (by sl_kernel_rfl) y

def sout0_B_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).1)

theorem scover0_B_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1x512.size (by sl_kernel_rfl) y

def sout0_B_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.1)

theorem cover0_C_3 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x512.size (by sl_kernel_rfl) y

def out0_C_3 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) : Vec F S1x512 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

theorem scover0_C_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1x512.size (by sl_kernel_rfl) y

def sout0_C_0 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

theorem scover0_C_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) (y : S1x512.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x512.size (by sl_kernel_rfl) y

def sout0_C_1 (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1024x512 .f32) (x1 : Vec F S1024x64 .f32) (x2 : Vec F S512x64 .f32) (xs0 : Vec F S1x512 .f32) (xs1 : Vec F S1x512 .f32) : Vec F S1x512 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- The output block where no case stores into it: a placeholder nothing consults (the block is neither written back nor read there). -/
def idle0_3 : Vec F S1x512 .f32 := VO0_3.read (Elt F) (VO0_3.writes (Elt F) VO0_3.junk [])

/-! ## Point by point -/

/-- After the body at position `n`: (the output block, the running-maximum row, the running-sum row). -/
def outsAt0 (c : Dev nD) : (n : ℕ) → n < cfg0.N → Vec F S1x512 .f32 × Vec F S1x512 .f32 × Vec F S1x512 .f32
  | 0, hn => (idle0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (idle0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (idle0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (idle0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idle0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers region 0 never touches (the other region's staging buffers and scratch), each at some contents. -/
def other0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ other0 c) ∗ (∃ r, prngReg c r)) := by
  unfold Pipeline.ΦA other0; rw [scopedRest0_eq]; simp only [scM0_0, scM0_1, owns_whole]; try rfl

/-- Before position `n`: before the first point every scoped buffer at anything; afterwards the two scratch rows at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ other0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ other0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ other0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 128 := lt_of_lt_of_eq t.isLt (show cfg0.N = 128 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0 sout0_A_1; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the region is handed (every scoped buffer at anything, the generator register) is the invariant before the first point. -/
theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives that back: the scratch rows' named contents are forgotten. -/
theorem Phi0_out (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, Hoth⟩, Hg⟩
  isplitr [Hg]
  · isplitl [HS0]; · iexists _; iexact HS0
    isplitl [HS1]; · iexists _; iexact HS1
    iexact Hoth
  iexact Hg

end Region0

end Cert.Kernel.Frm

end
-- ==== Proof.BReg1Defs.lean ====
/-
  Region 1 forms, for each block of 1024 query rows, 0.1 * (weights · values) + mask · features by accumulating over the
  16 column tiles of 512 keys in one scratch block: the first column tile resets the accumulator, every tile adds its
  contribution, the last tile copies the accumulator into the output block. This module fixes what the three kinds of
  grid point share: the two branch conditions in closed form over the grid, where the output window is idle, and the
  names of the staging and scratch buffers the body is called with.
-/
import proofs.«147333_j46926812676545_1_alg».proof.Proof.Gen.Kernel.Launch
import proofs.«147333_j46926812676545_1_alg».proof.Proof.Gen.Kernel.Skeleton
import proofs.«147333_j46926812676545_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid (8 row blocks by 16 column tiles; point t = 16 * block + tile) -/

/-- "This is the first column tile": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column tile": the output block is written. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The buffers the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
/-- The accumulator's scratch block. -/
abbrev scM1_0 : Memref sig .tc .vmem S1024x64 .f32 := Memref.whole cc1_scratch0
abbrev VS1_0 : View sig .tc .vmem S1024x64 .f32 := scM1_0.view
/-- One staging buffer of the output window, through which its contents are stated. -/
abbrev VO1_6 : View sig .tc .vmem S1024x64 .f32 := (ms1_6 ⟨0, by decide⟩).view

end Cert.Kernel.Frm

end
-- ==== Proof.BReg1RunA.lean ====
/-
  The body at a point of the first column tile of a row block (the reset is taken, the final copy is not): whatever the
  accumulator held, it ends at the pieces the body's stores wrote; the six input blocks and the untouched output block are
  handed back as they were.
-/
import proofs.«147333_j46926812676545_1_alg».proof.Proof.BReg1Defs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) :
    { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, fun xi6 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frm

end
-- ==== Proof.BReg1RunB.lean ====
/-
  The body at a point of a middle column tile (neither the reset nor the final copy is taken): the accumulator is read at
  what the tile before left and ends at the pieces the stores wrote; inputs and the untouched output block are handed back.
-/
import proofs.«147333_j46926812676545_1_alg».proof.Proof.BReg1RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, fun xi6 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frm

end
-- ==== Proof.BReg1RunC.lean ====
/-
  The body at a point of the last column tile of a row block (no reset; the final copy is taken): the accumulator is read
  at what the tile before left and updated, and the output block — whatever it held — ends at the pieces of the final store.
-/
import proofs.«147333_j46926812676545_1_alg».proof.Proof.BReg1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    Σ' (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Frm

end
-- ==== Proof.BReg1Frame.lean ====
/-
  Region 1's frame half, at any contents `V` the region is entered from. After the body at grid point t the output block
  and the accumulator hold: at the first column tile of a row block, the reset accumulator plus the tile's contribution;
  at a middle tile, what the tile before left plus the tile's contribution; at the last tile, also the output block at the
  accumulator. Stated by recursion on the point; between points the accumulator is kept in the region's invariant at
  exactly these contents (before the first point it holds anything), beside the scoped buffers the region does not use
  and the generator register. The body obligation is a case split on the two closed-form conditions.
-/
import proofs.«147333_j46926812676545_1_alg».proof.Proof.BReg1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces cover the buffer, and are read back -/

theorem scover1_A_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (y : S1024x64.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1024x64.size (by sl_kernel_rfl) y

def sout1_A_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) : Vec F S1024x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).1)

theorem scover1_B_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1024x64.size (by sl_kernel_rfl) y

def sout1_B_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).1)

theorem cover1_C_6 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x64.size (by sl_kernel_rfl) y

def out1_C_6 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) : Vec F S1024x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x64.size (by sl_kernel_rfl) y

def sout1_C_0 (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-- The output block where no case stores into it: a placeholder nothing consults. -/
def idle1_6 : Vec F S1024x64 .f32 := VO1_6.read (Elt F) (VO1_6.writes (Elt F) VO1_6.junk [])

/-! ## Point by point -/

/-- After the body at position `n`: (the output block, the accumulator). -/
def outsAt1 (c : Dev nD) : (n : ℕ) → n < cfg1.N → Vec F S1024x64 .f32 × Vec F S1024x64 .f32
  | 0, hn => (idle1_6, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (idle1_6, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (idle1_6, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idle1_6, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idle1_6, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers region 1 never touches (the other region's staging buffers and scratch rows), each at some contents, around what is said of the accumulator. -/
def rest1 (c : Dev nD) (S : sProp 𝕄) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

theorem PhiA1_eq (c : Dev nD) :
    (Pipeline.ΦA spec1 c : sProp 𝕄)
      = iprop(rest1 c (iprop(∃ d, owns (c : Thread nD τ) scM1_0 fullShare d)) ∗ (∃ r, prngReg c r)) := by
  unfold Pipeline.ΦA rest1; rw [scopedRest1_eq]; simp only [scM1_0, owns_whole]; try rfl

/-- Before position `n`: before the first point every scoped buffer at anything; afterwards the accumulator at what the point before left. -/
def PhiS1 (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  have hN : t.val < 128 := lt_of_lt_of_eq t.isLt (show cfg1.N = 128 from N_1)
  by_cases h0 : t.val % 16 = 0
  · have h1 : ¬t.val % 16 = 15 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 16 = 15
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      rw [PhiS1_castSucc V c t, PhiS1_pos V c _ _ hz]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      rw [PhiS1_castSucc V c t, PhiS1_pos V c _ _ hz]
      unfold rest1
      iintro ⟨⟨⟨B1, B2, B3, B4, B5, B6, B7, B8, B9, B10, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [B1 B2 B3 B4 B5 B6 B7 B8 B9 B10 HS0 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold rest1
  iintro ⟨⟨B1, B2, B3, B4, B5, B6, B7, B8, B9, B10, HS0⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexists _; iexact HS0
  iexact Hg

end Region1

end Cert.Kernel.Frm

end
-- ==== Proof.BKernelRun.lean ====
/-
  The whole run of the program: five stretches of host operations (the three projections and their normalisations), then
  the two kernel regions. Between two items every unscoped buffer of the core is held whole at a named valuation: the
  launch memory, then each stretch's operations applied, then — after a region — that region's arrays at what its
  write-backs leave (the inputs as entered, the output's blocks folded in) and every other buffer as entered. Each
  region is entered from the valuation before it and left at the one after it; the generator register and the core owing
  nothing ride along. One launch then gives: every weakly fair execution terminates, faults nowhere, and every unscoped
  buffer ends at the last valuation — from which the arguments are read back unchanged (no stretch and no region writes
  one) and the result array is what region 1's write-backs leave.
-/
import proofs.«147333_j46926812676545_1_alg».proof.Proof.BReg0Frame
import proofs.«147333_j46926812676545_1_alg».proof.Proof.BReg1Frame
import proofs.«147333_j46926812676545_1_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What region 0 is entered from (after the five host stretches), read at the TensorCore's references. -/
abbrev VA : (c : Dev nD) → (b : Ref sig .tc) → Buf (Elt F) ((c : Thread nD τ).loc b) := fun c b => V5 m c b

/-- At region 0's exit: its arrays at what the pipeline leaves, every other buffer as entered. -/
def W6 (c : Dev nD) : Valuation τ sig (Elt F) :=
  Pipeline.withArrays spec0 c (V5 m c) fun w => (dat0 (VA m) c).arrAt w cfg0.N
theorem W6_arr (c : Dev nD) (w : Fin cfg0.W) :
    W6 m c (Proc.devRef .tc (Pipeline.arrRef spec0 w)) = (dat0 (VA m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev VB : (c : Dev nD) → (b : Ref sig .tc) → Buf (Elt F) ((c : Thread nD τ).loc b) := fun c b => W6 m c b
theorem hF0 (c : Dev nD) (w : Fin cfg0.W) : (dat0 (VA m) c).arrAt w cfg0.N = VB m c (Pipeline.arrRef spec0 w) :=
  (W6_arr m c w).symm
theorem hrest0 (c : Dev nD) : ∀ b, b ∉ Finset.univ.image (Pipeline.arrRef spec0) → VB m c b = VA m c b :=
  fun b hb => W6_of_ne m c b fun w e => hb (Finset.mem_image.mpr ⟨w, Finset.mem_univ _, e⟩)

/-- At region 1's exit, likewise. -/
def W7 (c : Dev nD) : Valuation τ sig (Elt F) :=
  Pipeline.withArrays spec1 c (W6 m c) fun w => (dat1 (VB m) c).arrAt w cfg1.N
theorem W7_arr (c : Dev nD) (w : Fin cfg1.W) :
    W7 m c (Proc.devRef .tc (Pipeline.arrRef spec1 w)) = (dat1 (VB m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev VC : (c : Dev nD) → (b : Ref sig .tc) → Buf (Elt F) ((c : Thread nD τ).loc b) := fun c b => W7 m c b
theorem hF1 (c : Dev nD) (w : Fin cfg1.W) : (dat1 (VB m) c).arrAt w cfg1.N = VC m c (Pipeline.arrRef spec1 w) :=
  (W7_arr m c w).symm
theorem hrest1 (c : Dev nD) : ∀ b, b ∉ Finset.univ.image (Pipeline.arrRef spec1) → VC m c b = VB m c b :=
  fun b hb => W7_of_ne m c b fun w e => hb (Finset.mem_image.mpr ⟨w, Finset.mem_univ _, e⟩)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = V5 m c (Proc.devRef .tc main_arg0) := W6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := (W7_arr m c 4).trans (((dat1 (VB m) c).arrAt_in 4 rfl _).trans (A_eq1 (VB m) c 4))
    _ = V5 m c (Proc.devRef .tc main_arg1) := W6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := (W7_arr m c 0).trans (((dat1 (VB m) c).arrAt_in 0 rfl _).trans (A_eq1 (VB m) c 0))
    _ = V5 m c (Proc.devRef .tc main_arg2) := (W6_arr m c 0).trans (((dat0 (VA m) c).arrAt_in 0 rfl _).trans (A_eq0 (VA m) c 0))
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = V5 m c (Proc.devRef .tc main_arg3) := W6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = V5 m c (Proc.devRef .tc main_arg4) := W6_of_ne m c main_arg4 (by decide)
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = V5 m c (Proc.devRef .tc main_arg5) := W6_of_ne m c main_arg5 (by decide)
    _ = m ((c : Thread nD τ).loc main_arg5) := (V5_of m c main_arg5 (by decide)).trans <| (V4_of m c main_arg5 (by decide)).trans <| (V3_of m c main_arg5 (by decide)).trans <| (V2_of m c main_arg5 (by decide)).trans <| (V1_of m c main_arg5 (by decide)).trans rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of_ne m c main_arg6 (by decide)
    _ = V5 m c (Proc.devRef .tc main_arg6) := W6_of_ne m c main_arg6 (by decide)
    _ = m ((c : Thread nD τ).loc main_arg6) := (V5_of m c main_arg6 (by decide)).trans <| (V4_of m c main_arg6 (by decide)).trans <| (V3_of m c main_arg6 (by decide)).trans <| (V2_of m c main_arg6 (by decide)).trans <| (V1_of m c main_arg6 (by decide)).trans rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = V5 m c (Proc.devRef .tc main_arg7) := W6_of_ne m c main_arg7 (by decide)
    _ = m ((c : Thread nD τ).loc main_arg7) := (V5_of m c main_arg7 (by decide)).trans <| (V4_of m c main_arg7 (by decide)).trans <| (V3_of m c main_arg7 (by decide)).trans <| (V2_of m c main_arg7 (by decide)).trans <| (V1_of m c main_arg7 (by decide)).trans rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_of_ne m c main_arg8 (by decide)
    _ = V5 m c (Proc.devRef .tc main_arg8) := W6_of_ne m c main_arg8 (by decide)
    _ = m ((c : Thread nD τ).loc main_arg8) := (V5_of m c main_arg8 (by decide)).trans <| (V4_of m c main_arg8 (by decide)).trans <| (V3_of m c main_arg8 (by decide)).trans <| (V2_of m c main_arg8 (by decide)).trans <| (V1_of m c main_arg8 (by decide)).trans rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_of_ne m c main_arg9 (by decide)
    _ = V5 m c (Proc.devRef .tc main_arg9) := W6_of_ne m c main_arg9 (by decide)
    _ = m ((c : Thread nD τ).loc main_arg9) := (V5_of m c main_arg9 (by decide)).trans <| (V4_of m c main_arg9 (by decide)).trans <| (V3_of m c main_arg9 (by decide)).trans <| (V2_of m c main_arg9 (by decide)).trans <| (V1_of m c main_arg9 (by decide)).trans rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_of_ne m c main_arg10 (by decide)
    _ = V5 m c (Proc.devRef .tc main_arg10) := W6_of_ne m c main_arg10 (by decide)
    _ = m ((c : Thread nD τ).loc main_arg10) := (V5_of m c main_arg10 (by decide)).trans <| (V4_of m c main_arg10 (by decide)).trans <| (V3_of m c main_arg10 (by decide)).trans <| (V2_of m c main_arg10 (by decide)).trans <| (V1_of m c main_arg10 (by decide)).trans rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := W7_of_ne m c main_arg11 (by decide)
    _ = V5 m c (Proc.devRef .tc main_arg11) := W6_of_ne m c main_arg11 (by decide)
    _ = m ((c : Thread nD τ).loc main_arg11) := (V5_of m c main_arg11 (by decide)).trans <| (V4_of m c main_arg11 (by decide)).trans <| (V3_of m c main_arg11 (by decide)).trans <| (V2_of m c main_arg11 (by decide)).trans <| (V1_of m c main_arg11 (by decide)).trans rfl

theorem W7_main_arg12 (c : Dev nD) : W7 m c (Proc.devRef .tc main_arg12) = m ((c : Thread nD τ).loc main_arg12) :=
  calc W7 m c (Proc.devRef .tc main_arg12)
    _ = W6 m c (Proc.devRef .tc main_arg12) := W7_of_ne m c main_arg12 (by decide)
    _ = V5 m c (Proc.devRef .tc main_arg12) := W6_of_ne m c main_arg12 (by decide)
    _ = m ((c : Thread nD τ).loc main_arg12) := (V5_of m c main_arg12 (by decide)).trans <| (V4_of m c main_arg12 (by decide)).trans <| (V3_of m c main_arg12 (by decide)).trans <| (V2_of m c main_arg12 (by decide)).trans <| (V1_of m c main_arg12 (by decide)).trans rfl

/-! ## The proof data family and the thread state -/

abbrev admK : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admK p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the boundary's contents, left at the next
    boundary's. Its arrays are split out of the unscoped buffers and put back at their exit contents; the generator
    register goes into the region's invariant and comes back; nothing is owed; the kernel has no semaphore of its own. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) admK (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Phi0_in (VA m) c)
    unfold Pipeline.ΦA
    iintro ⟨Hp, -, Hr⟩
    isplitl [Hr]; · iexact Hr
    iexact Hp
  hout c := by
    refine (Phi0_out (VA m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at their exit contents; the generator
    register goes into the region's invariant and comes back; nothing is owed; the kernel has no semaphore of its own. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) admK (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Phi1_in (VB m) c)
    unfold Pipeline.ΦA
    iintro ⟨Hp, -, Hr⟩
    isplitl [Hr]; · iexact Hr
    iexact Hp
  hout c := by
    refine (Phi1_out (VB m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's seven items in order. -/
abbrev segsK : List (Pipeline.Seg (pcfgs (F := F)) admK (pdats m) () defs₀ 𝒱₀ L lv) :=
  [ .host (seg0 m 𝒱₀ L lv fun _ => R), .host (seg1 m 𝒱₀ L lv fun _ => R), .host (seg2 m 𝒱₀ L lv fun _ => R),
    .host (seg3 m 𝒱₀ L lv fun _ => R), .host (seg4 m 𝒱₀ L lv fun _ => R), .region (reg0 m), .region (reg1 m) ]

set_option backward.isDefEq.respectTransparency.types false in
/-- Every weakly fair execution of @main terminates, nothing faulting, with every unscoped buffer of every core at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit_dev (pcfgs (F := F)) admK (pdats m) () cellOf_inj emb₁ defs₀ 𝒱₀ L lv m ρ main (fun _ => segsK m)
    (fun c Q => by
      rewrite [main_chain c, Pipeline.Seg.run_eq_chain,
        show (segsK m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (fun c => by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c),
     (h c _ (mem_uc main_arg12 (by decide))).trans (W7_main_arg12 m c)⟩) (run_all m ρ)

/-- The run with the result named: the result array ends at what region 1's write-backs leave. -/
theorem run_result : θ_run defs (onTc (τ := τ) (main (F := F))) ⟨m, fun _ => 0, ρ⟩ (fun r => ∀ c : Dev nD,
      r.2.mem ((c.tc : Thread nD τ).loc main_v55) = (dat1 (VB m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v55 (by decide))).trans (W7_arr m c 6),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c),
     (h c _ (mem_uc main_arg12 (by decide))).trans (W7_main_arg12 m c)⟩) (run_all m ρ)

end Cert.Kernel.Frm

end
-- ==== Proof.RefRun.lean ====
import proofs.«147333_j46926812676545_1_alg».proof.Proof.Gen.ReferenceIdeal
import Idealize.ShloMosaic.Lib.StableHlo.Run

/-!
# The reference program as a list of host operations, and its run

The reference's `@main` is a straight line of StableHLO operations; the two calls of the outlined
variance function (and the select function it calls) are listed in place over the buffers of their
call records.  The list is cut into four stretches: the key projection with its layer
normalisation, the query projection with its layer normalisation, the value projection with its
affine normalisation, and the attention proper.  Every weakly fair execution terminates and leaves
each buffer at the fold of the operations over the launch contents.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The key branch: the projection of the second argument, its bias, and the layer normalisation (mean, variance through the outlined function, reciprocal square root). -/
abbrev opsK : List (HloOp τ sig (Elt F)) :=
  [ StableHlo.unary main_arg5 main_v0 ((transpose S64x64 [1, 0] · transposes_S64x64_S64x64_1_0) : (⟨S64x64, .f32⟩ : BufTy).Contents (Elt F) → (⟨S64x64, .f32⟩ : BufTy).Contents (Elt F)),
    StableHlo.binary main_arg1 main_v0 main_v1 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg6 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S8192x64 ![0, 1] bcast_S1x64_S8192x64_0_1 : (⟨S1x64, .f32⟩ : BufTy).Contents (Elt F) → (⟨S8192x64, .f32⟩ : BufTy).Contents (Elt F)),
    StableHlo.binary main_v1 main_v3 main_v4 (addf : (⟨S8192x64, .f32⟩ : BufTy).Contents (Elt F) → (⟨S8192x64, .f32⟩ : BufTy).Contents (Elt F) → (⟨S8192x64, .f32⟩ : BufTy).Contents (Elt F)),
    StableHlo.nullary main_cst (constant S_ .f32 0x00000000#32),
    StableHlo.binary main_v4 main_cst main_v5 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v5 main_v6 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x42800000#32),
    StableHlo.unary main_cst_0 main_v7 (broadcastInDim S8192x1 ![] bcast_S_S8192x1 : (⟨S_, .f32⟩ : BufTy).Contents (Elt F) → (⟨S8192x1, .f32⟩ : BufTy).Contents (Elt F)),
    StableHlo.binary main_v6 main_v7 main_v8 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    StableHlo.TRef.nullary main_call0.cst (constant S_ .f32 0x00000000#32),
    StableHlo.TRef.binary (.of main_v4) main_call0.cst main_call0.v0 (fun x v => Host.reduceAdd x v reducesTo_S8192x64_S8192_d1 h_S_),
    StableHlo.TRef.unary main_call0.v0 main_call0.v1 (broadcastInDim S8192x1 ![0] bcast_S8192_S8192x1_0),
    StableHlo.TRef.nullary main_call0.cst_0 (constant S_ .f32 0x42800000#32),
    StableHlo.TRef.unary main_call0.cst_0 main_call0.v2 (broadcastInDim S8192x1 ![] bcast_S_S8192x1),
    StableHlo.TRef.binary main_call0.v1 main_call0.v2 main_call0.v3 Host.divf,
    StableHlo.TRef.unary main_call0.v3 main_call0.v4 (broadcastInDim S8192x64 ![0, 1] bcast_S8192x1_S8192x64_0_1),
    StableHlo.TRef.binary (.of main_v4) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x42800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x64_S8192_d1 h_S_),
    StableHlo.TRef.unary main_call0.v9 main_call0.v10 (broadcastInDim S8192x1 ![0] bcast_S8192_S8192x1_0),
    StableHlo.TRef.unary main_call0.v8 main_call0.v11 (broadcastInDim S8192x1 ![] bcast_S_S8192x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8192x1 ![] bcast_S_S8192x1),
    StableHlo.TRef.ternary main_call0.v13 main_call0.v12 main_call0.call0.v1 main_call0.call0.v2 (fun p a b => select (broadcastInDim S8192x1 ![] bcast_S_S8192x1 p) a b),
    StableHlo.unary main_v8 main_v10 (broadcastInDim S8192x64 ![0, 1] bcast_S8192x1_S8192x64_0_1 : (⟨S8192x1, .f32⟩ : BufTy).Contents (Elt F) → (⟨S8192x64, .f32⟩ : BufTy).Contents (Elt F)),
    StableHlo.binary main_v4 main_v10 main_v11 (subf : (⟨S8192x64, .f32⟩ : BufTy).Contents (Elt F) → (⟨S8192x64, .f32⟩ : BufTy).Contents (Elt F) → (⟨S8192x64, .f32⟩ : BufTy).Contents (Elt F)),
    StableHlo.nullary main_cst_1 (constant S_ .f32 0x3727C5AC#32),
    StableHlo.unary main_cst_1 main_v12 (broadcastInDim S8192x1 ![] bcast_S_S8192x1 : (⟨S_, .f32⟩ : BufTy).Contents (Elt F) → (⟨S8192x1, .f32⟩ : BufTy).Contents (Elt F)),
    StableHlo.binary main_v9 main_v12 main_v13 (addf : (⟨S8192x1, .f32⟩ : BufTy).Contents (Elt F) → (⟨S8192x1, .f32⟩ : BufTy).Contents (Elt F) → (⟨S8192x1, .f32⟩ : BufTy).Contents (Elt F)),
    StableHlo.unary main_v13 main_v14 (Host.rsqrt : (⟨S8192x1, .f32⟩ : BufTy).Contents (Elt F) → (⟨S8192x1, .f32⟩ : BufTy).Contents (Elt F)),
    StableHlo.unary main_v14 main_v15 (broadcastInDim S8192x64 ![0, 1] bcast_S8192x1_S8192x64_0_1 : (⟨S8192x1, .f32⟩ : BufTy).Contents (Elt F) → (⟨S8192x64, .f32⟩ : BufTy).Contents (Elt F)),
    StableHlo.binary main_v11 main_v15 main_v16 (mulf : (⟨S8192x64, .f32⟩ : BufTy).Contents (Elt F) → (⟨S8192x64, .f32⟩ : BufTy).Contents (Elt F) → (⟨S8192x64, .f32⟩ : BufTy).Contents (Elt F)) ]

/-- The query branch: the same operations on the first argument. -/
abbrev opsQ : List (HloOp τ sig (Elt F)) :=
  [ StableHlo.unary main_arg3 main_v17 ((transpose S64x64 [1, 0] · transposes_S64x64_S64x64_1_0) : (⟨S64x64, .f32⟩ : BufTy).Contents (Elt F) → (⟨S64x64, .f32⟩ : BufTy).Contents (Elt F)),
    StableHlo.binary main_arg0 main_v17 main_v18 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg4 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S8192x64 ![0, 1] bcast_S1x64_S8192x64_0_1 : (⟨S1x64, .f32⟩ : BufTy).Contents (Elt F) → (⟨S8192x64, .f32⟩ : BufTy).Contents (Elt F)),
    StableHlo.binary main_v18 main_v20 main_v21 (addf : (⟨S8192x64, .f32⟩ : BufTy).Contents (Elt F) → (⟨S8192x64, .f32⟩ : BufTy).Contents (Elt F) → (⟨S8192x64, .f32⟩ : BufTy).Contents (Elt F)),
    StableHlo.nullary main_cst_2 (constant S_ .f32 0x00000000#32),
    StableHlo.binary main_v21 main_cst_2 main_v22 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v22 main_v23 (broadcastInDim S8192x1 ![0] bcast_S8192_S8192x1_0 : (⟨S8192, .f32⟩ : BufTy).Contents (Elt F) → (⟨S8192x1, .f32⟩ : BufTy).Contents (Elt F)),
    StableHlo.nullary main_cst_3 (constant S_ .f32 0x42800000#32),
    StableHlo.unary main_cst_3 main_v24 (broadcastInDim S8192x1 ![] bcast_S_S8192x1 : (⟨S_, .f32⟩ : BufTy).Contents (Elt F) → (⟨S8192x1, .f32⟩ : BufTy).Contents (Elt F)),
    StableHlo.binary main_v23 main_v24 main_v25 (Host.divf : (⟨S8192x1, .f32⟩ : BufTy).Contents (Elt F) → (⟨S8192x1, .f32⟩ : BufTy).Contents (Elt F) → (⟨S8192x1, .f32⟩ : BufTy).Contents (Elt F)),
    StableHlo.nullary main_c_4 (constantI S_ 32 0#32),
    StableHlo.TRef.nullary main_call1.cst (constant S_ .f32 0x00000000#32),
    StableHlo.TRef.binary (.of main_v21) main_call1.cst main_call1.v0 (fun x v => Host.reduceAdd x v reducesTo_S8192x64_S8192_d1 h_S_),
    StableHlo.TRef.unary main_call1.v0 main_call1.v1 (broadcastInDim S8192x1 ![0] bcast_S8192_S8192x1_0),
    StableHlo.TRef.nullary main_call1.cst_0 (constant S_ .f32 0x42800000#32),
    StableHlo.TRef.unary main_call1.cst_0 main_call1.v2 (broadcastInDim S8192x1 ![] bcast_S_S8192x1),
    StableHlo.TRef.binary main_call1.v1 main_call1.v2 main_call1.v3 Host.divf,
    StableHlo.TRef.unary main_call1.v3 main_call1.v4 (broadcastInDim S8192x64 ![0, 1] bcast_S8192x1_S8192x64_0_1),
    StableHlo.TRef.binary (.of main_v21) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x42800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x64_S8192_d1 h_S_),
    StableHlo.TRef.unary main_call1.v9 main_call1.v10 (broadcastInDim S8192x1 ![0] bcast_S8192_S8192x1_0),
    StableHlo.TRef.unary main_call1.v8 main_call1.v11 (broadcastInDim S8192x1 ![] bcast_S_S8192x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S8192x1 ![] bcast_S_S8192x1),
    StableHlo.TRef.ternary main_call1.v13 main_call1.v12 main_call1.call0.v1 main_call1.call0.v2 (fun p a b => select (broadcastInDim S8192x1 ![] bcast_S_S8192x1 p) a b),
    StableHlo.unary main_v25 main_v27 (broadcastInDim S8192x64 ![0, 1] bcast_S8192x1_S8192x64_0_1 : (⟨S8192x1, .f32⟩ : BufTy).Contents (Elt F) → (⟨S8192x64, .f32⟩ : BufTy).Contents (Elt F)),
    StableHlo.binary main_v21 main_v27 main_v28 (subf : (⟨S8192x64, .f32⟩ : BufTy).Contents (Elt F) → (⟨S8192x64, .f32⟩ : BufTy).Contents (Elt F) → (⟨S8192x64, .f32⟩ : BufTy).Contents (Elt F)),
    StableHlo.nullary main_cst_5 (constant S_ .f32 0x3727C5AC#32),
    StableHlo.unary main_cst_5 main_v29 (broadcastInDim S8192x1 ![] bcast_S_S8192x1 : (⟨S_, .f32⟩ : BufTy).Contents (Elt F) → (⟨S8192x1, .f32⟩ : BufTy).Contents (Elt F)),
    StableHlo.binary main_v26 main_v29 main_v30 (addf : (⟨S8192x1, .f32⟩ : BufTy).Contents (Elt F) → (⟨S8192x1, .f32⟩ : BufTy).Contents (Elt F) → (⟨S8192x1, .f32⟩ : BufTy).Contents (Elt F)),
    StableHlo.unary main_v30 main_v31 (Host.rsqrt : (⟨S8192x1, .f32⟩ : BufTy).Contents (Elt F) → (⟨S8192x1, .f32⟩ : BufTy).Contents (Elt F)),
    StableHlo.unary main_v31 main_v32 (broadcastInDim S8192x64 ![0, 1] bcast_S8192x1_S8192x64_0_1 : (⟨S8192x1, .f32⟩ : BufTy).Contents (Elt F) → (⟨S8192x64, .f32⟩ : BufTy).Contents (Elt F)),
    StableHlo.binary main_v28 main_v32 main_v33 (mulf : (⟨S8192x64, .f32⟩ : BufTy).Contents (Elt F) → (⟨S8192x64, .f32⟩ : BufTy).Contents (Elt F) → (⟨S8192x64, .f32⟩ : BufTy).Contents (Elt F)) ]

/-- The value branch up to the product with the scale vector. -/
abbrev opsV : List (HloOp τ sig (Elt F)) :=
  [ StableHlo.unary main_arg7 main_v34 ((transpose S64x64 [1, 0] · transposes_S64x64_S64x64_1_0) : (⟨S64x64, .f32⟩ : BufTy).Contents (Elt F) → (⟨S64x64, .f32⟩ : BufTy).Contents (Elt F)),
    StableHlo.binary main_arg1 main_v34 main_v35 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg8 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S8192x64 ![0, 1] bcast_S1x64_S8192x64_0_1 : (⟨S1x64, .f32⟩ : BufTy).Contents (Elt F) → (⟨S8192x64, .f32⟩ : BufTy).Contents (Elt F)),
    StableHlo.binary main_v35 main_v37 main_v38 (addf : (⟨S8192x64, .f32⟩ : BufTy).Contents (Elt F) → (⟨S8192x64, .f32⟩ : BufTy).Contents (Elt F) → (⟨S8192x64, .f32⟩ : BufTy).Contents (Elt F)),
    StableHlo.unary main_arg11 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S8192x64 ![0, 1] bcast_S1x64_S8192x64_0_1 : (⟨S1x64, .f32⟩ : BufTy).Contents (Elt F) → (⟨S8192x64, .f32⟩ : BufTy).Contents (Elt F)),
    StableHlo.binary main_v38 main_v40 main_v41 (subf : (⟨S8192x64, .f32⟩ : BufTy).Contents (Elt F) → (⟨S8192x64, .f32⟩ : BufTy).Contents (Elt F) → (⟨S8192x64, .f32⟩ : BufTy).Contents (Elt F)),
    StableHlo.nullary main_cst_6 (constant S_ .f32 0x3727C5AC#32),
    StableHlo.unary main_cst_6 main_v42 (broadcastInDim S64 ![] bcast_S_S64 : (⟨S_, .f32⟩ : BufTy).Contents (Elt F) → (⟨S64, .f32⟩ : BufTy).Contents (Elt F)),
    StableHlo.binary main_arg12 main_v42 main_v43 (addf : (⟨S64, .f32⟩ : BufTy).Contents (Elt F) → (⟨S64, .f32⟩ : BufTy).Contents (Elt F) → (⟨S64, .f32⟩ : BufTy).Contents (Elt F)),
    StableHlo.unary main_v43 main_v44 (Host.rsqrt : (⟨S64, .f32⟩ : BufTy).Contents (Elt F) → (⟨S64, .f32⟩ : BufTy).Contents (Elt F)),
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S8192x64 ![0, 1] bcast_S1x64_S8192x64_0_1 : (⟨S1x64, .f32⟩ : BufTy).Contents (Elt F) → (⟨S8192x64, .f32⟩ : BufTy).Contents (Elt F)),
    StableHlo.binary main_v41 main_v46 main_v47 (mulf : (⟨S8192x64, .f32⟩ : BufTy).Contents (Elt F) → (⟨S8192x64, .f32⟩ : BufTy).Contents (Elt F) → (⟨S8192x64, .f32⟩ : BufTy).Contents (Elt F)),
    StableHlo.unary main_arg9 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S8192x64 ![0, 1] bcast_S1x64_S8192x64_0_1 : (⟨S1x64, .f32⟩ : BufTy).Contents (Elt F) → (⟨S8192x64, .f32⟩ : BufTy).Contents (Elt F)),
    StableHlo.binary main_v47 main_v49 main_v50 (mulf : (⟨S8192x64, .f32⟩ : BufTy).Contents (Elt F) → (⟨S8192x64, .f32⟩ : BufTy).Contents (Elt F) → (⟨S8192x64, .f32⟩ : BufTy).Contents (Elt F)) ]

/-- The rest of the value branch (the shift), the scores, the column-wise softmax, and the two products that make the result. -/
abbrev opsA : List (HloOp τ sig (Elt F)) :=
  [ StableHlo.unary main_arg10 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S8192x64 ![0, 1] bcast_S1x64_S8192x64_0_1 : (⟨S1x64, .f32⟩ : BufTy).Contents (Elt F) → (⟨S8192x64, .f32⟩ : BufTy).Contents (Elt F)),
    StableHlo.binary main_v50 main_v52 main_v53 (addf : (⟨S8192x64, .f32⟩ : BufTy).Contents (Elt F) → (⟨S8192x64, .f32⟩ : BufTy).Contents (Elt F) → (⟨S8192x64, .f32⟩ : BufTy).Contents (Elt F)),
    StableHlo.unary main_v16 main_v54 ((transpose S64x8192 [1, 0] · transposes_S8192x64_S64x8192_1_0) : (⟨S8192x64, .f32⟩ : BufTy).Contents (Elt F) → (⟨S64x8192, .f32⟩ : BufTy).Contents (Elt F)),
    StableHlo.binary main_v33 main_v54 main_v55 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_7 (constant S_ .f32 0x3E000000#32),
    StableHlo.unary main_cst_7 main_v56 (broadcastInDim S8192x8192 ![] bcast_S_S8192x8192 : (⟨S_, .f32⟩ : BufTy).Contents (Elt F) → (⟨S8192x8192, .f32⟩ : BufTy).Contents (Elt F)),
    StableHlo.binary main_v55 main_v56 main_v57 (mulf : (⟨S8192x8192, .f32⟩ : BufTy).Contents (Elt F) → (⟨S8192x8192, .f32⟩ : BufTy).Contents (Elt F) → (⟨S8192x8192, .f32⟩ : BufTy).Contents (Elt F)),
    StableHlo.binary main_arg2 main_v57 main_v58 (mulf : (⟨S8192x8192, .f32⟩ : BufTy).Contents (Elt F) → (⟨S8192x8192, .f32⟩ : BufTy).Contents (Elt F) → (⟨S8192x8192, .f32⟩ : BufTy).Contents (Elt F)),
    StableHlo.nullary main_cst_8 (constant S_ .f32 0xFF800000#32),
    StableHlo.binary main_v58 main_cst_8 main_v59 ((fun x v => Host.reduce FloatOps.maximumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_cst_9 (constant S_ .f32 0xFF800000#32),
    StableHlo.unary main_cst_9 main_v60 (broadcastInDim S8192 ![] bcast_S_S8192 : (⟨S_, .f32⟩ : BufTy).Contents (Elt F) → (⟨S8192, .f32⟩ : BufTy).Contents (Elt F)),
    StableHlo.binary main_v60 main_v59 main_v61 (maximumf : (⟨S8192, .f32⟩ : BufTy).Contents (Elt F) → (⟨S8192, .f32⟩ : BufTy).Contents (Elt F) → (⟨S8192, .f32⟩ : BufTy).Contents (Elt F)),
    StableHlo.unary main_v61 main_v62 (broadcastInDim S1x8192 ![1] bcast_S8192_S1x8192_1 : (⟨S8192, .f32⟩ : BufTy).Contents (Elt F) → (⟨S1x8192, .f32⟩ : BufTy).Contents (Elt F)),
    StableHlo.unary main_v62 main_v63 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v58 main_v63 main_v64 (subf : (⟨S8192x8192, .f32⟩ : BufTy).Contents (Elt F) → (⟨S8192x8192, .f32⟩ : BufTy).Contents (Elt F) → (⟨S8192x8192, .f32⟩ : BufTy).Contents (Elt F)),
    StableHlo.unary main_v64 main_v65 (Host.exp : (⟨S8192x8192, .f32⟩ : BufTy).Contents (Elt F) → (⟨S8192x8192, .f32⟩ : BufTy).Contents (Elt F)),
    StableHlo.nullary main_cst_10 (constant S_ .f32 0x00000000#32),
    StableHlo.binary main_v65 main_cst_10 main_v66 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.unary main_v66 main_v67 (broadcastInDim S1x8192 ![1] bcast_S8192_S1x8192_1 : (⟨S8192, .f32⟩ : BufTy).Contents (Elt F) → (⟨S1x8192, .f32⟩ : BufTy).Contents (Elt F)),
    StableHlo.unary main_v67 main_v68 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v65 main_v68 main_v69 (Host.divf : (⟨S8192x8192, .f32⟩ : BufTy).Contents (Elt F) → (⟨S8192x8192, .f32⟩ : BufTy).Contents (Elt F) → (⟨S8192x8192, .f32⟩ : BufTy).Contents (Elt F)),
    StableHlo.binary main_v69 main_v53 main_v70 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    StableHlo.nullary main_cst_11 (constant S_ .f32 0x3DCCCCCD#32),
    StableHlo.unary main_cst_11 main_v71 (broadcastInDim S8192x64 ![] bcast_S_S8192x64 : (⟨S_, .f32⟩ : BufTy).Contents (Elt F) → (⟨S8192x64, .f32⟩ : BufTy).Contents (Elt F)),
    StableHlo.binary main_v71 main_v70 main_v72 (mulf : (⟨S8192x64, .f32⟩ : BufTy).Contents (Elt F) → (⟨S8192x64, .f32⟩ : BufTy).Contents (Elt F) → (⟨S8192x64, .f32⟩ : BufTy).Contents (Elt F)),
    StableHlo.binary main_arg2 main_arg1 main_v73 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    StableHlo.binary main_v72 main_v73 main_v74 (addf : (⟨S8192x64, .f32⟩ : BufTy).Contents (Elt F) → (⟨S8192x64, .f32⟩ : BufTy).Contents (Elt F) → (⟨S8192x64, .f32⟩ : BufTy).Contents (Elt F)) ]

/-- @main's operations, in order. -/
abbrev ops : List (HloOp τ sig (Elt F)) := opsK ++ (opsQ ++ (opsV ++ opsA))

set_option maxRecDepth 8192 in
set_option maxHeartbeats 4000000 in
theorem main_part0_eq (c : Dev nD) : main_part0 (F := F) c = seq (opsK ++ (opsQ ++ opsV)) := rfl

set_option maxRecDepth 8192 in
set_option maxHeartbeats 4000000 in
theorem main_part1_eq (c : Dev nD) : main_part1 (F := F) c = seq opsA := rfl

theorem main_eq (c : Dev nD) : main (F := F) c = seq ops := by
  have h : (ops : List (HloOp τ sig (Elt F))) = (opsK ++ (opsQ ++ opsV)) ++ opsA := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsK_sub : (opsK : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩

set_option maxRecDepth 8192 in
theorem opsQ_sub : (opsQ : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩

set_option maxRecDepth 8192 in
theorem opsV_sub : (opsV : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem opsA_sub : (opsA : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsK_sub op h, List.forall_iff_forall_mem.mp opsQ_sub op h,
      List.forall_iff_forall_mem.mp opsV_sub op h, List.forall_iff_forall_mem.mp opsA_sub op h]

/-! ## The operations as functions of whole arrays

Each stretch of the list computes one of these; they are stated at any float instance. -/

/-- The contents of an f32 buffer of a given shape. -/
abbrev Tn (F : FTy → Type) (s : Shape) : Type := (⟨s, EltTy.f32⟩ : BufTy).Contents (Elt F)

/-- A vector of 64 laid along every row. -/
def tRow (b : Tn F S64) : Tn F S8192x64 :=
  broadcastInDim S8192x64 ![0, 1] bcast_S1x64_S8192x64_0_1 (broadcastInDim S1x64 ![1] bcast_S64_S1x64_1 b)

/-- The linear layer: the product with the transposed weight, plus the bias along every row. -/
def tLin (x : Tn F S8192x64) (w : Tn F S64x64) (b : Tn F S64) : Tn F S8192x64 :=
  addf (Host.dotGeneral dot_S8192x64_S64x64_S8192x64_1_0_0_1_n_n none x (transpose S64x64 [1, 0] w transposes_S64x64_S64x64_1_0))
    (tRow b)

/-- The mean of each row: its sum from zero, divided by 64. -/
def tMean (y : Tn F S8192x64) : Tn F S8192x1 :=
  Host.divf (broadcastInDim S8192x1 ![0] bcast_S8192_S8192x1_0
      (Host.reduceAdd y (constant S_ .f32 0x00000000#32) reducesTo_S8192x64_S8192_d1 h_S_))
    (broadcastInDim S8192x1 ![] bcast_S_S8192x1 (constant S_ .f32 0x42800000#32))

/-- Each row less its mean. -/
def tCenter (y : Tn F S8192x64) : Tn F S8192x64 :=
  subf y (broadcastInDim S8192x64 ![0, 1] bcast_S8192x1_S8192x64_0_1 (tMean y))

/-- The divisor of the variance: 64 less the converted integer zero. -/
def tDen : Tn F S_ := subf (constant S_ .f32 0x42800000#32) (sitofp .f32 (constantI S_ 32 0#32))

/-- The variance of each row as the outlined function computes it: the sum of the squared deviations over the
    divisor where the divisor is positive, the not-a-number pattern elsewhere. -/
def tVar (y : Tn F S8192x64) : Tn F S8192x1 :=
  select (broadcastInDim S8192x1 ![] bcast_S_S8192x1 (cmpf .ogt (tDen (F := F)) (constant S_ .f32 0x00000000#32)))
    (Host.divf (broadcastInDim S8192x1 ![0] bcast_S8192_S8192x1_0
        (Host.reduceAdd (mulf (tCenter y) (tCenter y)) (constant S_ .f32 0x00000000#32) reducesTo_S8192x64_S8192_d1 h_S_))
      (broadcastInDim S8192x1 ![] bcast_S_S8192x1 (tDen (F := F))))
    (broadcastInDim S8192x1 ![] bcast_S_S8192x1 (id (constant S_ .f32 0x7FC00000#32)))

/-- The layer normalisation of each row. -/
def tLn (y : Tn F S8192x64) : Tn F S8192x64 :=
  mulf (tCenter y) (broadcastInDim S8192x64 ![0, 1] bcast_S8192x1_S8192x64_0_1
    (Host.rsqrt (addf (tVar y) (broadcastInDim S8192x1 ![] bcast_S_S8192x1 (constant S_ .f32 0x3727C5AC#32)))))

/-- The value branch before its shift. -/
def tV0 (h : Tn F S8192x64) (w : Tn F S64x64) (b gamma mean var : Tn F S64) : Tn F S8192x64 :=
  mulf (mulf (subf (tLin h w b) (tRow mean))
      (tRow (Host.rsqrt (addf var (broadcastInDim S64 ![] bcast_S_S64 (constant S_ .f32 0x3727C5AC#32))))))
    (tRow gamma)

/-- The value branch. -/
def tV (h : Tn F S8192x64) (w : Tn F S64x64) (b gamma beta mean var : Tn F S64) : Tn F S8192x64 :=
  addf (tV0 h w b gamma mean var) (tRow beta)

/-- The masked, scaled scores. -/
def tScore (mk : Tn F S8192x8192) (q k : Tn F S8192x64) : Tn F S8192x8192 :=
  mulf mk (mulf (Host.dotGeneral dot_S8192x64_S64x8192_S8192x8192_1_0_0_1_n_n none q
      (transpose S64x8192 [1, 0] k transposes_S8192x64_S64x8192_1_0))
    (broadcastInDim S8192x8192 ![] bcast_S_S8192x8192 (constant S_ .f32 0x3E000000#32)))

/-- A vector of 8192 laid along every row of the square. -/
def tCol (v : Tn F S8192) : Tn F S8192x8192 :=
  broadcastInDim S8192x8192 ![0, 1] bcast_S1x8192_S8192x8192_0_1 (broadcastInDim S1x8192 ![1] bcast_S8192_S1x8192_1 v)

/-- The maximum of each column, from minus infinity. -/
def tCmax (s : Tn F S8192x8192) : Tn F S8192 :=
  maximumf (broadcastInDim S8192 ![] bcast_S_S8192 (constant S_ .f32 0xFF800000#32))
    (Host.reduce FloatOps.maximumf s (constant S_ .f32 0xFF800000#32) reducesTo_S8192x8192_S8192_d0 h_S_)

/-- The exponential of each score less its column's maximum. -/
def tExp (s : Tn F S8192x8192) : Tn F S8192x8192 := Host.exp (subf s (tCol (tCmax s)))

/-- The softmax down the columns. -/
def tWeight (s : Tn F S8192x8192) : Tn F S8192x8192 :=
  Host.divf (tExp s) (tCol (Host.reduceAdd (tExp s) (constant S_ .f32 0x00000000#32) reducesTo_S8192x8192_S8192_d0 h_S_))

/-- The result: a tenth of the weighted values plus the mask's product with the second argument. -/
def tOut (mk : Tn F S8192x8192) (q k v h : Tn F S8192x64) : Tn F S8192x64 :=
  addf (mulf (broadcastInDim S8192x64 ![] bcast_S_S8192x64 (constant S_ .f32 0x3DCCCCCD#32))
      (Host.dotGeneral dot_S8192x8192_S8192x64_S8192x64_1_0_0_1_n_n none (tWeight (tScore mk q k)) v))
    (Host.dotGeneral dot_S8192x8192_S8192x64_S8192x64_1_0_0_1_n_n none mk h)

/-- The key array of a valuation's arguments. -/
def resK (V0 : Valuation τ sig (Elt F)) : Tn F S8192x64 :=
  tLn (tLin (V0 (Proc.devRef .tc main_arg1)) (V0 (Proc.devRef .tc main_arg5)) (V0 (Proc.devRef .tc main_arg6)))
/-- The query array. -/
def resQ (V0 : Valuation τ sig (Elt F)) : Tn F S8192x64 :=
  tLn (tLin (V0 (Proc.devRef .tc main_arg0)) (V0 (Proc.devRef .tc main_arg3)) (V0 (Proc.devRef .tc main_arg4)))
/-- The value array before its shift. -/
def resV0 (V0 : Valuation τ sig (Elt F)) : Tn F S8192x64 :=
  tV0 (V0 (Proc.devRef .tc main_arg1)) (V0 (Proc.devRef .tc main_arg7)) (V0 (Proc.devRef .tc main_arg8)) (V0 (Proc.devRef .tc main_arg9)) (V0 (Proc.devRef .tc main_arg11)) (V0 (Proc.devRef .tc main_arg12))
/-- The value array. -/
def resV (V0 : Valuation τ sig (Elt F)) : Tn F S8192x64 :=
  tV (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))
/-- The result array. -/
def resOut (V0 : Valuation τ sig (Elt F)) : Tn F S8192x64 :=
  tOut (V0 (Proc.devRef .tc main_arg2)) (resQ V0) (resK V0) (resV V0) (V0 (Proc.devRef .tc main_arg1))

/-! ## The fold, stretch by stretch -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem writes_sub_of_mem {op : HloOp τ sig (Elt F)} {y : Ref sig .tc} {Wl : List (Ref sig .tc)}
    (hw : op.writes = {Proc.devRef .tc y}) (hy : y ∈ Wl) :
    op.writes ⊆ (Wl.map (Proc.devRef (τ := τ) .tc)).toFinset := by
  rw [hw]; exact Finset.singleton_subset_iff.mpr (List.mem_toFinset.mpr (List.mem_map_of_mem hy))

/-- The contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl

/-- The contents after the first 1 stretch. -/
def val1 (V0 : Valuation τ sig (Elt F)) : Valuation τ sig (Elt F) := after opsK (val0 V0)
/-- The buffers the operations of this stretch write. -/
abbrev opsK_W : List (Ref sig .tc) := [main_v0, main_v1, main_v2, main_v3, main_v4, main_cst, main_v5, main_v6, main_cst_0, main_v7, main_v8, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v10, main_v11, main_cst_1, main_v12, main_v13, main_v14, main_v15, main_v16]
set_option maxRecDepth 8192 in
theorem opsK_writes : (opsK : List (HloOp τ sig (Elt F))).Forall fun op =>
    op.writes ⊆ (opsK_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_v4) rfl (by decide),
   writes_sub_of_mem (y := main_cst) rfl (by decide),
   writes_sub_of_mem (y := main_v5) rfl (by decide),
   writes_sub_of_mem (y := main_v6) rfl (by decide),
   writes_sub_of_mem (y := main_cst_0) rfl (by decide),
   writes_sub_of_mem (y := main_v7) rfl (by decide),
   writes_sub_of_mem (y := main_v8) rfl (by decide),
   writes_sub_of_mem (y := main_c) rfl (by decide),
   writes_sub_of_mem (y := main_call0.cst.ref) rfl (by decide),
   writes_sub_of_mem (y := main_call0.v0.ref) rfl (by decide),
   writes_sub_of_mem (y := main_call0.v1.ref) rfl (by decide),
   writes_sub_of_mem (y := main_call0.cst_0.ref) rfl (by decide),
   writes_sub_of_mem (y := main_call0.v2.ref) rfl (by decide),
   writes_sub_of_mem (y := main_call0.v3.ref) rfl (by decide),
   writes_sub_of_mem (y := main_call0.v4.ref) rfl (by decide),
   writes_sub_of_mem (y := main_call0.v5.ref) rfl (by decide),
   writes_sub_of_mem (y := main_call0.v6.ref) rfl (by decide),
   writes_sub_of_mem (y := main_call0.v7.ref) rfl (by decide),
   writes_sub_of_mem (y := main_call0.cst_1.ref) rfl (by decide),
   writes_sub_of_mem (y := main_call0.v8.ref) rfl (by decide),
   writes_sub_of_mem (y := main_call0.cst_2.ref) rfl (by decide),
   writes_sub_of_mem (y := main_call0.v9.ref) rfl (by decide),
   writes_sub_of_mem (y := main_call0.v10.ref) rfl (by decide),
   writes_sub_of_mem (y := main_call0.v11.ref) rfl (by decide),
   writes_sub_of_mem (y := main_call0.v12.ref) rfl (by decide),
   writes_sub_of_mem (y := main_call0.cst_3.ref) rfl (by decide),
   writes_sub_of_mem (y := main_call0.v13.ref) rfl (by decide),
   writes_sub_of_mem (y := main_call0.cst_4.ref) rfl (by decide),
   writes_sub_of_mem (y := main_call0.call0.v0.ref) rfl (by decide),
   writes_sub_of_mem (y := main_call0.call0.v1.ref) rfl (by decide),
   writes_sub_of_mem (y := main_call0.call0.v2.ref) rfl (by decide),
   writes_sub_of_mem (y := main_v10) rfl (by decide),
   writes_sub_of_mem (y := main_v11) rfl (by decide),
   writes_sub_of_mem (y := main_cst_1) rfl (by decide),
   writes_sub_of_mem (y := main_v12) rfl (by decide),
   writes_sub_of_mem (y := main_v13) rfl (by decide),
   writes_sub_of_mem (y := main_v14) rfl (by decide),
   writes_sub_of_mem (y := main_v15) rfl (by decide),
   writes_sub_of_mem (y := main_v16) rfl (by decide)⟩
/-- A buffer this stretch does not write keeps its contents through it. -/
theorem val1_keep (V0 : Valuation τ sig (Elt F)) (r : Ref sig .tc) (h : r ∉ opsK_W) :
    val1 V0 (Proc.devRef .tc r) = val0 V0 (Proc.devRef .tc r) :=
  after_of_writes_sub opsK _ opsK_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
set_option maxRecDepth 8192 in
set_option maxHeartbeats 17200000 in
theorem val1_main_v16 (V0 : Valuation τ sig (Elt F)) : val1 V0 (no_index (Proc.devRef .tc main_v16)) = resK V0 := by
  unfold val1
  simp only [opsK]
  after_results_simp
  simp only [val0_main_arg1, val0_main_arg5, val0_main_arg6]
  rfl

/-- The contents after the first 2 stretches. -/
def val2 (V0 : Valuation τ sig (Elt F)) : Valuation τ sig (Elt F) := after opsQ (val1 V0)
/-- The buffers the operations of this stretch write. -/
abbrev opsQ_W : List (Ref sig .tc) := [main_v17, main_v18, main_v19, main_v20, main_v21, main_cst_2, main_v22, main_v23, main_cst_3, main_v24, main_v25, main_c_4, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v27, main_v28, main_cst_5, main_v29, main_v30, main_v31, main_v32, main_v33]
set_option maxRecDepth 8192 in
theorem opsQ_writes : (opsQ : List (HloOp τ sig (Elt F))).Forall fun op =>
    op.writes ⊆ (opsQ_W.map (Proc.devRef (τ := τ) .tc)).toFinset :=
  ⟨writes_sub_of_mem (y := main_v17) rfl (by decide),
   writes_sub_of_mem (y := main_v18) rfl (by decide),
   writes_sub_of_mem (y := main_v19) rfl (by decide),
   writes_sub_of_mem (y := main_v20) rfl (by decide),
   writes_sub_of_mem (y := main_v21) rfl (by decide),
   writes_sub_of_mem (y := main_cst_2) rfl (by decide),
   writes_sub_of_mem (y := main_v22) rfl (by decide),
   writes_sub_of_mem (y := main_v23) rfl (by decide),
   writes_sub_of_mem (y := main_cst_3) rfl (by decide),
   writes_sub_of_mem (y := main_v24) rfl (by decide),
   writes_sub_of_mem (y := main_v25) rfl (by decide),
   writes_sub_of_mem (y := main_c_4) rfl (by decide),
   writes_sub_of_mem (y := main_call1.cst.ref) rfl (by decide),
   writes_sub_of_mem (y := main_call1.v0.ref) rfl (by decide),
   writes_sub_of_mem (y := main_call1.v1.ref) rfl (by decide),
   writes_sub_of_mem (y := main_call1.cst_0.ref) rfl (by decide),
   writes_sub_of_mem (y := main_call1.v2.ref) rfl (by decide),
   writes_sub_of_mem (y := main_call1.v3.ref) rfl (by decide),
   writes_sub_of_mem (y := main_call1.v4.ref) rfl (by decide),
   writes_sub_of_mem (y := main_call1.v5.ref) rfl (by decide),
   writes_sub_of_mem (y := main_call1.v6.ref) rfl (by decide),
   writes_sub_of_mem (y := main_call1.v7.ref) rfl (by decide),
   writes_sub_of_mem (y := main_call1.cst_1.ref) rfl (by decide),
   writes_sub_of_mem (y := main_call1.v8.ref) rfl (by decide),
   writes_sub_of_mem (y := main_call1.cst_2.ref) rfl (by decide),
   writes_sub_of_mem (y := main_call1.v9.ref) rfl (by decide),
   writes_sub_of_mem (y := main_call1.v10.ref) rfl (by decide),
   writes_sub_of_mem (y := main_call1.v11.ref) rfl (by decide),
   writes_sub_of_mem (y := main_call1.v12.ref) rfl (by decide),
   writes_sub_of_mem (y := main_call1.cst_3.ref) rfl (by decide),
   writes_sub_of_mem (y := main_call1.v13.ref) rfl (by decide),
   writes_sub_of_mem (y := main_call1.cst_4.ref) rfl (by decide),
   writes_sub_of_mem (y := main_call1.call0.v0.ref) rfl (by decide),
   writes_sub_of_mem (y := main_call1.call0.v1.ref) rfl (by decide),
   writes_sub_of_mem (y := main_call1.call0.v2.ref) rfl (by decide),
   writes_sub_of_mem (y := main_v27) rfl (by decide),
   writes_sub_of_mem (y := main_v28) rfl (by decide),
   writes_sub_of_mem (y := main_cst_5) rfl (by decide),
   writes_sub_of_mem (y := main_v29) rfl (by decide),
   writes_sub_of_mem (y := main_v30) rfl (by decide),
   writes_sub_of_mem (y := main_v31) rfl (by decide),
   writes_sub_of_mem (y := main_v32) rfl (by decide),
   writes_sub_of_mem (y := main_v33) rfl (by decide)⟩
/-- A buffer this stretch does not write keeps its contents through it. -/
theorem val2_keep (V0 : Valuation τ sig (Elt F)) (r : Ref sig .tc) (h : r ∉ opsQ_W) :
    val2 V0 (Proc.devRef .tc r) = val1 V0 (Proc.devRef .tc r) :=
  after_of_writes_sub opsQ _ opsQ_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_v16 (V0 : Valuation τ sig (Elt F)) : val2 V0 (no_index (Proc.devRef .tc main_v16)) = resK V0 :=
  (val2_keep V0 main_v16 (by decide)).trans (val1_main_v16 V0)
set_option maxRecDepth 8192 in
set_option maxHeartbeats 17200000 in
theorem val2_main_v33 (V0 : Valuation τ sig (Elt F)) : val2 V0 (no_index (Proc.devRef .tc main_v33)) = resQ V0 := by
  unfold val2
  simp only [opsQ]
  after_results_simp
  simp only [val1_main_arg0, val1_main_arg3, val1_main_arg4]
  rfl

/-- The contents after the first 3 stretches. -/
def val3 (V0 : Valuation τ sig (Elt F)) : Valuation τ sig (Elt F) := after opsV (val2 V0)
/-- The buffers the operations of this stretch write. -/
abbrev opsV_W : List (Ref sig .tc) := [main_v34, main_v35, main_v36, main_v37, main_v38, main_v39, main_v40, main_v41, main_cst_6, main_v42, main_v43, main_v44, main_v45, main_v46, main_v47, main_v48, main_v49, main_v50]
set_option maxRecDepth 8192 in
theorem opsV_writes : (opsV : List (HloOp τ sig (Elt F))).Forall fun op =>
    op.writes ⊆ (opsV_W.map (Proc.devRef (τ := τ) .tc)).toFinset :=
  ⟨writes_sub_of_mem (y := main_v34) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_cst_6) rfl (by decide),
   writes_sub_of_mem (y := main_v42) rfl (by decide),
   writes_sub_of_mem (y := main_v43) rfl (by decide),
   writes_sub_of_mem (y := main_v44) rfl (by decide),
   writes_sub_of_mem (y := main_v45) rfl (by decide),
   writes_sub_of_mem (y := main_v46) rfl (by decide),
   writes_sub_of_mem (y := main_v47) rfl (by decide),
   writes_sub_of_mem (y := main_v48) rfl (by decide),
   writes_sub_of_mem (y := main_v49) rfl (by decide),
   writes_sub_of_mem (y := main_v50) rfl (by decide)⟩
/-- A buffer this stretch does not write keeps its contents through it. -/
theorem val3_keep (V0 : Valuation τ sig (Elt F)) (r : Ref sig .tc) (h : r ∉ opsV_W) :
    val3 V0 (Proc.devRef .tc r) = val2 V0 (Proc.devRef .tc r) :=
  after_of_writes_sub opsV _ opsV_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_v16 (V0 : Valuation τ sig (Elt F)) : val3 V0 (no_index (Proc.devRef .tc main_v16)) = resK V0 :=
  (val3_keep V0 main_v16 (by decide)).trans (val2_main_v16 V0)
theorem val3_main_v33 (V0 : Valuation τ sig (Elt F)) : val3 V0 (no_index (Proc.devRef .tc main_v33)) = resQ V0 :=
  (val3_keep V0 main_v33 (by decide)).trans (val2_main_v33 V0)
set_option maxRecDepth 8192 in
set_option maxHeartbeats 7200000 in
theorem val3_main_v50 (V0 : Valuation τ sig (Elt F)) : val3 V0 (no_index (Proc.devRef .tc main_v50)) = resV0 V0 := by
  unfold val3
  simp only [opsV]
  after_results_simp
  simp only [val2_main_arg1, val2_main_arg7, val2_main_arg8, val2_main_arg9, val2_main_arg11, val2_main_arg12]
  rfl

/-- The contents after the first 4 stretches. -/
def val4 (V0 : Valuation τ sig (Elt F)) : Valuation τ sig (Elt F) := after opsA (val3 V0)
/-- The buffers the operations of this stretch write. -/
abbrev opsA_W : List (Ref sig .tc) := [main_v51, main_v52, main_v53, main_v54, main_v55, main_cst_7, main_v56, main_v57, main_v58, main_cst_8, main_v59, main_cst_9, main_v60, main_v61, main_v62, main_v63, main_v64, main_v65, main_cst_10, main_v66, main_v67, main_v68, main_v69, main_v70, main_cst_11, main_v71, main_v72, main_v73, main_v74]
set_option maxRecDepth 8192 in
theorem opsA_writes : (opsA : List (HloOp τ sig (Elt F))).Forall fun op =>
    op.writes ⊆ (opsA_W.map (Proc.devRef (τ := τ) .tc)).toFinset :=
  ⟨writes_sub_of_mem (y := main_v51) rfl (by decide),
   writes_sub_of_mem (y := main_v52) rfl (by decide),
   writes_sub_of_mem (y := main_v53) rfl (by decide),
   writes_sub_of_mem (y := main_v54) rfl (by decide),
   writes_sub_of_mem (y := main_v55) rfl (by decide),
   writes_sub_of_mem (y := main_cst_7) rfl (by decide),
   writes_sub_of_mem (y := main_v56) rfl (by decide),
   writes_sub_of_mem (y := main_v57) rfl (by decide),
   writes_sub_of_mem (y := main_v58) rfl (by decide),
   writes_sub_of_mem (y := main_cst_8) rfl (by decide),
   writes_sub_of_mem (y := main_v59) rfl (by decide),
   writes_sub_of_mem (y := main_cst_9) rfl (by decide),
   writes_sub_of_mem (y := main_v60) rfl (by decide),
   writes_sub_of_mem (y := main_v61) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_cst_10) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_cst_11) rfl (by decide),
   writes_sub_of_mem (y := main_v71) rfl (by decide),
   writes_sub_of_mem (y := main_v72) rfl (by decide),
   writes_sub_of_mem (y := main_v73) rfl (by decide),
   writes_sub_of_mem (y := main_v74) rfl (by decide)⟩
/-- A buffer this stretch does not write keeps its contents through it. -/
theorem val4_keep (V0 : Valuation τ sig (Elt F)) (r : Ref sig .tc) (h : r ∉ opsA_W) :
    val4 V0 (Proc.devRef .tc r) = val3 V0 (Proc.devRef .tc r) :=
  after_of_writes_sub opsA _ opsA_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
set_option maxRecDepth 8192 in
set_option maxHeartbeats 11600000 in
theorem val4_main_v74 (V0 : Valuation τ sig (Elt F)) : val4 V0 (no_index (Proc.devRef .tc main_v74)) = resOut V0 := by
  unfold val4
  simp only [opsA]
  after_results_simp
  simp only [val3_main_arg1, val3_main_arg2, val3_main_arg10, val3_main_v16, val3_main_v33, val3_main_v50]
  rfl

theorem after_ops (V0 : Valuation τ sig (Elt F)) : after ops V0 = val4 V0 := by
  simp only [ops, after_app]
  rfl

/-- At the compiled mesh, for any float values, from any memory with zero counters: every weakly fair execution of
    @main terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (by intro _ op h
        simp only [ops, List.mem_append] at h
        rcases h with h | h | h | h <;>
          ((repeat (cases h with | head => rfl | tail _ h => ?_)); exact nomatch h))

/-- Every weakly fair execution of @main terminates with the result buffer at the composed array of the arguments'
    launch contents and the thirteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = resOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v74).trans ((congrFun (after_ops _) _).trans (val4_main_v74 _)),
      (h c main_arg0).trans ((congrFun (after_ops _) _).trans (val4_main_arg0 _)),
      (h c main_arg1).trans ((congrFun (after_ops _) _).trans (val4_main_arg1 _)),
      (h c main_arg2).trans ((congrFun (after_ops _) _).trans (val4_main_arg2 _)),
      (h c main_arg3).trans ((congrFun (after_ops _) _).trans (val4_main_arg3 _)),
      (h c main_arg4).trans ((congrFun (after_ops _) _).trans (val4_main_arg4 _)),
      (h c main_arg5).trans ((congrFun (after_ops _) _).trans (val4_main_arg5 _)),
      (h c main_arg6).trans ((congrFun (after_ops _) _).trans (val4_main_arg6 _)),
      (h c main_arg7).trans ((congrFun (after_ops _) _).trans (val4_main_arg7 _)),
      (h c main_arg8).trans ((congrFun (after_ops _) _).trans (val4_main_arg8 _)),
      (h c main_arg9).trans ((congrFun (after_ops _) _).trans (val4_main_arg9 _)),
      (h c main_arg10).trans ((congrFun (after_ops _) _).trans (val4_main_arg10 _)),
      (h c main_arg11).trans ((congrFun (after_ops _) _).trans (val4_main_arg11 _)),
      (h c main_arg12).trans ((congrFun (after_ops _) _).trans (val4_main_arg12 _))⟩)
    (run_main m ρ)

end Cert.ReferenceIdeal.RefRun

end
-- ==== Proof.HostGlue.lean ====
import Idealize.ShloMosaic.PureOps.Ideal
import Idealize.ShloMosaic.PureOps.Ideal.Laws
import Idealize.ShloMosaic.Lib.ValueIdx

/-!
# The host glue on plain index types

The three projections the attention consumes, as functions of plain row and column indices over the
extended reals, spelled as the host operations compute them at the ideal values: a linear layer is the
sum over the contracted index of the products plus the bias; the layer normalisation subtracts the
row's mean (the row sum from zero over 64) and multiplies by the reciprocal square root of the row's
variance (the sum of squared deviations from zero over 64) plus a small constant; the affine
normalisation of the value branch shifts by a mean vector, scales by the reciprocal square root of a
variance vector plus the same constant, scales by a vector and shifts by another.  When every input
is a real number so is every entry of the layer normalisation: the variance is a quotient of a sum of
squares by 64, so the argument of the reciprocal square root is a positive real.
-/

open scoped BigOperators

noncomputable section

namespace Cert.HostGlue

open Idealize.ShloMosaic

/-- The f32 pattern of zero. -/
abbrev c0 : EReal := Ideal.ofBits .f32 0x00000000#32
/-- The f32 pattern of 64. -/
abbrev c64 : EReal := Ideal.ofBits .f32 0x42800000#32
/-- The f32 pattern nearest one hundred-thousandth. -/
abbrev cEps : EReal := Ideal.ofBits .f32 0x3727C5AC#32

/-- The linear layer: row r of X against row e of W, plus the bias. -/
def lin (X : Fin 8192 → Fin 64 → EReal) (W : Fin 64 → Fin 64 → EReal) (b : Fin 64 → EReal)
    (r : Fin 8192) (e : Fin 64) : EReal :=
  (∑ k : Fin 64, X r k * W e k) + b e

/-- The mean of a row. -/
def mean (Y : Fin 8192 → Fin 64 → EReal) (r : Fin 8192) : EReal :=
  Ideal.div (c0 + ∑ e : Fin 64, Y r e) c64

/-- A row less its mean. -/
def center (Y : Fin 8192 → Fin 64 → EReal) (r : Fin 8192) (e : Fin 64) : EReal := Y r e - mean Y r

/-- The variance of a row. -/
def var (Y : Fin 8192 → Fin 64 → EReal) (r : Fin 8192) : EReal :=
  Ideal.div (c0 + ∑ e : Fin 64, center Y r e * center Y r e) c64

/-- The layer normalisation of a row. -/
def ln (Y : Fin 8192 → Fin 64 → EReal) (r : Fin 8192) (e : Fin 64) : EReal :=
  center Y r e * Ideal.rsqrt (var Y r + cEps)

/-- The projection followed by the layer normalisation over the last axis. -/
def lnProj (X : Fin 8192 → Fin 64 → EReal) (W : Fin 64 → Fin 64 → EReal) (b : Fin 64 → EReal) :
    Fin 8192 → Fin 64 → EReal :=
  ln (lin X W b)

/-- The projection followed by the affine normalisation with the given vectors. -/
def bnProj (H : Fin 8192 → Fin 64 → EReal) (Vw : Fin 64 → Fin 64 → EReal) (Vb gamma beta mean var : Fin 64 → EReal) :
    Fin 8192 → Fin 64 → EReal :=
  fun r e => (lin H Vw Vb r e - mean e) * Ideal.rsqrt (var e + cEps) * gamma e + beta e

/-! ## The constants as reals -/

theorem c0_eq : c0 = 0 := Ideal.ofBits_zero_f32

theorem c64_eq : c64 = ((64 : ℝ) : EReal) := by
  simp [c64, Ideal.ofBits, Ideal.ieee, -EReal.coe_mul]; norm_num

theorem cEps_pos : ∃ x : ℝ, 0 < x ∧ cEps = (x : EReal) := by
  refine ⟨_, ?_, by simp [cEps, Ideal.ofBits, Ideal.ieee, -EReal.coe_mul]; rfl⟩
  norm_num

/-! ## Reals stay reals -/

/-- A finite sum of reals is a real. -/
theorem sum_real {ι : Type} (s : Finset ι) (f : ι → EReal) (h : ∀ k, ∃ x : ℝ, f k = x) :
    ∃ y : ℝ, ∑ k ∈ s, f k = y := by
  classical
  induction s using Finset.induction_on with
  | empty => exact ⟨0, by simp⟩
  | insert a s ha ih =>
    obtain ⟨y, hy⟩ := ih
    obtain ⟨x, hx⟩ := h a
    exact ⟨x + y, by rw [Finset.sum_insert ha, hx, hy, EReal.coe_add]⟩

/-- A finite sum of squares of reals is a real that is not negative. -/
theorem sum_sq_real {ι : Type} (s : Finset ι) (f : ι → EReal) (h : ∀ k, ∃ x : ℝ, f k = x) :
    ∃ y : ℝ, 0 ≤ y ∧ ∑ k ∈ s, f k * f k = y := by
  classical
  induction s using Finset.induction_on with
  | empty => exact ⟨0, le_refl _, by simp⟩
  | insert a s ha ih =>
    obtain ⟨y, hy0, hy⟩ := ih
    obtain ⟨x, hx⟩ := h a
    exact ⟨x * x + y, add_nonneg (mul_self_nonneg x) hy0, by
      rw [Finset.sum_insert ha, hx, hy, EReal.coe_add, EReal.coe_mul]⟩

theorem lin_real {X : Fin 8192 → Fin 64 → EReal} {W : Fin 64 → Fin 64 → EReal} {b : Fin 64 → EReal}
    (hX : ∀ r k, ∃ x : ℝ, X r k = x) (hW : ∀ e k, ∃ x : ℝ, W e k = x) (hb : ∀ e, ∃ x : ℝ, b e = x)
    (r : Fin 8192) (e : Fin 64) : ∃ y : ℝ, lin X W b r e = y := by
  obtain ⟨s, hs⟩ := sum_real Finset.univ (fun k => X r k * W e k) fun k => by
    obtain ⟨x, hx⟩ := hX r k
    obtain ⟨w, hw⟩ := hW e k
    exact ⟨x * w, by rw [hx, hw, EReal.coe_mul]⟩
  obtain ⟨c, hc⟩ := hb e
  exact ⟨s + c, by unfold lin; rw [hs, hc, EReal.coe_add]⟩

theorem div64_real (x : ℝ) : Ideal.div (c0 + (x : EReal)) c64 = ((x / 64 : ℝ) : EReal) := by
  rw [c0_eq, zero_add, c64_eq, Ideal.div_coe (by norm_num : (64 : ℝ) ≠ 0), ← EReal.coe_mul]
  congr 1; ring

theorem mean_real {Y : Fin 8192 → Fin 64 → EReal} (hY : ∀ r e, ∃ x : ℝ, Y r e = x) (r : Fin 8192) :
    ∃ y : ℝ, mean Y r = y := by
  obtain ⟨s, hs⟩ := sum_real Finset.univ (fun e => Y r e) (hY r)
  exact ⟨s / 64, by unfold mean; rw [hs, div64_real]⟩

theorem center_real {Y : Fin 8192 → Fin 64 → EReal} (hY : ∀ r e, ∃ x : ℝ, Y r e = x) (r : Fin 8192) (e : Fin 64) :
    ∃ y : ℝ, center Y r e = y := by
  obtain ⟨a, ha⟩ := hY r e
  obtain ⟨m, hm⟩ := mean_real hY r
  exact ⟨a - m, by unfold center; rw [ha, hm, EReal.coe_sub]⟩

theorem var_real {Y : Fin 8192 → Fin 64 → EReal} (hY : ∀ r e, ∃ x : ℝ, Y r e = x) (r : Fin 8192) :
    ∃ y : ℝ, 0 ≤ y ∧ var Y r = y := by
  obtain ⟨s, hs0, hs⟩ := sum_sq_real Finset.univ (fun e => center Y r e) (center_real hY r)
  exact ⟨s / 64, div_nonneg hs0 (by norm_num), by unfold var; rw [hs, div64_real]⟩

/-- The reciprocal square root of a positive real is a real. -/
theorem rsqrt_pos_real {x : ℝ} (hx : 0 < x) : ∃ y : ℝ, Ideal.rsqrt (x : EReal) = y :=
  ⟨(Real.sqrt x)⁻¹, by rw [Ideal.rsqrt_coe, if_neg (not_lt.mpr hx.le), if_neg hx.ne']⟩

theorem ln_real {Y : Fin 8192 → Fin 64 → EReal} (hY : ∀ r e, ∃ x : ℝ, Y r e = x) (r : Fin 8192) (e : Fin 64) :
    ∃ y : ℝ, ln Y r e = y := by
  obtain ⟨c, hc⟩ := center_real hY r e
  obtain ⟨v, hv0, hv⟩ := var_real hY r
  obtain ⟨ε, hε0, hε⟩ := cEps_pos
  obtain ⟨q, hq⟩ := rsqrt_pos_real (add_pos_of_nonneg_of_pos hv0 hε0)
  exact ⟨c * q, by unfold ln; rw [hc, hv, hε, ← EReal.coe_add, hq, EReal.coe_mul]⟩

/-- With real inputs every entry of the projection with its layer normalisation is a real. -/
theorem lnProj_real {X : Fin 8192 → Fin 64 → EReal} {W : Fin 64 → Fin 64 → EReal} {b : Fin 64 → EReal}
    (hX : ∀ r k, ∃ x : ℝ, X r k = x) (hW : ∀ e k, ∃ x : ℝ, W e k = x) (hb : ∀ e, ∃ x : ℝ, b e = x)
    (r : Fin 8192) (e : Fin 64) : ∃ y : ℝ, lnProj X W b r e = y :=
  ln_real (lin_real hX hW hb) r e

end Cert.HostGlue

end
-- ==== Proof.AttnSpec.lean ====
/-
  The specification both programs are compared against, on plain index types: masked attention whose softmax runs
  DOWN THE COLUMNS (over the query rows), then alpha times the weighted values plus the mask times the features.
  For rows r and keys k: score r k = M r k * ((sum over e of Q r e * K k e) * 0.125); cmax k is the largest score of
  column k (taken against minus infinity, as a maximum-reduction from minus infinity spells it), csum k the sum over the
  rows of exp (score - cmax), weight r k = exp (score r k - cmax k) / csum k, and the result at (r, d) is
  0.1 * (sum over k of weight r k * V k d) + sum over k of M r k * H k d. Everything is an extended real; the two float
  literals are kept as their words (the same words on both sides are never evaluated).
-/
import Idealize.ShloMosaic.PureOps.Ideal
import Idealize.ShloMosaic.Lib.ValueIdx

noncomputable section

namespace Cert.AttnSpec

open Idealize.ShloMosaic
open scoped BigOperators

/-- The f32 word of 0.125 read as an extended real. -/
abbrev c125 : EReal := Ideal.ofBits .f32 0x3E000000#32
/-- The f32 word of 0.1 read as an extended real. -/
abbrev c01 : EReal := Ideal.ofBits .f32 0x3DCCCCCD#32

variable (M : Fin 8192 → Fin 8192 → EReal) (Q K V H : Fin 8192 → Fin 64 → EReal)

/-- The masked, scaled score of query row `r` against key `k`. -/
def score (r k : Fin 8192) : EReal := M r k * ((∑ e : Fin 64, Q r e * K k e) * c125)

/-- The largest score in column `k`, from minus infinity. -/
def cmax (k : Fin 8192) : EReal := max ⊥ (Finset.univ.fold max ⊥ fun r : Fin 8192 => score M Q K r k)

/-- The column's sum of exponentials of the shifted scores, from zero. -/
def csum (k : Fin 8192) : EReal := 0 + ∑ r : Fin 8192, Ideal.exp (score M Q K r k - cmax M Q K k)

/-- The softmax weight of row `r` within column `k`. -/
def weight (r k : Fin 8192) : EReal := Ideal.div (Ideal.exp (score M Q K r k - cmax M Q K k)) (csum M Q K k)

/-- The result at row `r`, feature `d`. -/
def out (r : Fin 8192) (d : Fin 64) : EReal :=
  c01 * (∑ k : Fin 8192, weight M Q K r k * V k d) + ∑ k : Fin 8192, M r k * H k d

end Cert.AttnSpec

end
-- ==== Proof.RefValue.lean ====
import proofs.«147333_j46926812676545_1_alg».proof.Proof.RefRun
import proofs.«147333_j46926812676545_1_alg».proof.Proof.HostGlue
import proofs.«147333_j46926812676545_1_alg».proof.Proof.AttnSpec
import Idealize.ShloMosaic.Lib.IdealHost
import Idealize.ShloMosaic.Lib.StackMember
import Idealize.ShloMosaic.Lib.Pipeline.Value

/-!
# The reference read at an index: the interface to the specification

The whole-array functions the reference's stretches compute are read entry by entry at the ideal values:
a product of matrices is the sum over the contracted coordinate, a reduction with an add body is the
initial word plus the sum over the reduced axis, the maximum-reduction is the fold of max over the reduced
axis, a broadcast reads the operand at the coordinates it keeps, a transpose swaps the coordinates.  The
variance function's select takes its quotient branch because its divisor, 64 less the converted integer
zero, is 64, which is positive.  Composed, the result buffer at (i, d) is the specification's value at the
launch contents of the thirteen arguments.
-/

noncomputable section

namespace Cert.ReferenceIdeal.RefValue

open Cert.ReferenceIdeal Cert.ReferenceIdeal.Gen Cert.ReferenceIdeal.RefRun Idealize.ShloMosaic Idealize.ShloMosaic.ValueIdx
open scoped BigOperators

/-- A [8192, 64] array as a function of its row and column. -/
abbrev m2 (x : Tn Ideal S8192x64) : Fin 8192 → Fin 64 → EReal := fun i k => x (ix2 i k)
/-- A [64, 64] array as a function of its row and column. -/
abbrev w2 (x : Tn Ideal S64x64) : Fin 64 → Fin 64 → EReal := fun i k => x (ix2 i k)
/-- A [64] array as a function of its coordinate. -/
abbrev v1 (x : Tn Ideal S64) : Fin 64 → EReal := fun k => x (ix1 k)
/-- A [8192, 8192] array as a function of its row and column. -/
abbrev q2 (x : Tn Ideal S8192x8192) : Fin 8192 → Fin 8192 → EReal := fun i k => x (ix2 i k)

theorem tRow_apply (b : Tn Ideal S64) (i : Fin 8192) (e : Fin 64) : tRow b (ix2 i e) = b (ix1 e) := by
  unfold tRow
  rw [broadcastInDim_apply _ _ _ _ (ix2 (0 : Fin 1) e) (by intro a; fin_cases a <;> rfl),
    broadcastInDim_apply _ _ _ _ (ix1 e) (by intro a; fin_cases a; rfl)]

theorem dotW_eq : dot_S8192x64_S64x64_S8192x64_1_0_0_1_n_n = DotDims.plain 8192 64 64 := rfl

theorem transW_apply (w : Tn Ideal S64x64) (k e : Fin 64) :
    transpose S64x64 [1, 0] w transposes_S64x64_S64x64_1_0 (ix2 k e) = w (ix2 e k) :=
  transpose_apply _ _ _ _ (ix2 e k) (by intro b; fin_cases b <;> rfl)

theorem tLin_apply (x : Tn Ideal S8192x64) (w : Tn Ideal S64x64) (b : Tn Ideal S64) (i : Fin 8192) (e : Fin 64) :
    tLin x w b (ix2 i e) = HostGlue.lin (m2 x) (w2 w) (v1 b) i e := by
  unfold tLin HostGlue.lin
  rw [addf_apply, tRow_apply, dotW_eq, StackMember.dotGeneral_plain_apply]
  exact congrArg (· + b (ix1 e)) (Finset.sum_congr rfl fun k _ => by rw [transW_apply])

/-- The witness that the second axis of a [8192, 64] array reduces away. -/
theorem red64 : S8192x64.Reduces [1] S8192 := by decide

theorem lift64 (i : Fin 8192) (k : Fin (S8192x64.size 1)) :
    red64.lift (ix1 i) k = ix2 i (⟨k.val, k.isLt⟩ : Fin 64) := by
  funext c; apply Fin.ext
  fin_cases c <;> rfl

/-- The sum of a row from the zero word. -/
theorem rowSum_apply (y : Tn Ideal S8192x64) (i : Fin 8192) :
    Host.reduceAdd (F := Ideal) y (constant S_ .f32 0x00000000#32) reducesTo_S8192x64_S8192_d1 h_S_ (ix1 i)
      = HostGlue.c0 + ∑ e : Fin 64, y (ix2 i e) := by
  rw [hostReduceAdd_apply, Ideal.hostReduceAdd_single _ red64, constant_apply]
  refine congrArg (HostGlue.c0 + ·) ?_
  exact Finset.sum_congr rfl fun k _ => congrArg y (lift64 i k)

theorem col1_apply (v : Tn Ideal S8192) (i : Fin 8192) (u : Fin 1) :
    broadcastInDim S8192x1 ![0] bcast_S8192_S8192x1_0 v (ix2 i u) = v (ix1 i) :=
  broadcastInDim_apply _ _ _ _ (ix1 i) (by intro a; fin_cases a; rfl)

theorem tMean_apply (y : Tn Ideal S8192x64) (i : Fin 8192) (u : Fin 1) :
    tMean y (ix2 i u) = HostGlue.mean (m2 y) i := by
  unfold tMean HostGlue.mean
  rw [hostDivf_apply, col1_apply, rowSum_apply, broadcastInDim_scalar_apply, constant_apply]

theorem wide_apply (v : Tn Ideal S8192x1) (i : Fin 8192) (e : Fin 64) :
    broadcastInDim S8192x64 ![0, 1] bcast_S8192x1_S8192x64_0_1 v (ix2 i e) = v (ix2 i (0 : Fin 1)) :=
  broadcastInDim_apply _ _ _ _ (ix2 i (0 : Fin 1)) (by intro a; fin_cases a <;> rfl)

theorem tCenter_apply (y : Tn Ideal S8192x64) (i : Fin 8192) (e : Fin 64) :
    tCenter y (ix2 i e) = HostGlue.center (m2 y) i e := by
  unfold tCenter HostGlue.center
  rw [subf_apply, wide_apply, tMean_apply]

/-- The divisor of the variance is 64: the integer zero converts to the real zero. -/
theorem tDen_apply : tDen (F := Ideal) ix0 = HostGlue.c64 := by
  show HostGlue.c64 - (((0#32 : BitVec 32).toInt : ℝ) : EReal) = HostGlue.c64
  have h : (0#32 : BitVec 32).toInt = 0 := by decide
  rw [h, Int.cast_zero, EReal.coe_zero, sub_zero]

/-- The divisor is positive, so the select takes the quotient. -/
theorem den_pos : Ideal.cmp .ogt HostGlue.c64 HostGlue.c0 = 1#1 := by
  rw [HostGlue.c64_eq, HostGlue.c0_eq]
  have h : (0 : EReal) < ((64 : ℝ) : EReal) := by exact_mod_cast (by norm_num : (0 : ℝ) < 64)
  simp [Ideal.cmp, h]

theorem tVar_apply (y : Tn Ideal S8192x64) (i : Fin 8192) (u : Fin 1) :
    tVar y (ix2 i u) = HostGlue.var (m2 y) i := by
  unfold tVar HostGlue.var
  rw [select_apply, broadcastInDim_scalar_apply, cmpf_apply, tDen_apply, constant_apply, Ideal.cmpf_def, den_pos, select_one,
    hostDivf_apply, col1_apply, rowSum_apply, broadcastInDim_scalar_apply, tDen_apply]
  refine congrArg (fun s => Ideal.div (HostGlue.c0 + s) HostGlue.c64) ?_
  exact Finset.sum_congr rfl fun e _ => by rw [mulf_apply, tCenter_apply]

theorem tLn_apply (y : Tn Ideal S8192x64) (i : Fin 8192) (e : Fin 64) :
    tLn y (ix2 i e) = HostGlue.ln (m2 y) i e := by
  unfold tLn HostGlue.ln
  rw [mulf_apply, tCenter_apply, wide_apply]
  show HostGlue.center (m2 y) i e * Ideal.rsqrt (tVar y (ix2 i (0 : Fin 1))
    + broadcastInDim S8192x1 ![] bcast_S_S8192x1 (constant (F := Ideal) S_ .f32 0x3727C5AC#32) (ix2 i (0 : Fin 1))) = _
  rw [tVar_apply, broadcastInDim_scalar_apply, constant_apply]

theorem tLnLin_apply (x : Tn Ideal S8192x64) (w : Tn Ideal S64x64) (b : Tn Ideal S64) (i : Fin 8192) (e : Fin 64) :
    tLn (tLin x w b) (ix2 i e) = HostGlue.lnProj (m2 x) (w2 w) (v1 b) i e := by
  rw [tLn_apply]
  unfold HostGlue.lnProj
  have h : m2 (tLin x w b) = HostGlue.lin (m2 x) (w2 w) (v1 b) := funext fun r => funext fun k => tLin_apply x w b r k
  rw [h]

theorem tV_apply (h : Tn Ideal S8192x64) (w : Tn Ideal S64x64) (b gamma beta mean var : Tn Ideal S64) (i : Fin 8192) (e : Fin 64) :
    tV h w b gamma beta mean var (ix2 i e)
      = HostGlue.bnProj (m2 h) (w2 w) (v1 b) (v1 gamma) (v1 beta) (v1 mean) (v1 var) i e := by
  unfold tV tV0 HostGlue.bnProj
  rw [addf_apply, mulf_apply, mulf_apply, subf_apply, tLin_apply, tRow_apply, tRow_apply, tRow_apply, tRow_apply]
  show (HostGlue.lin (m2 h) (w2 w) (v1 b) i e - mean (ix1 e)) * Ideal.rsqrt (var (ix1 e)
    + broadcastInDim S64 ![] bcast_S_S64 (constant (F := Ideal) S_ .f32 0x3727C5AC#32) (ix1 e)) * gamma (ix1 e) + beta (ix1 e) = _
  rw [broadcastInDim_scalar_apply, constant_apply]

/-! ## The attention read at an index -/

theorem dotS_eq : dot_S8192x64_S64x8192_S8192x8192_1_0_0_1_n_n = DotDims.plain 8192 64 8192 := rfl
theorem dotO_eq : dot_S8192x8192_S8192x64_S8192x64_1_0_0_1_n_n = DotDims.plain 8192 8192 64 := rfl

theorem transK_apply (k : Tn Ideal S8192x64) (e : Fin 64) (c : Fin 8192) :
    transpose S64x8192 [1, 0] k transposes_S8192x64_S64x8192_1_0 (ix2 e c) = k (ix2 c e) :=
  transpose_apply _ _ _ _ (ix2 c e) (by intro b; fin_cases b <;> rfl)

theorem tScore_apply (mk : Tn Ideal S8192x8192) (q k : Tn Ideal S8192x64) (r c : Fin 8192) :
    tScore mk q k (ix2 r c) = AttnSpec.score (q2 mk) (m2 q) (m2 k) r c := by
  unfold tScore AttnSpec.score
  rw [mulf_apply, mulf_apply, dotS_eq, StackMember.dotGeneral_plain_apply, broadcastInDim_scalar_apply, constant_apply]
  refine congrArg (fun s => mk (ix2 r c) * (s * AttnSpec.c125)) ?_
  exact Finset.sum_congr rfl fun e _ => by rw [transK_apply]

theorem tCol_apply (v : Tn Ideal S8192) (r c : Fin 8192) : tCol v (ix2 r c) = v (ix1 c) := by
  unfold tCol
  rw [broadcastInDim_apply _ _ _ _ (ix2 (0 : Fin 1) c) (by intro a; fin_cases a <;> rfl),
    broadcastInDim_apply _ _ _ _ (ix1 c) (by intro a; fin_cases a; rfl)]

/-- The witness that the first axis of the square reduces away. -/
theorem red0 : S8192x8192.Reduces [0] S8192 := by decide

theorem lift0 (c : Fin 8192) (k : Fin (S8192x8192.size 0)) :
    red0.lift (ix1 c) k = ix2 (⟨k.val, k.isLt⟩ : Fin 8192) c := by
  funext a; apply Fin.ext
  fin_cases a <;> rfl

theorem ninf_word : Ideal.ofBits .f32 0xFF800000#32 = (⊥ : EReal) := by simp [Ideal.ofBits, Ideal.ieee]

/-- The maximum of a column from the minus-infinity word. -/
theorem colMax_apply (x : FVec Ideal S8192x8192 .f32) (c : Fin 8192) :
    Host.reduce FloatOps.maximumf x (constant S_ .f32 0xFF800000#32) reducesTo_S8192x8192_S8192_d0 h_S_ (ix1 c)
      = Finset.univ.fold max ⊥ fun r : Fin 8192 => x (ix2 r c) := by
  rw [Host.reduce_eq_fold_single FloatOps.maximumf x _ reducesTo_S8192x8192_S8192_d0 red0 h_S_]
  have hf : (x ∘ red0.lift (ix1 c)) = fun r : Fin 8192 => x (ix2 r c) := funext fun k => congrArg x (lift0 c k)
  have hb : (constant (F := Ideal) S_ .f32 0xFF800000#32) (Shape.Idx.first h_S_) = (⊥ : EReal) := ninf_word
  rw [hb]
  exact congrArg (fun f => Finset.fold max (⊥ : EReal) f (Finset.univ : Finset (Fin 8192))) hf

theorem tCmax_apply (s : Tn Ideal S8192x8192) (c : Fin 8192) :
    tCmax s (ix1 c) = max ⊥ (Finset.univ.fold max ⊥ fun r : Fin 8192 => s (ix2 r c)) := by
  unfold tCmax
  rw [maximumf_apply, broadcastInDim_scalar_apply, constant_apply, ninf_word]
  exact congrArg (max ⊥) (colMax_apply s c)

theorem tExp_apply (s : Tn Ideal S8192x8192) (r c : Fin 8192) :
    tExp s (ix2 r c) = Ideal.exp (s (ix2 r c) - tCmax s (ix1 c)) := by
  unfold tExp
  show Ideal.exp (s (ix2 r c) - tCol (tCmax s) (ix2 r c)) = _
  rw [tCol_apply]

/-- The sum of a column from the zero word. -/
theorem colSum_apply (x : Tn Ideal S8192x8192) (c : Fin 8192) :
    Host.reduceAdd (F := Ideal) x (constant S_ .f32 0x00000000#32) reducesTo_S8192x8192_S8192_d0 h_S_ (ix1 c)
      = HostGlue.c0 + ∑ r : Fin 8192, x (ix2 r c) := by
  rw [hostReduceAdd_apply, Ideal.hostReduceAdd_single _ red0, constant_apply]
  refine congrArg (HostGlue.c0 + ·) ?_
  exact Finset.sum_congr rfl fun k _ => congrArg x (lift0 c k)

theorem tWeight_apply (s : Tn Ideal S8192x8192) (r c : Fin 8192) :
    tWeight s (ix2 r c) = Ideal.div (tExp s (ix2 r c)) (HostGlue.c0 + ∑ r' : Fin 8192, tExp s (ix2 r' c)) := by
  unfold tWeight
  rw [hostDivf_apply, tCol_apply, colSum_apply]

theorem tOut_apply (mk : Tn Ideal S8192x8192) (q k v h : Tn Ideal S8192x64) (r : Fin 8192) (d : Fin 64) :
    tOut mk q k v h (ix2 r d) = AttnSpec.out (q2 mk) (m2 q) (m2 k) (m2 v) (m2 h) r d := by
  have hs : ∀ a b, tScore mk q k (ix2 a b) = AttnSpec.score (q2 mk) (m2 q) (m2 k) a b := tScore_apply mk q k
  have hm : ∀ b, tCmax (tScore mk q k) (ix1 b) = AttnSpec.cmax (q2 mk) (m2 q) (m2 k) b := fun b => by
    rw [tCmax_apply]; unfold AttnSpec.cmax; simp only [hs]
  have he : ∀ a b, tExp (tScore mk q k) (ix2 a b)
      = Ideal.exp (AttnSpec.score (q2 mk) (m2 q) (m2 k) a b - AttnSpec.cmax (q2 mk) (m2 q) (m2 k) b) := fun a b => by
    rw [tExp_apply, hs, hm]
  have hw : ∀ a b, tWeight (tScore mk q k) (ix2 a b) = AttnSpec.weight (q2 mk) (m2 q) (m2 k) a b := fun a b => by
    rw [tWeight_apply]; unfold AttnSpec.weight AttnSpec.csum; simp only [he, HostGlue.c0_eq]
  unfold tOut AttnSpec.out
  rw [addf_apply, mulf_apply, broadcastInDim_scalar_apply, constant_apply, dotO_eq,
    StackMember.dotGeneral_plain_apply, StackMember.dotGeneral_plain_apply]
  simp only [hw]

/-! ## The result array read at an index -/

theorem resOut_apply (V0 : Valuation τ sig (Elt Ideal)) (i : Fin 8192) (d : Fin 64) :
    resOut V0 (ix2 i d)
      = AttnSpec.out (q2 (V0 (Proc.devRef .tc main_arg2)))
          (HostGlue.lnProj (m2 (V0 (Proc.devRef .tc main_arg0))) (w2 (V0 (Proc.devRef .tc main_arg3))) (v1 (V0 (Proc.devRef .tc main_arg4))))
          (HostGlue.lnProj (m2 (V0 (Proc.devRef .tc main_arg1))) (w2 (V0 (Proc.devRef .tc main_arg5))) (v1 (V0 (Proc.devRef .tc main_arg6))))
          (HostGlue.bnProj (m2 (V0 (Proc.devRef .tc main_arg1))) (w2 (V0 (Proc.devRef .tc main_arg7))) (v1 (V0 (Proc.devRef .tc main_arg8))) (v1 (V0 (Proc.devRef .tc main_arg9)))
            (v1 (V0 (Proc.devRef .tc main_arg10))) (v1 (V0 (Proc.devRef .tc main_arg11))) (v1 (V0 (Proc.devRef .tc main_arg12))))
          (m2 (V0 (Proc.devRef .tc main_arg1))) i d := by
  unfold resOut
  rw [tOut_apply]
  have hq : m2 (resQ V0) = HostGlue.lnProj (m2 (V0 (Proc.devRef .tc main_arg0))) (w2 (V0 (Proc.devRef .tc main_arg3))) (v1 (V0 (Proc.devRef .tc main_arg4))) :=
    funext fun r => funext fun e => tLnLin_apply _ _ _ r e
  have hk : m2 (resK V0) = HostGlue.lnProj (m2 (V0 (Proc.devRef .tc main_arg1))) (w2 (V0 (Proc.devRef .tc main_arg5))) (v1 (V0 (Proc.devRef .tc main_arg6))) :=
    funext fun r => funext fun e => tLnLin_apply _ _ _ r e
  have hv : m2 (resV V0) = HostGlue.bnProj (m2 (V0 (Proc.devRef .tc main_arg1))) (w2 (V0 (Proc.devRef .tc main_arg7))) (v1 (V0 (Proc.devRef .tc main_arg8))) (v1 (V0 (Proc.devRef .tc main_arg9)))
      (v1 (V0 (Proc.devRef .tc main_arg10))) (v1 (V0 (Proc.devRef .tc main_arg11))) (v1 (V0 (Proc.devRef .tc main_arg12))) :=
    funext fun r => funext fun e => tV_apply _ _ _ _ _ _ _ r e
  rw [hq, hk, hv]

/-! ## The interface: the reference's run against the specification -/

variable (m : (ℓ : Loc nD τ sig) → Buf (Elt Ideal) ℓ)

/-- The first argument, the query-side features. -/
def argX (c : Dev nD) : Fin 8192 → Fin 64 → EReal :=
  fun i k => (m ((c.tc : Thread nD τ).loc main_arg0) : S8192x64.Idx → EReal) (ix2 i k)
/-- The second argument, the key-side features. -/
def argH (c : Dev nD) : Fin 8192 → Fin 64 → EReal :=
  fun i k => (m ((c.tc : Thread nD τ).loc main_arg1) : S8192x64.Idx → EReal) (ix2 i k)
/-- The mask. -/
def argM (c : Dev nD) : Fin 8192 → Fin 8192 → EReal :=
  fun i k => (m ((c.tc : Thread nD τ).loc main_arg2) : S8192x8192.Idx → EReal) (ix2 i k)
/-- The query weight. -/
def argQw (c : Dev nD) : Fin 64 → Fin 64 → EReal :=
  fun i k => (m ((c.tc : Thread nD τ).loc main_arg3) : S64x64.Idx → EReal) (ix2 i k)
/-- The query bias. -/
def argQb (c : Dev nD) : Fin 64 → EReal :=
  fun k => (m ((c.tc : Thread nD τ).loc main_arg4) : S64.Idx → EReal) (ix1 k)
/-- The key weight. -/
def argKw (c : Dev nD) : Fin 64 → Fin 64 → EReal :=
  fun i k => (m ((c.tc : Thread nD τ).loc main_arg5) : S64x64.Idx → EReal) (ix2 i k)
/-- The key bias. -/
def argKb (c : Dev nD) : Fin 64 → EReal :=
  fun k => (m ((c.tc : Thread nD τ).loc main_arg6) : S64.Idx → EReal) (ix1 k)
/-- The value weight. -/
def argVw (c : Dev nD) : Fin 64 → Fin 64 → EReal :=
  fun i k => (m ((c.tc : Thread nD τ).loc main_arg7) : S64x64.Idx → EReal) (ix2 i k)
/-- The value bias. -/
def argVb (c : Dev nD) : Fin 64 → EReal :=
  fun k => (m ((c.tc : Thread nD τ).loc main_arg8) : S64.Idx → EReal) (ix1 k)
/-- The scale vector of the value branch. -/
def argGamma (c : Dev nD) : Fin 64 → EReal :=
  fun k => (m ((c.tc : Thread nD τ).loc main_arg9) : S64.Idx → EReal) (ix1 k)
/-- The shift vector of the value branch. -/
def argBeta (c : Dev nD) : Fin 64 → EReal :=
  fun k => (m ((c.tc : Thread nD τ).loc main_arg10) : S64.Idx → EReal) (ix1 k)
/-- The mean vector of the value branch. -/
def argMean (c : Dev nD) : Fin 64 → EReal :=
  fun k => (m ((c.tc : Thread nD τ).loc main_arg11) : S64.Idx → EReal) (ix1 k)
/-- The variance vector of the value branch. -/
def argVar (c : Dev nD) : Fin 64 → EReal :=
  fun k => (m ((c.tc : Thread nD τ).loc main_arg12) : S64.Idx → EReal) (ix1 k)

/-- The query array: the projection of the first argument with its layer normalisation. -/
def Qf (c : Dev nD) : Fin 8192 → Fin 64 → EReal := HostGlue.lnProj (argX m c) (argQw m c) (argQb m c)
/-- The key array: the projection of the second argument with its layer normalisation. -/
def Kf (c : Dev nD) : Fin 8192 → Fin 64 → EReal := HostGlue.lnProj (argH m c) (argKw m c) (argKb m c)
/-- The value array: the projection of the second argument with its affine normalisation. -/
def Vf (c : Dev nD) : Fin 8192 → Fin 64 → EReal :=
  HostGlue.bnProj (argH m c) (argVw m c) (argVb m c) (argGamma m c) (argBeta m c) (argMean m c) (argVar m c)
/-- The features the mask multiplies. -/
def Hf (c : Dev nD) : Fin 8192 → Fin 64 → EReal := argH m c

/-- Every weakly fair execution of the reference terminates; its result, read at any index, is the specification's
    value at the launch contents of the arguments, and the thirteen arguments are unchanged. -/
theorem run (ρ : Dev nD → PrngReg) :
    θ_run (defs (F := Ideal)) (onTc (τ := τ) (main (F := Ideal))) ⟨m, fun _ => 0, ρ⟩ (fun r => ∀ c : Dev nD,
      (∀ (i : Fin 8192) (d : Fin 64),
        (r.2.mem ((c.tc : Thread nD τ).loc main_v74) : S8192x64.Idx → EReal) (ix2 i d)
          = Cert.AttnSpec.out (argM m c) (Qf m c) (Kf m c) (Vf m c) (Hf m c) i d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => ⟨fun i d => (congrFun (h c).1 (ix2 i d)).trans (resOut_apply (StableHlo.launchContents m c) i d),
    (h c).2⟩) (RefRun.run m ρ)

end Cert.ReferenceIdeal.RefValue

end
-- ==== Proof.Frames.lean ====
/-
  The three frame conjuncts and the idealization conjunct. Each kernel program's frame is its whole run read at the
  thirteen argument arrays: no stretch of host operations and no region writes an argument, so each is read back
  through the boundary valuations to the launch memory. The reference has no kernel: its frame is its run with the
  result dropped. The idealization rewrote no operation, so there is nothing to preserve.
-/
import proofs.«147333_j46926812676545_1_alg».proof.Defs
import proofs.«147333_j46926812676545_1_alg».proof.Proof.KernelRun
import proofs.«147333_j46926812676545_1_alg».proof.Proof.BKernelRun
import proofs.«147333_j46926812676545_1_alg».proof.Proof.RefValue
import proofs.«147333_j46926812676545_1_alg».proof.Proof.Gen.Kernel
import proofs.«147333_j46926812676545_1_alg».proof.Proof.Gen.KernelIdeal
import proofs.«147333_j46926812676545_1_alg».proof.Proof.Gen.ReferenceIdeal
import proofs.«147333_j46926812676545_1_alg».proof.Proof.Gen.Pre_finite_inputs

noncomputable section

namespace Cert.Proof.Frames

open Idealize.ShloMosaic Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

end Cert.Proof.Frames

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.KernelGlue.lean ====
import proofs.«147333_j46926812676545_1_alg».proof.Proof.Gen.KernelIdeal.Regions
import proofs.«147333_j46926812676545_1_alg».proof.Proof.HostGlue
import proofs.«147333_j46926812676545_1_alg».proof.Proof.RefRun
import proofs.«147333_j46926812676545_1_alg».proof.Proof.RefValue
import proofs.«147333_j46926812676545_1_alg».proof.Proof.LibFiniteTest
import proofs.«147333_j46926812676545_1_alg».proof.Defs
import proofs.«147333_j46926812676545_1_alg».proof.Proof.Gen.Pre_finite_inputs
import Idealize.ShloMosaic.Lib.StableHlo.Run
import Idealize.ShloMosaic.Lib.ReduceAll

/-!
# The kernel program's host stretches

Before its two kernel regions the kernel program runs the same host operations as the reference: the key
projection with its layer normalisation, the query projection with its layer normalisation, and the value
projection with its affine normalisation, cut into five stretches at the two calls of the outlined variance
function.  Each stretch is read, from any contents, as the whole-array function it computes; chained from the
launch contents, the three buffers the regions consume are the projections of the arguments, entry by entry.
Under the precondition every entry of every argument is a real number, hence so is every entry of the two
layer-normalised projections.
-/

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx
open Cert.ReferenceIdeal.RefRun (Tn tRow tLin tMean tCenter tDen tVar tLn tV0 tV)
open Cert.ReferenceIdeal.RefValue (m2 w2 v1 q2 tLnLin_apply tV_apply)
open scoped BigOperators

/-! ## The stretches, from any contents -/

section Stretches

variable (W : Valuation τ sig (Elt Ideal))

set_option maxRecDepth 8192 in
set_option maxHeartbeats 4000000 in
theorem s1_v4 : after hostOps0 W (no_index (Proc.devRef .tc main_v4))
    = tLin (W (Proc.devRef .tc main_arg1)) (W (Proc.devRef .tc main_arg5)) (W (Proc.devRef .tc main_arg6)) := by
  simp only [hostOps0]
  after_results_simp
  rfl

set_option maxRecDepth 8192 in
set_option maxHeartbeats 4000000 in
theorem s1_v8 : after hostOps0 W (no_index (Proc.devRef .tc main_v8))
    = tMean (tLin (W (Proc.devRef .tc main_arg1)) (W (Proc.devRef .tc main_arg5)) (W (Proc.devRef .tc main_arg6))) := by
  simp only [hostOps0]
  after_results_simp
  rfl

set_option maxRecDepth 8192 in
set_option maxHeartbeats 4000000 in
theorem s1_c : after hostOps0 W (no_index (Proc.devRef .tc main_c)) = constantI S_ 32 0#32 := by
  simp only [hostOps0]
  after_results_simp

set_option maxRecDepth 8192 in
set_option maxHeartbeats 8000000 in
theorem s2_v9 (hc : W (Proc.devRef .tc main_c) = constantI S_ 32 0#32) : after hostOps0_1 W (no_index (Proc.devRef .tc main_v9))
    = tVar (W (Proc.devRef .tc main_v4)) := by
  simp only [hostOps0_1]
  after_results_simp
  simp only [hc]
  rfl

set_option maxRecDepth 8192 in
set_option maxHeartbeats 8000000 in
theorem s3_v16 (y : Tn Ideal Cert.ReferenceIdeal.S8192x64) (h4 : W (Proc.devRef .tc main_v4) = y) (h8 : W (Proc.devRef .tc main_v8) = tMean y)
    (h9 : W (Proc.devRef .tc main_v9) = tVar y) : after hostOps0_2 W (no_index (Proc.devRef .tc main_v16)) = tLn y := by
  simp only [hostOps0_2]
  after_results_simp
  simp only [h4, h8, h9]
  rfl

set_option maxRecDepth 8192 in
set_option maxHeartbeats 8000000 in
theorem s3_v21 : after hostOps0_2 W (no_index (Proc.devRef .tc main_v21))
    = tLin (W (Proc.devRef .tc main_arg0)) (W (Proc.devRef .tc main_arg3)) (W (Proc.devRef .tc main_arg4)) := by
  simp only [hostOps0_2]
  after_results_simp
  rfl

set_option maxRecDepth 8192 in
set_option maxHeartbeats 8000000 in
theorem s3_v25 : after hostOps0_2 W (no_index (Proc.devRef .tc main_v25))
    = tMean (tLin (W (Proc.devRef .tc main_arg0)) (W (Proc.devRef .tc main_arg3)) (W (Proc.devRef .tc main_arg4))) := by
  simp only [hostOps0_2]
  after_results_simp
  rfl

set_option maxRecDepth 8192 in
set_option maxHeartbeats 8000000 in
theorem s3_c4 : after hostOps0_2 W (no_index (Proc.devRef .tc main_c_4)) = constantI S_ 32 0#32 := by
  simp only [hostOps0_2]
  after_results_simp

set_option maxRecDepth 8192 in
set_option maxHeartbeats 8000000 in
theorem s4_v26 (hc : W (Proc.devRef .tc main_c_4) = constantI S_ 32 0#32) : after hostOps0_3 W (no_index (Proc.devRef .tc main_v26))
    = tVar (W (Proc.devRef .tc main_v21)) := by
  simp only [hostOps0_3]
  after_results_simp
  simp only [hc]
  rfl

set_option maxRecDepth 8192 in
set_option maxHeartbeats 12000000 in
theorem s5_v33 (y : Tn Ideal Cert.ReferenceIdeal.S8192x64) (h21 : W (Proc.devRef .tc main_v21) = y) (h25 : W (Proc.devRef .tc main_v25) = tMean y)
    (h26 : W (Proc.devRef .tc main_v26) = tVar y) : after hostOps0_4 W (no_index (Proc.devRef .tc main_v33)) = tLn y := by
  simp only [hostOps0_4]
  after_results_simp
  simp only [h21, h25, h26]
  rfl

set_option maxRecDepth 8192 in
set_option maxHeartbeats 12000000 in
theorem s5_v53 : after hostOps0_4 W (no_index (Proc.devRef .tc main_v53))
    = tV (W (Proc.devRef .tc main_arg1)) (W (Proc.devRef .tc main_arg7)) (W (Proc.devRef .tc main_arg8)) (W (Proc.devRef .tc main_arg9)) (W (Proc.devRef .tc main_arg10))
        (W (Proc.devRef .tc main_arg11)) (W (Proc.devRef .tc main_arg12)) := by
  simp only [hostOps0_4]
  after_results_simp
  rfl

end Stretches

/-! ## Chained from the launch contents -/

variable (m : (ℓ : Loc nD τ sig) → Buf (Elt Ideal) ℓ)

/-- The key branch's linear layer, as a whole array of the launch contents. -/
def linK (c : Dev nD) : Tn Ideal Cert.ReferenceIdeal.S8192x64 :=
  tLin (Gen.V0 m c (Proc.devRef .tc main_arg1)) (Gen.V0 m c (Proc.devRef .tc main_arg5)) (Gen.V0 m c (Proc.devRef .tc main_arg6))
/-- The query branch's linear layer. -/
def linQ (c : Dev nD) : Tn Ideal Cert.ReferenceIdeal.S8192x64 :=
  tLin (Gen.V0 m c (Proc.devRef .tc main_arg0)) (Gen.V0 m c (Proc.devRef .tc main_arg3)) (Gen.V0 m c (Proc.devRef .tc main_arg4))

theorem V5_K_arr (c : Dev nD) : Gen.V5 m c (Proc.devRef .tc main_v16) = tLn (linK m c) := by
  have e4 : Gen.V2 m c (Proc.devRef .tc main_v4) = linK m c := (V2_of m c main_v4 (by decide)).trans (s1_v4 (Gen.V0 m c))
  have e8 : Gen.V2 m c (Proc.devRef .tc main_v8) = tMean (linK m c) := (V2_of m c main_v8 (by decide)).trans (s1_v8 (Gen.V0 m c))
  have e9 : Gen.V2 m c (Proc.devRef .tc main_v9) = tVar (linK m c) :=
    (s2_v9 (Gen.V1 m c) (s1_c (Gen.V0 m c))).trans (congrArg tVar (s1_v4 (Gen.V0 m c)))
  exact (V5_of m c main_v16 (by decide)).trans ((V4_of m c main_v16 (by decide)).trans
    (s3_v16 (Gen.V2 m c) (linK m c) e4 e8 e9))

theorem V5_Q_arr (c : Dev nD) : Gen.V5 m c (Proc.devRef .tc main_v33) = tLn (linQ m c) := by
  have a0 : Gen.V2 m c (Proc.devRef .tc main_arg0) = (Gen.V0 m c (Proc.devRef .tc main_arg0)) := (V2_of m c main_arg0 (by decide)).trans (V1_of m c main_arg0 (by decide))
  have a3 : Gen.V2 m c (Proc.devRef .tc main_arg3) = (Gen.V0 m c (Proc.devRef .tc main_arg3)) := (V2_of m c main_arg3 (by decide)).trans (V1_of m c main_arg3 (by decide))
  have a4 : Gen.V2 m c (Proc.devRef .tc main_arg4) = (Gen.V0 m c (Proc.devRef .tc main_arg4)) := (V2_of m c main_arg4 (by decide)).trans (V1_of m c main_arg4 (by decide))
  have l21 : Gen.V3 m c (Proc.devRef .tc main_v21) = linQ m c := by
    refine (s3_v21 (Gen.V2 m c)).trans ?_
    unfold linQ; rw [a0, a3, a4]
  have l25 : Gen.V3 m c (Proc.devRef .tc main_v25) = tMean (linQ m c) := by
    refine (s3_v25 (Gen.V2 m c)).trans ?_
    unfold linQ; rw [a0, a3, a4]
  have e21 : Gen.V4 m c (Proc.devRef .tc main_v21) = linQ m c := (V4_of m c main_v21 (by decide)).trans l21
  have e25 : Gen.V4 m c (Proc.devRef .tc main_v25) = tMean (linQ m c) := (V4_of m c main_v25 (by decide)).trans l25
  have e26 : Gen.V4 m c (Proc.devRef .tc main_v26) = tVar (linQ m c) :=
    (s4_v26 (Gen.V3 m c) (s3_c4 (Gen.V2 m c))).trans (congrArg tVar l21)
  exact s5_v33 (Gen.V4 m c) (linQ m c) e21 e25 e26

/-- An argument keeps its launch contents through the first four stretches. -/
theorem V4_arg (c : Dev nD) (r : Ref sig .tc) (h1 : r ∉ hostOps0_W) (h2 : r ∉ hostOps0_1_W) (h3 : r ∉ hostOps0_2_W)
    (h4 : r ∉ hostOps0_3_W) : Gen.V4 m c (Proc.devRef .tc r) = Gen.V0 m c (Proc.devRef .tc r) :=
  (V4_of m c r h4).trans ((V3_of m c r h3).trans ((V2_of m c r h2).trans (V1_of m c r h1)))

theorem V5_V_arr (c : Dev nD) : Gen.V5 m c (Proc.devRef .tc main_v53)
    = tV (Gen.V0 m c (Proc.devRef .tc main_arg1)) (Gen.V0 m c (Proc.devRef .tc main_arg7)) (Gen.V0 m c (Proc.devRef .tc main_arg8)) (Gen.V0 m c (Proc.devRef .tc main_arg9)) (Gen.V0 m c (Proc.devRef .tc main_arg10))
        (Gen.V0 m c (Proc.devRef .tc main_arg11)) (Gen.V0 m c (Proc.devRef .tc main_arg12)) := by
  refine (s5_v53 (Gen.V4 m c)).trans ?_
  rw [V4_arg m c main_arg1 (by decide) (by decide) (by decide) (by decide),
    V4_arg m c main_arg7 (by decide) (by decide) (by decide) (by decide),
    V4_arg m c main_arg8 (by decide) (by decide) (by decide) (by decide),
    V4_arg m c main_arg9 (by decide) (by decide) (by decide) (by decide),
    V4_arg m c main_arg10 (by decide) (by decide) (by decide) (by decide),
    V4_arg m c main_arg11 (by decide) (by decide) (by decide) (by decide),
    V4_arg m c main_arg12 (by decide) (by decide) (by decide) (by decide)]

/-! ## The arguments on plain index types, and the three buffers entry by entry -/

/-- The first argument, the query-side features. -/
def kX (c : Dev nD) : Fin 8192 → Fin 64 → EReal :=
  fun i k => (m ((c.tc : Thread nD τ).loc main_arg0) : S8192x64.Idx → EReal) (ix2 i k)
/-- The second argument, the key-side features. -/
def kH (c : Dev nD) : Fin 8192 → Fin 64 → EReal :=
  fun i k => (m ((c.tc : Thread nD τ).loc main_arg1) : S8192x64.Idx → EReal) (ix2 i k)
/-- The mask. -/
def kM (c : Dev nD) : Fin 8192 → Fin 8192 → EReal :=
  fun i k => (m ((c.tc : Thread nD τ).loc main_arg2) : S8192x8192.Idx → EReal) (ix2 i k)
/-- The query weight. -/
def kQw (c : Dev nD) : Fin 64 → Fin 64 → EReal :=
  fun i k => (m ((c.tc : Thread nD τ).loc main_arg3) : S64x64.Idx → EReal) (ix2 i k)
/-- The query bias. -/
def kQb (c : Dev nD) : Fin 64 → EReal :=
  fun k => (m ((c.tc : Thread nD τ).loc main_arg4) : S64.Idx → EReal) (ix1 k)
/-- The key weight. -/
def kKw (c : Dev nD) : Fin 64 → Fin 64 → EReal :=
  fun i k => (m ((c.tc : Thread nD τ).loc main_arg5) : S64x64.Idx → EReal) (ix2 i k)
/-- The key bias. -/
def kKb (c : Dev nD) : Fin 64 → EReal :=
  fun k => (m ((c.tc : Thread nD τ).loc main_arg6) : S64.Idx → EReal) (ix1 k)
/-- The value weight. -/
def kVw (c : Dev nD) : Fin 64 → Fin 64 → EReal :=
  fun i k => (m ((c.tc : Thread nD τ).loc main_arg7) : S64x64.Idx → EReal) (ix2 i k)
/-- The value bias. -/
def kVb (c : Dev nD) : Fin 64 → EReal :=
  fun k => (m ((c.tc : Thread nD τ).loc main_arg8) : S64.Idx → EReal) (ix1 k)
/-- The scale vector of the value branch. -/
def kGamma (c : Dev nD) : Fin 64 → EReal :=
  fun k => (m ((c.tc : Thread nD τ).loc main_arg9) : S64.Idx → EReal) (ix1 k)
/-- The shift vector of the value branch. -/
def kBeta (c : Dev nD) : Fin 64 → EReal :=
  fun k => (m ((c.tc : Thread nD τ).loc main_arg10) : S64.Idx → EReal) (ix1 k)
/-- The mean vector of the value branch. -/
def kMean (c : Dev nD) : Fin 64 → EReal :=
  fun k => (m ((c.tc : Thread nD τ).loc main_arg11) : S64.Idx → EReal) (ix1 k)
/-- The variance vector of the value branch. -/
def kVar (c : Dev nD) : Fin 64 → EReal :=
  fun k => (m ((c.tc : Thread nD τ).loc main_arg12) : S64.Idx → EReal) (ix1 k)

theorem V5_Q (c : Dev nD) (i : Fin 8192) (e : Fin 64) :
    (Gen.V5 m c (Proc.devRef .tc main_v33) : S8192x64.Idx → EReal) (ix2 i e)
      = Cert.HostGlue.lnProj (kX m c) (kQw m c) (kQb m c) i e :=
  (congrFun (V5_Q_arr m c) (ix2 i e)).trans (tLnLin_apply _ _ _ i e)

theorem V5_K (c : Dev nD) (i : Fin 8192) (e : Fin 64) :
    (Gen.V5 m c (Proc.devRef .tc main_v16) : S8192x64.Idx → EReal) (ix2 i e)
      = Cert.HostGlue.lnProj (kH m c) (kKw m c) (kKb m c) i e :=
  (congrFun (V5_K_arr m c) (ix2 i e)).trans (tLnLin_apply _ _ _ i e)

theorem V5_V (c : Dev nD) (i : Fin 8192) (e : Fin 64) :
    (Gen.V5 m c (Proc.devRef .tc main_v53) : S8192x64.Idx → EReal) (ix2 i e)
      = Cert.HostGlue.bnProj (kH m c) (kVw m c) (kVb m c) (kGamma m c) (kBeta m c) (kMean m c) (kVar m c) i e :=
  (congrFun (V5_V_arr m c) (ix2 i e)).trans (tV_apply _ _ _ _ _ _ _ i e)

theorem V5_M (c : Dev nD) : Gen.V5 m c (Proc.devRef .tc main_arg2) = m ((c.tc : Thread nD τ).loc main_arg2) :=
  (V5_of m c main_arg2 (by decide)).trans (V4_arg m c main_arg2 (by decide) (by decide) (by decide) (by decide))

theorem V5_H (c : Dev nD) : Gen.V5 m c (Proc.devRef .tc main_arg1) = m ((c.tc : Thread nD τ).loc main_arg1) :=
  (V5_of m c main_arg1 (by decide)).trans (V4_arg m c main_arg1 (by decide) (by decide) (by decide) (by decide))

/-! ## The precondition: every entry of every argument is a real number -/

instance scalarIdxSubsingleton : Subsingleton (⟨0, ![]⟩ : Shape).Idx := FiniteTest.subsingleton_scalarIdx

/-- One array's test: if the conjunction over all entries of "the absolute value is below plus infinity" is true,
    every entry is a real number. -/
theorem test_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf x)
          (broadcastInDim s ![] hb (constant (F := Ideal) ⟨0, ![]⟩ .f32 0x7F800000#32)))
        (constantI ⟨0, ![]⟩ 1 1#1) hr hu ix0 = 1#1) (i : s.Idx) : ∃ r : ℝ, x i = r :=
  FiniteTest.real_of_test x hb i (Host.reduce_andi_all _ _ hr hu ix0 h i)

set_option maxRecDepth 8192 in
set_option maxHeartbeats 4000000 in
theorem real_of_pre (h : Cert.Pre_KernelIdeal m) (c : Dev nD) :
    (∀ r k, ∃ x : ℝ, kM m c r k = x) ∧ (∀ r k, ∃ x : ℝ, kX m c r k = x) ∧ (∀ r k, ∃ x : ℝ, kH m c r k = x)
      ∧ (∀ e k, ∃ x : ℝ, kQw m c e k = x) ∧ (∀ e, ∃ x : ℝ, kQb m c e = x)
      ∧ (∀ e k, ∃ x : ℝ, kKw m c e k = x) ∧ (∀ e, ∃ x : ℝ, kKb m c e = x) := by
  have h0 := congrFun (h c) ix0
  dsimp only [Cert.Pre_finite_inputs.fn, Cert.Pre_finite_inputs.fn_part1, Cert.Pre_finite_inputs.fn_part2,
    Cert.Pre_finite_inputs.fn_part3] at h0
  simp only [Idealize.ShloMosaic.andi, IntOp.andi_eq_one] at h0
  obtain ⟨⟨⟨⟨⟨⟨⟨⟨⟨⟨⟨⟨t0, t1⟩, t2⟩, t3⟩, t4⟩, t5⟩, t6⟩, t7⟩, t8⟩, t9⟩, t10⟩, t11⟩, t12⟩ := h0
  exact ⟨fun r k => test_real _ _ _ _ t2 (ix2 r k), fun r k => test_real _ _ _ _ t0 (ix2 r k),
    fun r k => test_real _ _ _ _ t1 (ix2 r k), fun e k => test_real _ _ _ _ t3 (ix2 e k),
    fun e => test_real _ _ _ _ t4 (ix1 e), fun e k => test_real _ _ _ _ t5 (ix2 e k),
    fun e => test_real _ _ _ _ t6 (ix1 e)⟩

theorem Q_real (h : Cert.Pre_KernelIdeal m) (c : Dev nD) (i : Fin 8192) (e : Fin 64) :
    ∃ y : ℝ, Cert.HostGlue.lnProj (kX m c) (kQw m c) (kQb m c) i e = y :=
  Cert.HostGlue.lnProj_real (real_of_pre m h c).2.1 (real_of_pre m h c).2.2.2.1 (real_of_pre m h c).2.2.2.2.1 i e

theorem K_real (h : Cert.Pre_KernelIdeal m) (c : Dev nD) (i : Fin 8192) (e : Fin 64) :
    ∃ y : ℝ, Cert.HostGlue.lnProj (kH m c) (kKw m c) (kKb m c) i e = y :=
  Cert.HostGlue.lnProj_real (real_of_pre m h c).2.2.1 (real_of_pre m h c).2.2.2.2.2.1 (real_of_pre m h c).2.2.2.2.2.2 i e

end Cert.KernelIdeal.Glue

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.LibOnlineLse.lean ====
/-
  The online computation of a row's log-sum-exp, tile by tile, on the extended reals.

  A row of logits is walked in tiles of B columns. Two running quantities are kept: the maximum m of the
  entries seen so far (−∞ before the first tile) and the sum l of exp(x − m) over the entries seen so far
  (0 before the first tile). A tile with entries s_0, …, s_{B−1} and maximum c updates them to

      m' = max m c,      l' = exp(m − m') · l + Σ_j exp(s_j − m').

  When every entry is a real number the pair after k ≥ 1 tiles is exactly (M, Σ exp(x − M)), the sums over
  all the entries seen and M their maximum: exp(m − m') · exp(x − m) = exp(x − m') for real x, m, m', and a
  real factor distributes over a finite sum of reals. On the first tile the old maximum is −∞, exp(−∞) = 0
  and the old sum is 0, so the rescaled old sum contributes 0. Both laws used (the exponential of a sum, and
  distributivity) fail at the infinities, which is why the entries are taken real.
-/
import Idealize.ShloMosaic.PureOps.Ideal
import proofs.«147333_j46926812676545_1_alg».proof.Proof.LibERealSum

open scoped BigOperators

namespace Idealize.ShloMosaic.OnlineLse

/-- One tile's update of the running pair (maximum, shifted sum of exponentials): with c the maximum of the
    tile's entries (the fold of max from −∞), the new maximum is m' = max m c and the new sum is
    exp(m − m') · l + Σ_j exp(s_j − m'). -/
noncomputable def step {B : ℕ} (st : EReal × EReal) (s : Fin B → EReal) : EReal × EReal :=
  (max st.1 ((Finset.univ : Finset (Fin B)).fold max ⊥ s),
   Ideal.exp (st.1 - max st.1 ((Finset.univ : Finset (Fin B)).fold max ⊥ s)) * st.2
     + ∑ j, Ideal.exp (s j - max st.1 ((Finset.univ : Finset (Fin B)).fold max ⊥ s)))

/-- The running pair after the first k tiles, from (−∞, 0): tile t has the entries s t 0, …, s t (B−1). -/
noncomputable def run {B : ℕ} (s : ℕ → Fin B → EReal) : ℕ → EReal × EReal
  | 0 => (⊥, 0)
  | k + 1 => step (run s k) (s k)

/-- The coercion of the reals into the extended reals commutes with the maximum of two (it is monotone). -/
theorem coe_max (a b : ℝ) : ((max a b : ℝ) : EReal) = max ((a : ℝ) : EReal) ((b : ℝ) : EReal) :=
  EReal.coe_strictMono.monotone.map_max

/-- A real upper bound of a family of reals that one member attains is the fold of max from −∞ over the
    family: the fold is below every upper bound of the members and of −∞, and above every member. -/
theorem fold_max_coe_eq {n : ℕ} (L : Fin n → ℝ) (M : ℝ) (hle : ∀ j, L j ≤ M) (hat : ∃ j, L j = M) :
    (Finset.univ : Finset (Fin n)).fold max ⊥ (fun j => ((L j : ℝ) : EReal)) = ((M : ℝ) : EReal) := by
  obtain ⟨j, hj⟩ := hat
  apply le_antisymm
  · exact (Finset.fold_max_le _).mpr ⟨bot_le, fun x _ => EReal.coe_le_coe_iff.mpr (hle x)⟩
  · exact (Finset.le_fold_max _).mpr (Or.inr ⟨j, Finset.mem_univ j, by rw [hj]⟩)

/-- The fold of max from −∞ over a nonempty finite family of reals is a real: the greatest member, an upper
    bound of the family that one member attains. -/
theorem fold_max_coe {n : ℕ} (hn : 0 < n) (L : Fin n → ℝ) :
    ∃ M : ℝ, (∀ j, L j ≤ M) ∧ (∃ j, L j = M)
      ∧ (Finset.univ : Finset (Fin n)).fold max ⊥ (fun j => ((L j : ℝ) : EReal)) = ((M : ℝ) : EReal) := by
  have hne : (Finset.univ : Finset (Fin n)).Nonempty := ⟨⟨0, hn⟩, Finset.mem_univ _⟩
  obtain ⟨j, _, hj⟩ := Finset.exists_mem_eq_sup' hne L
  have hle : ∀ i, L i ≤ Finset.univ.sup' hne L := fun i => Finset.le_sup' L (Finset.mem_univ i)
  exact ⟨_, hle, ⟨j, hj.symm⟩, fold_max_coe_eq L _ hle ⟨j, hj.symm⟩⟩

/-- A finite sum of exponentials of differences of reals, computed on the extended reals, is the coerced
    real sum: the difference of two reals is real, its exponential is the real exponential, and the coercion
    commutes with finite sums. -/
theorem sum_exp_coe {ι : Type*} [Fintype ι] (f : ι → ℝ) (M : ℝ) :
    ∑ j, Ideal.exp (((f j : ℝ) : EReal) - ((M : ℝ) : EReal)) = ((∑ j, Real.exp (f j - M) : ℝ) : EReal) := by
  rw [ERealSum.coe_finset_sum]
  exact Finset.sum_congr rfl fun j _ => by rw [← EReal.coe_sub, Ideal.exp_coe]

/-- The first tile, from (−∞, 0): the new maximum is the tile's maximum c, and the new sum is Σ_j exp(s_j − c),
    since −∞ − c = −∞, exp(−∞) = 0 and 0 · 0 = 0. -/
theorem step_init {B : ℕ} (c : ℝ) (s : Fin B → ℝ)
    (hc : (Finset.univ : Finset (Fin B)).fold max ⊥ (fun j => ((s j : ℝ) : EReal)) = ((c : ℝ) : EReal)) :
    step ((⊥ : EReal), (0 : EReal)) (fun j => ((s j : ℝ) : EReal))
      = (((c : ℝ) : EReal), ((∑ j, Real.exp (s j - c) : ℝ) : EReal)) := by
  unfold step
  simp only [hc, bot_le, max_eq_right, EReal.bot_sub, Ideal.exp_bot, mul_zero, zero_add]
  rw [sum_exp_coe]

/-- A later tile, from a real pair (m, l): every operation stays in the reals, so the new pair is
    (max m c, exp(m − max m c) · l + Σ_j exp(s_j − max m c)) computed in the reals. -/
theorem step_coe {B : ℕ} (m l c : ℝ) (s : Fin B → ℝ)
    (hc : (Finset.univ : Finset (Fin B)).fold max ⊥ (fun j => ((s j : ℝ) : EReal)) = ((c : ℝ) : EReal)) :
    step (((m : ℝ) : EReal), ((l : ℝ) : EReal)) (fun j => ((s j : ℝ) : EReal))
      = (((max m c : ℝ) : EReal),
         ((Real.exp (m - max m c) * l + ∑ j, Real.exp (s j - max m c) : ℝ) : EReal)) := by
  unfold step
  simp only [hc, ← coe_max]
  rw [sum_exp_coe, ← EReal.coe_sub, Ideal.exp_coe, ← EReal.coe_mul, ← EReal.coe_add]

/-- Moving the shift of a sum of exponentials from M₀ to M: exp(M₀ − M) · Σ exp(x − M₀) = Σ exp(x − M),
    because exp(M₀ − M) · exp(x − M₀) = exp(x − M) and a real factor distributes over a finite sum. -/
theorem rescale_sum {B : ℕ} (s : ℕ → Fin B → ℝ) (n : ℕ) (M₀ M : ℝ) :
    Real.exp (M₀ - M) * ∑ t ∈ Finset.range n, ∑ j, Real.exp (s t j - M₀)
      = ∑ t ∈ Finset.range n, ∑ j, Real.exp (s t j - M) := by
  rw [Finset.mul_sum]
  refine Finset.sum_congr rfl fun t _ => ?_
  rw [Finset.mul_sum]
  refine Finset.sum_congr rfl fun j _ => ?_
  rw [← Real.exp_add]
  congr 1
  ring

/-- The running pair after k ≥ 1 tiles of real entries is (M, Σ_{t<k} Σ_j exp(s t j − M)), with M the maximum
    of all the entries seen: a real upper bound of them that one of them attains. By induction on k: the first
    tile by step_init; a later tile by step_coe, the new maximum being max M₀ c (attained by the old maximiser
    or by the tile's), and the old sum moved to the new shift by rescale_sum. -/
theorem run_real {B : ℕ} (hB : 0 < B) (s : ℕ → Fin B → ℝ) (k : ℕ) (hk : 0 < k) :
    ∃ M : ℝ, (∀ t, t < k → ∀ j, s t j ≤ M) ∧ (∃ t, t < k ∧ ∃ j, s t j = M)
      ∧ run (fun t j => ((s t j : ℝ) : EReal)) k
          = (((M : ℝ) : EReal), ((∑ t ∈ Finset.range k, ∑ j, Real.exp (s t j - M) : ℝ) : EReal)) := by
  obtain ⟨k, rfl⟩ : ∃ k' : ℕ, k = k' + 1 := ⟨k - 1, by omega⟩
  clear hk
  induction k with
  | zero =>
    obtain ⟨c, hle, ⟨j, hj⟩, hc⟩ := fold_max_coe hB (s 0)
    refine ⟨c, ?_, ⟨0, Nat.one_pos, j, hj⟩, ?_⟩
    · intro t ht i
      obtain rfl : t = 0 := by omega
      exact hle i
    · show step ((⊥ : EReal), (0 : EReal)) (fun j => ((s 0 j : ℝ) : EReal)) = _
      rw [step_init c (s 0) hc, Finset.sum_range_one]
  | succ k ih =>
    obtain ⟨M₀, hle₀, ⟨t₀, ht₀, j₀, hj₀⟩, hrun⟩ := ih
    obtain ⟨c, hlec, ⟨jc, hjc⟩, hc⟩ := fold_max_coe hB (s (k + 1))
    refine ⟨max M₀ c, ?_, ?_, ?_⟩
    · intro t ht i
      rcases Nat.lt_succ_iff_lt_or_eq.mp ht with h | rfl
      · exact le_trans (hle₀ t h i) (le_max_left _ _)
      · exact le_trans (hlec i) (le_max_right _ _)
    · rcases le_total M₀ c with h | h
      · exact ⟨k + 1, by omega, jc, by rw [hjc, max_eq_right h]⟩
      · exact ⟨t₀, by omega, j₀, by rw [hj₀, max_eq_left h]⟩
    · show step (run (fun t j => ((s t j : ℝ) : EReal)) (k + 1)) (fun j => ((s (k + 1) j : ℝ) : EReal)) = _
      rw [hrun, step_coe M₀ _ c (s (k + 1)) hc, rescale_sum, ← Finset.sum_range_succ]

end Idealize.ShloMosaic.OnlineLse
-- ==== Proof.LibOnlineLseBridge.lean ====
/-
  The online log-sum-exp of a row against the one-shot form, on the extended reals.

  A row of T·B real logits is read in T tiles of B columns, tile t holding the columns B·t, …, B·t + B − 1.
  The online computation ends with the pair (m, l): m the maximum of the row and l = Σ_c exp(L_c − m). The
  one-shot form takes the maximum of the whole row first, then the sum of exp(L_c − max), then the logarithm.
  Both give x − max − log Σ_c exp(L_c − max):

  * the two maxima are the same real number, each being an upper bound of the row that an entry attains
    (every column c is the column c mod B of the tile c div B, and every column of a tile t < T is a column of
    the row);
  * the sum over the T·B columns is the sum over the tiles of the sums over their columns;
  * the sum of exponentials is a positive real, so its logarithm is a real;
  * x − (b + c) = (x − b) − c for real b, c and ANY extended real x (at x = ±∞ both sides are x).
-/
import proofs.«147333_j46926812676545_1_alg».proof.Proof.LibOnlineLse
import proofs.«147333_j46926812676545_1_alg».proof.Proof.LibBlockedSum

open scoped BigOperators

namespace Idealize.ShloMosaic.OnlineLse

/-- Subtracting a sum of two reals from an extended real is subtracting them one after the other:
    x − (b + c) = (x − b) − c. For real x this is the law of the reals; at x = −∞ both sides are −∞ and at
    x = +∞ both are +∞, because b, c and b + c are finite. -/
theorem sub_add_coe (x : EReal) (b c : ℝ) :
    x - (((b : ℝ) : EReal) + ((c : ℝ) : EReal)) = (x - ((b : ℝ) : EReal)) - ((c : ℝ) : EReal) := by
  induction x using EReal.rec with
  | bot => rw [EReal.bot_sub, EReal.bot_sub, EReal.bot_sub]
  | coe r =>
    rw [← EReal.coe_add, ← EReal.coe_sub, ← EReal.coe_sub, ← EReal.coe_sub]
    congr 1
    ring
  | top => rw [← EReal.coe_add, EReal.top_sub_coe, EReal.top_sub_coe, EReal.top_sub_coe]

/-- The entry of tile t at column j of a row of T·B reals: the row's entry at position B·t + j (and 0 past
    the end of the row, which no tile t < T reaches). -/
def tile {T B : ℕ} (L : Fin (T * B) → ℝ) (t : ℕ) (j : Fin B) : ℝ :=
  if h : B * t + j.val < T * B then L ⟨B * t + j.val, h⟩ else 0

/-- The tiles read on the extended reals are the coerced real tiles. -/
theorem tile_coe {T B : ℕ} (L : Fin (T * B) → ℝ) :
    (fun (t : ℕ) (j : Fin B) =>
        if h : B * t + j.val < T * B then ((L ⟨B * t + j.val, h⟩ : ℝ) : EReal) else 0)
      = fun t j => ((tile L t j : ℝ) : EReal) := by
  funext t j
  unfold tile
  by_cases h : B * t + j.val < T * B
  · rw [dif_pos h, dif_pos h]
  · rw [dif_neg h, dif_neg h, EReal.coe_zero]

/-- Column j < B of tile t < T is inside the row: B·t + j < B·(t + 1) ≤ B·T. -/
theorem pos_lt {T B t j : ℕ} (ht : t < T) (hj : j < B) : B * t + j < T * B :=
  calc B * t + j < B * t + B := by omega
    _ = B * (t + 1) := by ring
    _ ≤ B * T := Nat.mul_le_mul_left _ (by omega)
    _ = T * B := Nat.mul_comm _ _

/-- Every column c of the row is column c mod B of tile c div B. -/
theorem tile_div_mod {T B : ℕ} (hB : 0 < B) (L : Fin (T * B) → ℝ) (c : Fin (T * B)) :
    tile L (c.val / B) ⟨c.val % B, Nat.mod_lt _ hB⟩ = L c := by
  have h : B * (c.val / B) + c.val % B = c.val := Nat.div_add_mod _ _
  rw [tile, dif_pos (show B * (c.val / B) + c.val % B < T * B by rw [h]; exact c.isLt)]
  congr 1
  exact Fin.ext h

/-- An upper bound of all the tiles' entries is an upper bound of the row. -/
theorem le_of_tiles {T B : ℕ} (hB : 0 < B) (L : Fin (T * B) → ℝ) (M : ℝ)
    (hle : ∀ t, t < T → ∀ j, tile L t j ≤ M) (c : Fin (T * B)) : L c ≤ M := by
  rw [← tile_div_mod hB L c]
  exact hle _ ((Nat.div_lt_iff_lt_mul hB).mpr c.isLt) _

/-- A value one of the tiles' entries takes is a value an entry of the row takes. -/
theorem attained_of_tiles {T B : ℕ} (L : Fin (T * B) → ℝ) (M : ℝ)
    (hat : ∃ t, t < T ∧ ∃ j, tile L t j = M) : ∃ c, L c = M := by
  obtain ⟨t, ht, j, hj⟩ := hat
  refine ⟨⟨B * t + j.val, pos_lt ht j.isLt⟩, ?_⟩
  rw [← hj, tile, dif_pos (pos_lt ht j.isLt)]

/-- The sum of exp(L_c − M) over the T·B columns of the row is the sum over the tiles of the sums over their
    columns. -/
theorem sum_exp_tiles {T B : ℕ} (L : Fin (T * B) → ℝ) (M : ℝ) :
    ∑ c, Real.exp (L c - M) = ∑ t ∈ Finset.range T, ∑ j, Real.exp (tile L t j - M) := by
  have h := BlockedSum.sum_fin_blocks T B
    (fun k => Real.exp ((if h : k < T * B then L ⟨k, h⟩ else 0) - M))
  refine Eq.trans (Finset.sum_congr rfl fun c _ => ?_) h
  rw [dif_pos c.isLt]

/-- THE BRIDGE. For a row of T·B real logits (T ≥ 1 tiles of B ≥ 1 columns) and any extended real x, the
    online form x − (m + log l), with (m, l) the running pair after the T tiles, is the one-shot form
    (x − max) − log(0 + Σ_c exp(L_c − max)), the maximum taken over the whole row at once. -/
theorem online_eq_oneshot {T B : ℕ} (hT : 0 < T) (hB : 0 < B) (L : Fin (T * B) → ℝ) (x : EReal) :
    x - ((run (fun (t : ℕ) (j : Fin B) => if h : B * t + j.val < T * B then ((L ⟨B * t + j.val, h⟩ : ℝ) : EReal) else 0) T).1
          + Ideal.log (run (fun (t : ℕ) (j : Fin B) => if h : B * t + j.val < T * B then ((L ⟨B * t + j.val, h⟩ : ℝ) : EReal) else 0) T).2)
      = (x - (Finset.univ : Finset (Fin (T * B))).fold max ⊥ (fun c => ((L c : ℝ) : EReal)))
          - Ideal.log (0 + ∑ c, Ideal.exp (((L c : ℝ) : EReal)
              - (Finset.univ : Finset (Fin (T * B))).fold max ⊥ (fun c => ((L c : ℝ) : EReal)))) := by
  rw [tile_coe L]
  obtain ⟨M, hle, hat, hrun⟩ := run_real hB (tile L) T hT
  have hfold := fold_max_coe_eq L M (le_of_tiles hB L M hle) (attained_of_tiles L M hat)
  have hpos : 0 < ∑ t ∈ Finset.range T, ∑ j, Real.exp (tile L t j - M) :=
    Finset.sum_pos (fun t _ => Finset.sum_pos (fun j _ => Real.exp_pos _) ⟨⟨0, hB⟩, Finset.mem_univ _⟩)
      ⟨0, Finset.mem_range.mpr hT⟩
  rw [hrun, hfold, sum_exp_coe, zero_add, sum_exp_tiles L M]
  simp only [Ideal.log_coe, if_neg (not_le.mpr hpos)]
  exact sub_add_coe x M _

end Idealize.ShloMosaic.OnlineLse
-- ==== Proof.LibScaledScore.lean ====
/-
  Scores scaled before the contraction or divided after it, on the extended reals, and a cast that adds a leading unit axis.

  Multiplication by a nonnegative finite extended real distributes over every finite sum of extended reals, infinite
  terms and sums of opposite infinities included (a sum of +∞ and −∞ is −∞ here, and a positive finite factor keeps each
  infinity). So a contraction whose left factors are each scaled by 1/y, y a positive real, is the unscaled contraction
  divided by y: Σ_d (q d · (1/y)) · k d = (Σ_d q d · k d) / y, with no finiteness asked of q or k. For attention over
  features of width 1024 the scale is 1/32: the f32 word 0x3D000000 is 1/32, the word 0x44800000 is 1024, and its square
  root is 32. A matrix [a, b] cast to [1, a, b] reads, at (u, r, c), the matrix at (r, c).
-/
import Idealize.ShloMosaic.PureOps.Ideal.Laws
import Idealize.ShloMosaic.Lib.ValueIdx
import Idealize.ShloMosaic.Lib.Pipeline.Value

noncomputable section

namespace Idealize.ShloMosaic.ScaledScore

open Idealize.ShloMosaic Idealize.ShloMosaic.ValueIdx

/-- A nonnegative finite factor moves out of a finite sum of extended reals. -/
theorem sum_mul_const {ι : Type} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 ht]

/-- Scaling each left factor by `1/y` before a contraction is dividing the contraction by `y`, for a positive real `y`. -/
theorem scaled_eq_divided {ι : Type} [Fintype ι] (q k : ι → EReal) (y : ℝ) (hy : 0 < y) :
    ∑ d, (q d * ((1 / y : ℝ) : EReal)) * k d = Ideal.div (∑ d, q d * k d) (y : EReal) := by
  rw [Ideal.div_coe hy.ne', ← sum_mul_const _ _ _ (EReal.coe_nonneg.mpr (one_div_pos.mpr hy).le) (EReal.coe_ne_top _)]
  exact Finset.sum_congr rfl fun d _ => mul_right_comm _ _ _

/-- The f32 word `0x3D000000` is 1/32. -/
theorem ofBits_inv32 : Ideal.ofBits .f32 0x3D000000#32 = ((1 / 32 : ℝ) : EReal) := by
  simp [Ideal.ofBits, Ideal.ieee, -EReal.coe_mul]; norm_num

/-- The f32 word `0x44800000` is 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt (Ideal.ofBits .f32 0x44800000#32) = ((32 : ℝ) : EReal) := by
  rw [ofBits_1024, Ideal.sqrt_coe, if_neg (by norm_num)]
  have h : Real.sqrt 1024 = 32 := by
    rw [show (1024 : ℝ) = 32 ^ 2 by norm_num]; exact Real.sqrt_sq (by norm_num)
  rw [h]

/-- A matrix `[a, b]` cast to `[1, a, b]` reads, at `(u, r, c)`, the matrix at `(r, c)`. -/
theorem shapeCast_ab_1ab_apply {α : Type} {a b : ℕ} (x : (⟨2, ![a, b]⟩ : Shape).Idx → α)
    (h : (⟨2, ![a, b]⟩ : Shape).ShapeCasts ⟨3, ![1, a, b]⟩) (u : Fin 1) (r : Fin a) (c : Fin b) :
    shapeCast ⟨3, ![1, a, b]⟩ x h (ix3 u r c) = x (ix2 r c) :=
  shapeCast_apply x h _ _ (by
    have hu : u.val = 0 := by omega
    rw [Shape.rowMajor_val_two, Shape.rowMajor_val_three]
    show r.val * b + c.val = (u.val * a + r.val) * b + c.val
    rw [hu, Nat.zero_mul, Nat.zero_add])

end Idealize.ShloMosaic.ScaledScore

end
-- ==== Proof.AttnMath.lean ====
/-
  The arithmetic of the two passes of the kernel, tile by tile, joined to the specification.

  Pass 1 walks a column of 8192 scores in 8 tiles of 1024 rows and keeps the running pair (m, l): m the maximum seen so
  far (from minus infinity) and l the sum of exp(score − m) seen so far (from 0). A tile with entries s updates the pair to
  m' = max m (max of s) and l' = l · exp(m − m') + Σ exp(s_i − m'). When every score is a real number the pair after the
  8 tiles is (max, Σ exp(score − max)), so exp(score − (m + log l)) is the softmax weight exp(score − max) / Σ.

  Pass 2 walks the 8192 keys in 16 tiles of 512 and adds, tile by tile, 0.1 · Σ_k w_k · V_k + Σ_k M_k · H_k over the
  tile's keys to a running total that starts at 0. The factor 0.1 is a nonnegative finite number, so it distributes over
  every finite sum of extended reals (infinite terms included), and the 16 partial sums are the one sum over all the keys.
-/
import proofs.«147333_j46926812676545_1_alg».proof.Proof.AttnSpec
import proofs.«147333_j46926812676545_1_alg».proof.Proof.LibERealSum
import proofs.«147333_j46926812676545_1_alg».proof.Proof.LibBlockedSum
import proofs.«147333_j46926812676545_1_alg».proof.Proof.LibOnlineLse
import proofs.«147333_j46926812676545_1_alg».proof.Proof.LibOnlineLseBridge
import proofs.«147333_j46926812676545_1_alg».proof.Proof.LibScaledScore

noncomputable section

namespace Cert.AttnMath

open Idealize.ShloMosaic
open scoped BigOperators

/-! ## Pass 1: the running column statistics -/

/-- One tile of 1024 rows: the new maximum is m' = max m (max of the tile, from −∞), the new sum is
    l · exp(m − m') + Σ_i exp(s_i − m'). -/
def step (st : EReal × EReal) (s : Fin 1024 → EReal) : EReal × EReal :=
  (max st.1 ((Finset.univ : Finset (Fin 1024)).fold max ⊥ s),
   st.2 * Ideal.exp (st.1 - max st.1 ((Finset.univ : Finset (Fin 1024)).fold max ⊥ s))
     + ∑ i : Fin 1024, Ideal.exp (s i - max st.1 ((Finset.univ : Finset (Fin 1024)).fold max ⊥ s)))

/-- The running pair after the first n tiles of the column x, from (−∞, 0): tile t holds the rows 1024·t, …, 1024·t + 1023. -/
def colStat (x : ℕ → EReal) : ℕ → EReal × EReal
  | 0 => (⊥, 0)
  | n + 1 => step (colStat x n) (fun i => x (1024 * n + i.val))

/-- The running total after the first j tiles, from 0. -/
def accum (f : ℕ → EReal) : ℕ → EReal
  | 0 => 0
  | j + 1 => accum f j + f j

/-- The tile update is the general online update with the two factors of the rescaled old sum exchanged. -/
theorem step_eq (st : EReal × EReal) (s : Fin 1024 → EReal) : step st s = OnlineLse.step st s := by
  unfold step OnlineLse.step
  rw [mul_comm]

/-- The running pair is the general online recurrence over tiles of 1024. -/
theorem colStat_eq_run (x : ℕ → EReal) (n : ℕ) :
    colStat x n = OnlineLse.run (fun (t : ℕ) (i : Fin 1024) => x (1024 * t + i.val)) n := by
  induction n with
  | zero => rfl
  | succ n ih =>
    show step (colStat x n) _ = OnlineLse.step (OnlineLse.run _ n) _
    rw [ih, step_eq]

/-- For a real a and a positive real S: exp(a − log S) = exp(a) / S. -/
theorem exp_sub_log (a S : ℝ) (hS : 0 < S) :
    Ideal.exp (((a : ℝ) : EReal) - Ideal.log ((S : ℝ) : EReal)) = Ideal.div (Ideal.exp ((a : ℝ) : EReal)) ((S : ℝ) : EReal) := by
  rw [Ideal.log_coe, if_neg (not_le.mpr hS), ← EReal.coe_sub, Ideal.exp_coe, Ideal.exp_coe, Ideal.div_coe hS.ne',
    ← EReal.coe_mul, Real.exp_sub, Real.exp_log hS, div_eq_mul_one_div]

/-- The weight from the online pair, for a column of T·B real scores: exp(x_r − (m + log l)) with (m, l) the running pair
    after the T tiles is exp(x_r − max) / (0 + Σ_c exp(x_c − max)), the maximum taken from −∞ twice as a reduction spells it. -/
theorem weight_run {T B : ℕ} (hT : 0 < T) (hB : 0 < B) (sc : Fin (T * B) → EReal) (hs : ∀ c, ∃ y : ℝ, sc c = y)
    (r : Fin (T * B)) :
    Ideal.exp (sc r - ((OnlineLse.run (fun (t : ℕ) (j : Fin B) => if h : B * t + j.val < T * B then sc ⟨B * t + j.val, h⟩ else 0) T).1
        + Ideal.log (OnlineLse.run (fun (t : ℕ) (j : Fin B) => if h : B * t + j.val < T * B then sc ⟨B * t + j.val, h⟩ else 0) T).2))
      = Ideal.div (Ideal.exp (sc r - max ⊥ ((Finset.univ : Finset (Fin (T * B))).fold max ⊥ sc)))
          (0 + ∑ c, Ideal.exp (sc c - max ⊥ ((Finset.univ : Finset (Fin (T * B))).fold max ⊥ sc))) := by
  choose L hL using hs
  obtain rfl : sc = fun c => ((L c : ℝ) : EReal) := funext hL
  rw [OnlineLse.online_eq_oneshot hT hB L, max_eq_right bot_le]
  obtain ⟨M, _, _, hM⟩ := OnlineLse.fold_max_coe (Nat.mul_pos hT hB) L
  have hpos : 0 < ∑ c, Real.exp (L c - M) :=
    Finset.sum_pos (fun c _ => Real.exp_pos _) ⟨⟨0, Nat.mul_pos hT hB⟩, Finset.mem_univ _⟩
  rw [hM, OnlineLse.sum_exp_coe, zero_add, ← EReal.coe_sub]
  exact exp_sub_log _ _ hpos

/-- THE WEIGHT FROM PASS 1. With every score a real number, exp(score − (m + log l)), (m, l) the running pair of column k
    after its 8 tiles of 1024 rows, is the specification's softmax weight of row r within column k. -/
theorem weight_of_colStat (M : Fin 8192 → Fin 8192 → EReal) (Q K : Fin 8192 → Fin 64 → EReal)
    (hs : ∀ r k, ∃ y : ℝ, Cert.AttnSpec.score M Q K r k = y) (r k : Fin 8192) :
    Ideal.exp (Cert.AttnSpec.score M Q K r k
        - ((colStat (fun i => if h : i < 8192 then Cert.AttnSpec.score M Q K ⟨i, h⟩ k else 0) 8).1
            + Ideal.log (colStat (fun i => if h : i < 8192 then Cert.AttnSpec.score M Q K ⟨i, h⟩ k else 0) 8).2))
      = Cert.AttnSpec.weight M Q K r k := by
  rw [colStat_eq_run]
  exact weight_run (T := 8) (B := 1024) (by norm_num) (by norm_num) (fun c => Cert.AttnSpec.score M Q K c k)
    (fun c => hs c k) r

/-! ## Pass 2: the running total over the key tiles -/

/-- The running total after n tiles is the sum of the n tiles' contributions. -/
theorem accum_eq_sum (f : ℕ → EReal) (n : ℕ) : accum f n = ∑ j ∈ Finset.range n, f j := by
  induction n with
  | zero => rfl
  | succ n ih =>
    rw [Finset.sum_range_succ, ← ih]
    rfl

/-- A nonnegative finite factor moves into a finite sum of extended reals, infinite terms included. -/
theorem mul_sum_const {ι : Type} (s : Finset ι) (f : ι → EReal) (c : EReal) (h0 : 0 ≤ c) (ht : c ≠ ⊤) :
    c * ∑ i ∈ s, f i = ∑ i ∈ s, c * f i := by
  rw [mul_comm, ← ScaledScore.sum_mul_const s f c h0 ht]
  exact Finset.sum_congr rfl fun i _ => mul_comm _ _

/-- n tiles of B keys, each adding c · Σ_k g + Σ_k h over its keys, total c · Σ g + Σ h over all the n·B keys, for a
    nonnegative finite c. Only commutativity and associativity of the sum and the distribution of c are used. -/
theorem accum_blocks (c : EReal) (h0 : 0 ≤ c) (ht : c ≠ ⊤) (B : ℕ) (g h : ℕ → EReal) (n : ℕ) :
    accum (fun j => c * (∑ k : Fin B, g (B * j + k.val)) + ∑ k : Fin B, h (B * j + k.val)) n
      = c * (∑ k : Fin (n * B), g k.val) + ∑ k : Fin (n * B), h k.val := by
  rw [accum_eq_sum, Finset.sum_add_distrib, BlockedSum.sum_fin_blocks n B g, BlockedSum.sum_fin_blocks n B h,
    mul_sum_const _ _ c h0 ht]

/-- The f32 word of 0.1 is the real number 13421773 / 2²⁷. -/
theorem c01_eq : Cert.AttnSpec.c01 = ((13421773 / 134217728 : ℝ) : EReal) := by
  simp [Ideal.ofBits, Ideal.ieee, -EReal.coe_mul]; norm_num

theorem c01_nonneg : (0 : EReal) ≤ Cert.AttnSpec.c01 := by
  rw [c01_eq]; exact EReal.coe_nonneg.mpr (by norm_num)

theorem c01_ne_top : Cert.AttnSpec.c01 ≠ ⊤ := by
  rw [c01_eq]; exact EReal.coe_ne_top _

/-- The f32 word of 0.125 is the real number 1/8. -/
theorem c125_eq : Cert.AttnSpec.c125 = ((1 / 8 : ℝ) : EReal) := by
  simp [Ideal.ofBits, Ideal.ieee, -EReal.coe_mul]; norm_num

/-- THE RESULT FROM PASS 2. The 16 tiles of 512 keys, each adding 0.1 · Σ_k a_k · V_k + Σ_k M_k · H_k over its keys to
    a total that starts at 0, end on 0.1 · Σ_k a_k · V_k + Σ_k M_k · H_k over all the 8192 keys (the arrays read past
    the last key, which no tile does, as 0). -/
theorem out_of_accum (M : Fin 8192 → Fin 8192 → EReal) (V H : Fin 8192 → Fin 64 → EReal) (r : Fin 8192) (d : Fin 64)
    (a : Fin 8192 → EReal) :
    accum (fun j =>
        Cert.AttnSpec.c01 * (∑ k : Fin 512, (if h : 512 * j + k.val < 8192 then a ⟨512 * j + k.val, h⟩ else 0)
            * (if h : 512 * j + k.val < 8192 then V ⟨512 * j + k.val, h⟩ d else 0))
          + ∑ k : Fin 512, (if h : 512 * j + k.val < 8192 then M r ⟨512 * j + k.val, h⟩ else 0)
            * (if h : 512 * j + k.val < 8192 then H ⟨512 * j + k.val, h⟩ d else 0)) 16
      = Cert.AttnSpec.c01 * (∑ k : Fin 8192, a k * V k d) + ∑ k : Fin 8192, M r k * H k d := by
  refine (accum_blocks Cert.AttnSpec.c01 c01_nonneg c01_ne_top 512
    (fun i => (if h : i < 8192 then a ⟨i, h⟩ else 0) * (if h : i < 8192 then V ⟨i, h⟩ d else 0))
    (fun i => (if h : i < 8192 then M r ⟨i, h⟩ else 0) * (if h : i < 8192 then H ⟨i, h⟩ d else 0)) 16).trans ?_
  show Cert.AttnSpec.c01 * (∑ k : Fin 8192, _) + ∑ k : Fin 8192, _ = _
  refine congrArg₂ (fun x y => Cert.AttnSpec.c01 * x + y) (Finset.sum_congr rfl fun k _ => ?_)
    (Finset.sum_congr rfl fun k _ => ?_)
  · rw [dif_pos k.isLt, dif_pos k.isLt]
  · rw [dif_pos k.isLt, dif_pos k.isLt]

end Cert.AttnMath

end
-- ==== Proof.Payload0.lean ====
/-
  The column-statistics kernel's arithmetic, read at an index on the extended reals.

  One grid step holds a tile of 1024 query rows against 512 keys. Its score at (i, j) is
  mask(i, j) · ((Σ_e q(i, e) · k(j, e)) · 0.125): the product q·kᵀ is a contraction over the 64 features of q's row i and
  k's row j (k is transposed first; rounding the operands to bf16 is the identity on the extended reals). Down each
  column j the tile's maximum is taken from −∞ and joined with the running maximum m(j); the running sum l(j) is
  rescaled by exp(m − m') and the tile's Σ_i exp(score(i, j) − m') is added: one step of the online recurrence. The
  resets write −∞ and 0, and the last step writes m + log l.
-/
import proofs.«147333_j46926812676545_1_alg».proof.Proof.Gen.KernelIdeal.Skeleton
import proofs.«147333_j46926812676545_1_alg».proof.Proof.AttnMath
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-- The f32 word of −∞ denotes ⊥. -/
theorem ofBits_neg_inf : Ideal.ofBits .f32 0xFF800000#32 = (⊥ : EReal) := by simp [Ideal.ofBits, Ideal.ieee]

/-- The product of a 1024×64 by a 64×512 matrix into a zero accumulator, at (i, j): the sum over the 64 contracted
    positions e of a(i, e) · b(e, j). -/
theorem matmul_qk_apply (a : FVec Ideal S1024x64 .bf16) (b : FVec Ideal S64x512 .bf16) (i : Fin 1024) (j : Fin 512) :
    matmul dot_S1024x64_S64x512_S1024x512_1_0_0_1_n_n none a b (constant (F := Ideal) S1024x512 .f32 0x00000000#32) (ix2 i j)
      = ∑ e : Fin 64, a (ix2 i e) * b (ix2 e j) := by
  show FloatOps.matmul _ none a b _ (ix2 i j) = _
  rw [Ideal.matmul_constant_zero_apply,
    ← Equiv.sum_comp (contrEquiv1 dot_S1024x64_S64x512_S1024x512_1_0_0_1_n_n 64 rfl rfl).symm]
  refine Finset.sum_congr rfl fun c _ => ?_
  have c2 := contrEquiv1_symm_val dot_S1024x64_S64x512_S1024x512_1_0_0_1_n_n 64 rfl rfl c
  have l2 : dot_S1024x64_S64x512_S1024x512_1_0_0_1_n_n.lhsIdx (ix2 i j) ((contrEquiv1 _ 64 rfl rfl).symm c) = ix2 i c := by
    funext ax; apply Fin.ext
    match ax with
    | ⟨0, _⟩ => simp [DotDims.lhsIdx, dot_S1024x64_S64x512_S1024x512_1_0_0_1_n_n]; rfl
    | ⟨1, _⟩ => simp [DotDims.lhsIdx, dot_S1024x64_S64x512_S1024x512_1_0_0_1_n_n]; exact c2
  have r2 : dot_S1024x64_S64x512_S1024x512_1_0_0_1_n_n.rhsIdx (ix2 i j) ((contrEquiv1 _ 64 rfl rfl).symm c) = ix2 c j := by
    funext ax; apply Fin.ext
    match ax with
    | ⟨0, _⟩ => simp [DotDims.rhsIdx, dot_S1024x64_S64x512_S1024x512_1_0_0_1_n_n]; exact c2
    | ⟨1, _⟩ => simp [DotDims.rhsIdx, dot_S1024x64_S64x512_S1024x512_1_0_0_1_n_n]; rfl
  rw [l2, r2]

/-- The tile of scores at (i, j): mask · ((q row i · k row j) · 0.125). -/
theorem k0_pay5_apply (q : Vec Ideal S1024x64 .f32) (k : Vec Ideal S512x64 .f32) (mm : Vec Ideal S1024x512 .f32)
    (i : Fin 1024) (j : Fin 512) :
    k0_pay5 (F := Ideal) q k mm (ix2 i j)
      = mm (ix2 i j) * ((∑ e : Fin 64, q (ix2 i e) * k (ix2 j e)) * Cert.AttnSpec.c125) := by
  unfold k0_pay5
  refine congrArg (fun x => mm (ix2 i j) * (x * Cert.AttnSpec.c125)) ?_
  refine (matmul_qk_apply _ _ i j).trans ?_
  refine Finset.sum_congr rfl fun e _ => ?_
  rw [transpose_ix2_apply]
  simp only [shapeCast_self]
  rfl

/-- A column's maximum over the tile's 1024 rows, from −∞, kept as a row vector: at (0, j) the fold of max over the rows. -/
theorem colmax_apply (x : FVec Ideal S1024x512 .f32) (j : Fin 512) :
    shapeCast S1x512 (multiReduction (F := Ideal) .maximumf [0] S512 x 0xFF800000#32 reduces_S1024x512_S512 (.inl rfl) rfl)
        shapeCasts_S512_S1x512 (ix2 (0 : Fin 1) j)
      = (Finset.univ : Finset (Fin 1024)).fold max ⊥ (fun i => x (ix2 i j)) := by
  rw [shapeCast_a_1a_apply]
  refine (Ideal.multiReduction_maximumf_single x _ reduces_S1024x512_S512 (.inl rfl) rfl (ix1 j)).trans ?_
  have hl : ∀ i : Fin 1024, reduces_S1024x512_S512.lift (ix1 j) i = ix2 i j := fun i =>
    funext fun ax => Fin.ext (match ax with | ⟨0, _⟩ => rfl | ⟨1, _⟩ => rfl)
  show (Finset.univ : Finset (Fin 1024)).fold max (Ideal.ofBits .f32 0xFF800000#32)
      (fun i => x (reduces_S1024x512_S512.lift (ix1 j) i)) = _
  rw [ofBits_neg_inf]
  exact congrArg (fun f : Fin 1024 → EReal => (Finset.univ : Finset (Fin 1024)).fold max ⊥ f)
    (funext fun i => congrArg x (hl i))

/-- A column's sum over the tile's 1024 rows, kept as a row vector: at (0, j) the sum over the rows. -/
theorem colsum_apply (x : FVec Ideal S1024x512 .f32) (j : Fin 512) :
    shapeCast S1x512 (multiReduction (F := Ideal) .add [0] S512 x 0x00000000#32 reduces_S1024x512_S512 (.inl rfl) rfl)
        shapeCasts_S512_S1x512 (ix2 (0 : Fin 1) j)
      = ∑ i : Fin 1024, x (ix2 i j) := by
  rw [shapeCast_a_1a_apply]
  refine (Ideal.multiReduction_add_single x _ reduces_S1024x512_S512 (.inl rfl) rfl (ix1 j)).trans ?_
  have hl : ∀ i : Fin 1024, reduces_S1024x512_S512.lift (ix1 j) i = ix2 i j := fun i =>
    funext fun ax => Fin.ext (match ax with | ⟨0, _⟩ => rfl | ⟨1, _⟩ => rfl)
  show ∑ i : Fin 1024, x (reduces_S1024x512_S512.lift (ix1 j) i) = _
  exact Finset.sum_congr rfl fun i _ => congrArg x (hl i)

/-- A row vector copied down the 1024 rows reads, at (i, j), the row vector at (0, j). -/
theorem bcast_row_apply {α : Type} (m : S1x512.Idx → α) (i : Fin 1024) (j : Fin 512) :
    broadcastTo S1024x512 m broadcasts_S1x512_S1024x512 (ix2 i j) = m (ix2 (0 : Fin 1) j) :=
  broadcastTo_apply m _ _ _ (fun a => match a with | ⟨0, _⟩ => rfl | ⟨1, _⟩ => rfl)

/-- The new running maximum at column j: the old one joined with the tile's column maximum. -/
theorem k0_pay6_apply (q : Vec Ideal S1024x64 .f32) (k : Vec Ideal S512x64 .f32) (mm : Vec Ideal S1024x512 .f32)
    (mp : Vec Ideal S1x512 .f32) (j : Fin 512) :
    k0_pay6 (F := Ideal) q k mm mp (ix2 (0 : Fin 1) j)
      = max (mp (ix2 (0 : Fin 1) j))
          ((Finset.univ : Finset (Fin 1024)).fold max ⊥ (fun i => k0_pay5 (F := Ideal) q k mm (ix2 i j))) := by
  unfold k0_pay6
  exact congrArg (max (mp (ix2 (0 : Fin 1) j))) (colmax_apply _ j)

/-- The stored running maximum is the value itself (a cast to the same shape). -/
theorem k0_pay1_eq (x : FVec Ideal S1x512 .f32) : k0_pay1 (F := Ideal) x = x := by
  unfold k0_pay1
  exact shapeCast_self _ _

/-- The new running sum at column j: the old one rescaled by exp(m − m') plus the tile's Σ_i exp(score(i, j) − m'). -/
theorem k0_pay7_apply (q : Vec Ideal S1024x64 .f32) (k : Vec Ideal S512x64 .f32) (mm : Vec Ideal S1024x512 .f32)
    (mp mp' lp : Vec Ideal S1x512 .f32) (j : Fin 512) :
    k0_pay7 (F := Ideal) q k mm mp mp' lp (ix2 (0 : Fin 1) j)
      = lp (ix2 (0 : Fin 1) j) * Ideal.exp (mp' (ix2 (0 : Fin 1) j) - k0_pay6 (F := Ideal) q k mm mp (ix2 (0 : Fin 1) j))
        + ∑ i : Fin 1024, Ideal.exp (k0_pay5 (F := Ideal) q k mm (ix2 i j) - k0_pay6 (F := Ideal) q k mm mp (ix2 (0 : Fin 1) j)) := by
  unfold k0_pay7
  rw [shapeCast_self]
  refine congrArg (fun x => lp (ix2 (0 : Fin 1) j) * Ideal.exp (mp' (ix2 (0 : Fin 1) j) - k0_pay6 (F := Ideal) q k mm mp (ix2 (0 : Fin 1) j)) + x) ?_
  refine (colsum_apply _ j).trans ?_
  refine Finset.sum_congr rfl fun i _ => ?_
  exact congrArg (fun x => Ideal.exp (k0_pay5 (F := Ideal) q k mm (ix2 i j) - x)) (bcast_row_apply _ i j)

/-- ONE STEP OF PASS 1 at column j: the stored new maximum and new sum are the two components of the tile update of
    the running pair (m(j), l(j)) by the tile's column of scores. -/
theorem k0_step_fst (q : Vec Ideal S1024x64 .f32) (k : Vec Ideal S512x64 .f32) (mm : Vec Ideal S1024x512 .f32)
    (mp lp : Vec Ideal S1x512 .f32) (j : Fin 512) :
    k0_pay1 (F := Ideal) (k0_pay6 (F := Ideal) q k mm mp) (ix2 (0 : Fin 1) j)
      = (Cert.AttnMath.step (mp (ix2 (0 : Fin 1) j), lp (ix2 (0 : Fin 1) j))
          (fun i => k0_pay5 (F := Ideal) q k mm (ix2 i j))).1 := by
  rw [k0_pay1_eq, k0_pay6_apply]
  rfl

theorem k0_step_snd (q : Vec Ideal S1024x64 .f32) (k : Vec Ideal S512x64 .f32) (mm : Vec Ideal S1024x512 .f32)
    (mp lp : Vec Ideal S1x512 .f32) (j : Fin 512) :
    k0_pay7 (F := Ideal) q k mm mp mp lp (ix2 (0 : Fin 1) j)
      = (Cert.AttnMath.step (mp (ix2 (0 : Fin 1) j), lp (ix2 (0 : Fin 1) j))
          (fun i => k0_pay5 (F := Ideal) q k mm (ix2 i j))).2 := by
  rw [k0_pay7_apply, k0_pay6_apply]
  rfl

/-- The reset of the running maximum writes −∞. -/
theorem k0_pay3_apply (j : Fin 512) : k0_pay3 (F := Ideal) (ix2 (0 : Fin 1) j) = (⊥ : EReal) := by
  unfold k0_pay3
  rw [shapeCast_self]
  exact ofBits_neg_inf

/-- The reset of the running sum writes 0. -/
theorem k0_pay4_apply (j : Fin 512) : k0_pay4 (F := Ideal) (ix2 (0 : Fin 1) j) = (0 : EReal) := by
  unfold k0_pay4
  rw [shapeCast_self]
  exact Ideal.ofBits_zero_f32

/-- The last step writes m + log l. -/
theorem k0_pay2_apply (mf lf : Vec Ideal S1x512 .f32) (j : Fin 512) :
    k0_pay2 (F := Ideal) mf lf (ix2 (0 : Fin 1) j) = mf (ix2 (0 : Fin 1) j) + Ideal.log (lf (ix2 (0 : Fin 1) j)) := rfl

end Cert.KernelIdeal.Pay

end
-- ==== Proof.Value0.lean ====
/-
  Region 0's value: what the column-statistics kernel leaves, point by point, as terms of the blocks it reads.
  At the first row tile of a column block the two scratch rows are reset to −∞ and 0 and updated by the tile; at a later
  tile they are updated from what the tile before left; at the last tile the output block is maximum + log sum.
-/
import proofs.«147333_j46926812676545_1_alg».proof.Proof.Reg0Frame
import proofs.«147333_j46926812676545_1_alg».proof.Proof.Payload0
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Frm

variable {F : FTy → Type} [FloatOps F]

theorem hz : (![0, 0] : Fin 2 → Nat) = fun _ => 0 := funext fun a => by fin_cases a <;> rfl

/-! ## What each case's stores leave, as terms of the blocks and of what the point before left -/

/-- First row tile: the running maximum row after the reset and the update. -/
theorem soutA0_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i) (x0 : Vec F S1024x512 .f32) (x1 : Vec F S1024x64 .f32) (x2 : Vec F S512x64 .f32) :
    sout0_A_0 c i arg2 harg2 arg3 harg3 arg4 harg4 arg5 harg5 arg6 harg6 arg7 harg7 hc0 hc1 x0 x1 x2 = k0_pay1 (k0_pay6 x1 x2 x0 k0_pay3) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

/-- First row tile: the running sum row after the reset and the update. -/
theorem soutA1_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i) (x0 : Vec F S1024x512 .f32) (x1 : Vec F S1024x64 .f32) (x2 : Vec F S512x64 .f32) :
    sout0_A_1 c i arg2 harg2 arg3 harg3 arg4 harg4 arg5 harg5 arg6 harg6 arg7 harg7 hc0 hc1 x0 x1 x2 = k0_pay7 x1 x2 x0 k0_pay3 k0_pay3 k0_pay4 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

/-- Middle row tile: the running maximum row updated from what the tile before left. -/
theorem soutB0_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i) (x0 : Vec F S1024x512 .f32) (x1 : Vec F S1024x64 .f32) (x2 : Vec F S512x64 .f32) (xs0 xs1 : Vec F S1x512 .f32) :
    sout0_B_0 c i arg2 harg2 arg3 harg3 arg4 harg4 arg5 harg5 arg6 harg6 arg7 harg7 hc0 hc1 x0 x1 x2 xs0 xs1 = k0_pay1 (k0_pay6 x1 x2 x0 xs0) := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

/-- Middle row tile: the running sum row updated from what the tile before left. -/
theorem soutB1_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i) (x0 : Vec F S1024x512 .f32) (x1 : Vec F S1024x64 .f32) (x2 : Vec F S512x64 .f32) (xs0 xs1 : Vec F S1x512 .f32) :
    sout0_B_1 c i arg2 harg2 arg3 harg3 arg4 harg4 arg5 harg5 arg6 harg6 arg7 harg7 hc0 hc1 x0 x1 x2 xs0 xs1 = k0_pay7 x1 x2 x0 xs0 xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

/-- Last row tile: the running maximum row. -/
theorem soutC0_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1024x512 .f32) (x1 : Vec F S1024x64 .f32) (x2 : Vec F S512x64 .f32) (xs0 xs1 : Vec F S1x512 .f32) :
    sout0_C_0 c i arg2 harg2 arg3 harg3 arg4 harg4 arg5 harg5 arg6 harg6 arg7 harg7 hc0 hc1 x0 x1 x2 xs0 xs1 = k0_pay1 (k0_pay6 x1 x2 x0 xs0) := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

/-- Last row tile: the running sum row. -/
theorem soutC1_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1024x512 .f32) (x1 : Vec F S1024x64 .f32) (x2 : Vec F S512x64 .f32) (xs0 xs1 : Vec F S1x512 .f32) :
    sout0_C_1 c i arg2 harg2 arg3 harg3 arg4 harg4 arg5 harg5 arg6 harg6 arg7 harg7 hc0 hc1 x0 x1 x2 xs0 xs1 = k0_pay7 x1 x2 x0 xs0 xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

/-- Last row tile: the output block, maximum + log sum of the two rows just stored. -/
theorem outC3_eq (c : Dev nD) (i : grid0.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1024x512 .f32) (x1 : Vec F S1024x64 .f32) (x2 : Vec F S512x64 .f32) (xs0 xs1 : Vec F S1x512 .f32) :
    out0_C_3 c i arg2 harg2 arg3 harg3 arg4 harg4 arg5 harg5 arg6 harg6 arg7 harg7 hc0 hc1 x0 x1 x2 xs0 xs1
      = k0_pay2 (k0_pay1 (k0_pay6 x1 x2 x0 xs0)) (k0_pay7 x1 x2 x0 xs0 xs0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  try sl_unfold_words
  rw [View.canon_cons_unit_zero hz]
  simp only [View.readAt_eq_ld, harg2.read_unread, harg3.read_unread, harg4.read_unread, harg6.read_unread, harg7.read_unread,
    View.ld_unit_zero (S := S1024x512) hz, View.ld_unit_zero (S := S1x512) hz,
    View.ld_unit_zero (S := S1024x64) hz, View.ld_unit_zero (S := S512x64) hz, View.readCov_unit_zero (S := S1x512) _ hz]

end Cert.KernelIdeal.Val

end
-- ==== Proof.Value0Lse.lean ====
/-
  Region 0's value at the extended reals: the output array is the column-wise log-sum-exp of the masked scores.

  The grid is 16 column blocks by 8 row tiles, point t = 8 · (column block) + (row tile). At point t the kernel reads rows
  1024 · (t mod 8) … of the mask and of the queries and rows 512 · (t div 8) … of the keys, so its tile of scores at (i, j)
  is the specification's score of row 1024 · (t mod 8) + i against key 512 · (t div 8) + j. By induction over the points the
  two scratch rows hold, at column j, the running (maximum, rescaled sum) of that key's column after t mod 8 + 1 tiles;
  the last tile of a column block writes maximum + log sum, and those 16 blocks tile the output row.
-/
import proofs.«147333_j46926812676545_1_alg».proof.Proof.Value0
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Frm Cert.KernelIdeal.Pay
open Idealize.ShloMosaic.ValueIdx
open scoped BigOperators

/-! ## The blocks a point reads, and what it leaves in terms of the point before -/

section AnyF

variable {F : FTy → Type} [FloatOps F]
variable (V : (c : Dev nD) → (b : Ref sig .tc) → Buf (Elt F) ((c : Thread nD τ).loc b))

/-- The index maps over the grid: the mask block is (row tile, column block), the query block (row tile, 0), the key block
    (column block, 0), the output block (0, column block). -/
theorem idx0 : ∀ t : Fin cfg0.N, win0_0.index t 0 = t.val % 8 ∧ win0_0.index t 1 = t.val / 8 ∧ win0_1.index t 0 = t.val % 8
    ∧ win0_1.index t 1 = 0 ∧ win0_2.index t 0 = t.val / 8 ∧ win0_2.index t 1 = 0 ∧ win0_3.index t 0 = 0 ∧ win0_3.index t 1 = t.val / 8 :=
  (by decide +kernel : ∀ t : Fin grid0.N, win0_0.index t 0 = t.val % 8 ∧ win0_0.index t 1 = t.val / 8 ∧ win0_1.index t 0 = t.val % 8
    ∧ win0_1.index t 1 = 0 ∧ win0_2.index t 0 = t.val / 8 ∧ win0_2.index t 1 = 0 ∧ win0_3.index t 0 = 0 ∧ win0_3.index t 1 = t.val / 8)

/-- The mask block at point t reads rows 1024 · (t mod 8) + · and columns 512 · (t div 8) + · of the mask. -/
theorem iblk0_0_apply (c : Dev nD) (t : Fin cfg0.N) (x : S1024x512.Idx) (k : S8192x8192.Idx)
    (hk0 : (k 0).val = 1024 * (t.val % 8) + (x 0).val) (hk1 : (k 1).val = 512 * (t.val / 8) + (x 1).val) :
    (iblk0 V c 0 t : Vec F S1024x512 .f32) x = (V c main_arg2 : S8192x8192.Idx → Elt F .f32) k := by
  unfold iblk0
  rw [View.read_apply]
  show V c main_arg2 _ = V c main_arg2 _
  congr 1
  funext a
  apply Fin.ext
  match a with
  | ⟨0, _⟩ => show win0_0.index t 0 * 1024 + 1 * (x 0).val = (k 0).val; rw [(idx0 t).1, hk0]; omega
  | ⟨1, _⟩ => show win0_0.index t 1 * 512 + 1 * (x 1).val = (k 1).val; rw [(idx0 t).2.1, hk1]; omega

/-- The query block at point t reads rows 1024 · (t mod 8) + · of the queries. -/
theorem iblk0_1_apply (c : Dev nD) (t : Fin cfg0.N) (x : S1024x64.Idx) (k : S8192x64.Idx)
    (hk0 : (k 0).val = 1024 * (t.val % 8) + (x 0).val) (hk1 : (k 1).val = (x 1).val) :
    (iblk0 V c 1 t : Vec F S1024x64 .f32) x = (V c main_v33 : S8192x64.Idx → Elt F .f32) k := by
  unfold iblk0
  rw [View.read_apply]
  show V c main_v33 _ = V c main_v33 _
  congr 1
  funext a
  apply Fin.ext
  match a with
  | ⟨0, _⟩ => show win0_1.index t 0 * 1024 + 1 * (x 0).val = (k 0).val; rw [(idx0 t).2.2.1, hk0]; omega
  | ⟨1, _⟩ => show win0_1.index t 1 * 64 + 1 * (x 1).val = (k 1).val; rw [(idx0 t).2.2.2.1, hk1]; omega

/-- The key block at point t reads rows 512 · (t div 8) + · of the keys. -/
theorem iblk0_2_apply (c : Dev nD) (t : Fin cfg0.N) (x : S512x64.Idx) (k : S8192x64.Idx)
    (hk0 : (k 0).val = 512 * (t.val / 8) + (x 0).val) (hk1 : (k 1).val = (x 1).val) :
    (iblk0 V c 2 t : Vec F S512x64 .f32) x = (V c main_v16 : S8192x64.Idx → Elt F .f32) k := by
  unfold iblk0
  rw [View.read_apply]
  show V c main_v16 _ = V c main_v16 _
  congr 1
  funext a
  apply Fin.ext
  match a with
  | ⟨0, _⟩ => show win0_2.index t 0 * 512 + 1 * (x 0).val = (k 0).val; rw [(idx0 t).2.2.2.2.1, hk0]; omega
  | ⟨1, _⟩ => show win0_2.index t 1 * 64 + 1 * (x 1).val = (k 1).val; rw [(idx0 t).2.2.2.2.2.1, hk1]; omega

/-- At the first row tile of a column block the two scratch rows are the update of the reset values. -/
theorem rows_first (c : Dev nD) (t : Fin cfg0.N) (h0 : t.val % 8 = 0) :
    (outsAt0 V c t.val t.isLt).2.1 = k0_pay1 (F := F) (k0_pay6 (F := F) (iblk0 V c 1 t : Vec F S1024x64 .f32) (iblk0 V c 2 t : Vec F S512x64 .f32) (iblk0 V c 0 t : Vec F S1024x512 .f32) (k0_pay3 (F := F)))
    ∧ (outsAt0 V c t.val t.isLt).2.2 = k0_pay7 (F := F) (iblk0 V c 1 t : Vec F S1024x64 .f32) (iblk0 V c 2 t : Vec F S512x64 .f32) (iblk0 V c 0 t : Vec F S1024x512 .f32) (k0_pay3 (F := F)) (k0_pay3 (F := F)) (k0_pay4 (F := F)) := by
  have h1 : ¬t.val % 8 = 7 := by omega
  have e := outsAt0_A V c t h0 h1
  have e1 : (outsAt0 V c t.val t.isLt).2.1 = sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t) := by rw [e]
  have e2 : (outsAt0 V c t.val t.isLt).2.2 = sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t) := by rw [e]
  exact ⟨e1.trans (soutA0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)), e2.trans (soutA1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t))⟩

/-- At a later row tile the two scratch rows are the update of what the tile before left. -/
theorem rows_next (c : Dev nD) (t : Fin cfg0.N) (h0 : ¬t.val % 8 = 0) :
    (outsAt0 V c t.val t.isLt).2.1
        = k0_pay1 (F := F) (k0_pay6 (F := F) (iblk0 V c 1 t : Vec F S1024x64 .f32) (iblk0 V c 2 t : Vec F S512x64 .f32) (iblk0 V c 0 t : Vec F S1024x512 .f32)
            (outsAt0 V c (t.val - 1) (Nat.lt_of_le_of_lt (Nat.sub_le _ _) t.isLt)).2.1)
    ∧ (outsAt0 V c t.val t.isLt).2.2
        = k0_pay7 (F := F) (iblk0 V c 1 t : Vec F S1024x64 .f32) (iblk0 V c 2 t : Vec F S512x64 .f32) (iblk0 V c 0 t : Vec F S1024x512 .f32)
            (outsAt0 V c (t.val - 1) (Nat.lt_of_le_of_lt (Nat.sub_le _ _) t.isLt)).2.1
            (outsAt0 V c (t.val - 1) (Nat.lt_of_le_of_lt (Nat.sub_le _ _) t.isLt)).2.1
            (outsAt0 V c (t.val - 1) (Nat.lt_of_le_of_lt (Nat.sub_le _ _) t.isLt)).2.2 := by
  by_cases h1 : t.val % 8 = 7
  · have e := outsAt0_C V c t h0 h1
    have e1 : (outsAt0 V c t.val t.isLt).2.1 = sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
    have e2 : (outsAt0 V c t.val t.isLt).2.2 = sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
    exact ⟨e1.trans (soutC0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2), e2.trans (soutC1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)⟩
  · have e := outsAt0_B V c t h0 h1
    have e1 : (outsAt0 V c t.val t.isLt).2.1 = sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
    have e2 : (outsAt0 V c t.val t.isLt).2.2 = sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
    exact ⟨e1.trans (soutB0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2), e2.trans (soutB1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)⟩

/-- At the last row tile the output block is maximum + log sum of the two rows the same point leaves. -/
theorem out_last (c : Dev nD) (t : Fin cfg0.N) (h7 : t.val % 8 = 7) :
    (outsAt0 V c t.val t.isLt).1 = k0_pay2 (F := F) (outsAt0 V c t.val t.isLt).2.1 (outsAt0 V c t.val t.isLt).2.2 := by
  have h0 : ¬t.val % 8 = 0 := by omega
  have e := outsAt0_C V c t h0 h7
  have e0 : (outsAt0 V c t.val t.isLt).1 = out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
  have e1 : (outsAt0 V c t.val t.isLt).2.1 = sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
  have e2 : (outsAt0 V c t.val t.isLt).2.2 = sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2 := by rw [e]
  rw [e1, e2, soutC0_eq, soutC1_eq]
  exact e0.trans (outC3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)

end AnyF

/-! ## At the extended reals -/

section AtIdeal

variable (V : (c : Dev nD) → (b : Ref sig .tc) → Buf (Elt Ideal) ((c : Thread nD τ).loc b))

/-- The mask, the queries and the keys as the region finds them, on plain indices. -/
def Mf (c : Dev nD) (r k : Fin 8192) : EReal := (V c main_arg2 : S8192x8192.Idx → EReal) (ix2 r k)
def Qf (c : Dev nD) (r : Fin 8192) (e : Fin 64) : EReal := (V c main_v33 : S8192x64.Idx → EReal) (ix2 r e)
def Kf (c : Dev nD) (k : Fin 8192) (e : Fin 64) : EReal := (V c main_v16 : S8192x64.Idx → EReal) (ix2 k e)

/-- Key k's column of scores, by row (0 past the last row, which no tile reaches). -/
def col (c : Dev nD) (k : Fin 8192) : ℕ → EReal :=
  fun i => if h : i < 8192 then Cert.AttnSpec.score (Mf V c) (Qf V c) (Kf V c) ⟨i, h⟩ k else 0

/-- The tile of scores at point t is the specification's score of row 1024 · (t mod 8) + i against key 512 · (t div 8) + j. -/
theorem tile_score (c : Dev nD) (t : Fin cfg0.N) (i : Fin 1024) (j : Fin 512) (kk : Fin 8192)
    (hkk : kk.val = 512 * (t.val / 8) + j.val) :
    k0_pay5 (F := Ideal) (iblk0 V c 1 t : Vec Ideal S1024x64 .f32) (iblk0 V c 2 t : Vec Ideal S512x64 .f32) (iblk0 V c 0 t : Vec Ideal S1024x512 .f32) (ix2 i j) = col V c kk (1024 * (t.val % 8) + i.val) := by
  have hr : 1024 * (t.val % 8) + i.val < 8192 := by omega
  refine (k0_pay5_apply (iblk0 V c 1 t : Vec Ideal S1024x64 .f32) (iblk0 V c 2 t : Vec Ideal S512x64 .f32) (iblk0 V c 0 t : Vec Ideal S1024x512 .f32) i j).trans ?_
  unfold col
  rw [dif_pos hr]
  unfold Cert.AttnSpec.score Mf Qf Kf
  rw [iblk0_0_apply V c t (ix2 i j) (ix2 ⟨1024 * (t.val % 8) + i.val, hr⟩ kk) rfl hkk]
  refine congrArg (fun x => _ * (x * Cert.AttnSpec.c125)) (Finset.sum_congr rfl fun e _ => ?_)
  rw [iblk0_1_apply V c t (ix2 i e) (ix2 ⟨1024 * (t.val % 8) + i.val, hr⟩ e) rfl rfl,
    iblk0_2_apply V c t (ix2 j e) (ix2 kk e) hkk rfl]

/-- So the tile update by the point's tile of scores is the update by the rows 1024 · (t mod 8) + · of key kk's column. -/
theorem step_tile (c : Dev nD) (t : Fin cfg0.N) (j : Fin 512) (kk : Fin 8192) (hkk : kk.val = 512 * (t.val / 8) + j.val)
    (st : EReal × EReal) :
    Cert.AttnMath.step st (fun i => k0_pay5 (F := Ideal) (iblk0 V c 1 t : Vec Ideal S1024x64 .f32) (iblk0 V c 2 t : Vec Ideal S512x64 .f32) (iblk0 V c 0 t : Vec Ideal S1024x512 .f32) (ix2 i j))
      = Cert.AttnMath.step st (fun i => col V c kk (1024 * (t.val % 8) + i.val)) :=
  congrArg (Cert.AttnMath.step st) (funext fun i => tile_score V c t i j kk hkk)

/-- THE INDUCTION OVER THE POINTS. After point n the scratch rows hold, at column j, the running pair of key
    512 · (n div 8) + j's column after its first n mod 8 + 1 tiles. -/
theorem stats_at (c : Dev nD) (j : Fin 512) : ∀ (n : ℕ) (hn : n < cfg0.N) (kk : Fin 8192), kk.val = 512 * (n / 8) + j.val →
    (outsAt0 V c n hn).2.1 (ix2 (0 : Fin 1) j) = (Cert.AttnMath.colStat (col V c kk) (n % 8 + 1)).1
    ∧ (outsAt0 V c n hn).2.2 (ix2 (0 : Fin 1) j) = (Cert.AttnMath.colStat (col V c kk) (n % 8 + 1)).2 := by
  intro n
  induction n using Nat.strong_induction_on with
  | _ n ih =>
    intro hn kk hkk
    have hN : n < 128 := lt_of_lt_of_eq hn N_0
    by_cases h0 : n % 8 = 0
    · obtain ⟨e1, e2⟩ := rows_first V c ⟨n, hn⟩ h0
      have s := step_tile V c ⟨n, hn⟩ j kk hkk ((⊥ : EReal), (0 : EReal))
      have hstep : Cert.AttnMath.colStat (col V c kk) (n % 8 + 1)
          = Cert.AttnMath.step ((⊥ : EReal), (0 : EReal)) (fun i => col V c kk (1024 * (n % 8) + i.val)) := by
        rw [h0]; rfl
      rw [hstep, ← s]
      constructor
      · refine (congrFun e1 (ix2 (0 : Fin 1) j)).trans ?_
        refine (k0_step_fst (iblk0 V c 1 ⟨n, hn⟩ : Vec Ideal S1024x64 .f32) (iblk0 V c 2 ⟨n, hn⟩ : Vec Ideal S512x64 .f32) (iblk0 V c 0 ⟨n, hn⟩ : Vec Ideal S1024x512 .f32) (k0_pay3 (F := Ideal)) (k0_pay4 (F := Ideal)) j).trans ?_
        rw [k0_pay3_apply, k0_pay4_apply]
      · refine (congrFun e2 (ix2 (0 : Fin 1) j)).trans ?_
        refine (k0_step_snd (iblk0 V c 1 ⟨n, hn⟩ : Vec Ideal S1024x64 .f32) (iblk0 V c 2 ⟨n, hn⟩ : Vec Ideal S512x64 .f32) (iblk0 V c 0 ⟨n, hn⟩ : Vec Ideal S1024x512 .f32) (k0_pay3 (F := Ideal)) (k0_pay4 (F := Ideal)) j).trans ?_
        rw [k0_pay3_apply, k0_pay4_apply]
    · obtain ⟨e1, e2⟩ := rows_next V c ⟨n, hn⟩ h0
      obtain ⟨p1, p2⟩ := ih (n - 1) (by omega) (Nat.lt_of_le_of_lt (Nat.sub_le _ _) hn) kk (by omega)
      have hm : (n - 1) % 8 + 1 = n % 8 := by omega
      rw [hm] at p1 p2
      have s := step_tile V c ⟨n, hn⟩ j kk hkk (Cert.AttnMath.colStat (col V c kk) (n % 8))
      have hstep : Cert.AttnMath.colStat (col V c kk) (n % 8 + 1)
          = Cert.AttnMath.step (Cert.AttnMath.colStat (col V c kk) (n % 8)) (fun i => col V c kk (1024 * (n % 8) + i.val)) := rfl
      rw [hstep, ← s]
      constructor
      · refine (congrFun e1 (ix2 (0 : Fin 1) j)).trans ?_
        refine (k0_step_fst (iblk0 V c 1 ⟨n, hn⟩ : Vec Ideal S1024x64 .f32) (iblk0 V c 2 ⟨n, hn⟩ : Vec Ideal S512x64 .f32) (iblk0 V c 0 ⟨n, hn⟩ : Vec Ideal S1024x512 .f32) (outsAt0 V c (n - 1) (Nat.lt_of_le_of_lt (Nat.sub_le _ _) hn)).2.1 (outsAt0 V c (n - 1) (Nat.lt_of_le_of_lt (Nat.sub_le _ _) hn)).2.2 j).trans ?_
        rw [p1, p2]
      · refine (congrFun e2 (ix2 (0 : Fin 1) j)).trans ?_
        refine (k0_step_snd (iblk0 V c 1 ⟨n, hn⟩ : Vec Ideal S1024x64 .f32) (iblk0 V c 2 ⟨n, hn⟩ : Vec Ideal S512x64 .f32) (iblk0 V c 0 ⟨n, hn⟩ : Vec Ideal S1024x512 .f32) (outsAt0 V c (n - 1) (Nat.lt_of_le_of_lt (Nat.sub_le _ _) hn)).2.1 (outsAt0 V c (n - 1) (Nat.lt_of_le_of_lt (Nat.sub_le _ _) hn)).2.2 j).trans ?_
        rw [p1, p2]

/-- The output block at the last row tile of a column block: at (0, j), maximum + log sum of key 512 · (t div 8) + j's
    column after all its 8 tiles. -/
theorem out_last_apply (c : Dev nD) (t : Fin cfg0.N) (h7 : t.val % 8 = 7) (j : Fin 512) (kk : Fin 8192)
    (hkk : kk.val = 512 * (t.val / 8) + j.val) :
    (outsAt0 V c t.val t.isLt).1 (ix2 (0 : Fin 1) j)
      = (Cert.AttnMath.colStat (col V c kk) 8).1 + Ideal.log (Cert.AttnMath.colStat (col V c kk) 8).2 := by
  obtain ⟨p1, p2⟩ := stats_at V c j t.val t.isLt kk hkk
  have h8 : t.val % 8 + 1 = 8 := by omega
  rw [h8] at p1 p2
  rw [out_last V c t h7]
  show (outsAt0 V c t.val t.isLt).2.1 (ix2 (0 : Fin 1) j) + Ideal.log ((outsAt0 V c t.val t.isLt).2.2 (ix2 (0 : Fin 1) j)) = _
  rw [p1, p2]

/-- The output row the region leaves: at (0, k), maximum + log sum of key k's column. -/
def lseRow (c : Dev nD) : S1x8192.Idx → EReal := fun y =>
  (Cert.AttnMath.colStat (col V c ⟨(y 1).val, idx2_lt1 y⟩) 8).1
    + Ideal.log (Cert.AttnMath.colStat (col V c ⟨(y 1).val, idx2_lt1 y⟩) 8).2

/-- What a writing point writes back is its block of that row. -/
theorem flushed3_eq (c : Dev nD) (t : Fin cfg0.N) (hf : (cfg0.win 3).flush t = true) :
    (dat0 (F := Ideal) V c).flushed 3 t = ((cfg0.win 3).blk t).view.read (Elt Ideal) (lseRow V c) := by
  have h7 : t.val % 8 = 7 := (flush0_3 t).mp hf
  have hN : t.val < 128 := lt_of_lt_of_eq t.isLt N_0
  have key : ∀ y : S1x512.Idx, (outsAt0 V c t.val t.isLt).1 y = lseRow V c (((cfg0.win 3).blk t).view.emb y) := by
    intro y
    obtain ⟨u, j, rfl⟩ : ∃ (u : Fin 1) (j : Fin 512), y = ix2 u j := ⟨y 0, y 1, eq_ix2 y⟩
    obtain rfl : u = 0 := Subsingleton.elim _ _
    rw [out_last_apply V c t h7 j ⟨512 * (t.val / 8) + j.val, by omega⟩ rfl]
    unfold lseRow
    have e : (⟨((((cfg0.win 3).blk t).view.emb (ix2 (0 : Fin 1) j)) 1).val, idx2_lt1 _⟩ : Fin 8192)
        = ⟨512 * (t.val / 8) + j.val, by omega⟩ :=
      Fin.ext (by
        show win0_3.index t 1 * 512 + 1 * j.val = 512 * (t.val / 8) + j.val
        rw [(idx0 t).2.2.2.2.2.2.2]; omega)
    rw [e]
  show (cfg0.win 3).cut (grid0.coords t) ((dat0 (F := Ideal) V c).after 3 t) = _
  rw [after0_3]
  funext y
  rw [View.read_apply]
  exact key y

/-- An index of the output row is in point t's block iff each coordinate is in the block's range on its axis. -/
theorem mem_blk3 (t : Fin cfg0.N) (i : S1x8192.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v54).slice (win0_3.rect t)).set ↔ _
  rw [View.set_slice_whole, Rect.mem_set_unit]
  exact Iff.rfl

/-- The 16 written blocks tile the output row, so the array ends holding it. -/
theorem lse_array (c : Dev nD) : (dat0 (F := Ideal) V c).arrAt 3 cfg0.N = lseRow V c :=
  (dat0 (F := Ideal) V c).arrAt_eq_of_cover 3 (lseRow V c) (flushed3_eq V c) fun i => by
    have hi0 : (i 0).val < 1 := (i 0).isLt
    have hi1 : (i 1).val < 8192 := (i 1).isLt
    have hN : cfg0.N = 128 := N_0
    refine ⟨⟨8 * ((i 1).val / 512) + 7, by omega⟩, (flush0_3 _).mpr (by show (8 * ((i 1).val / 512) + 7) % 8 = 7; omega), ?_⟩
    rw [mem_blk3]
    intro a
    match a with
    | ⟨0, _⟩ =>
      show win0_3.index ⟨8 * ((i 1).val / 512) + 7, _⟩ 0 * 1 ≤ (i 0).val ∧ (i 0).val < win0_3.index ⟨8 * ((i 1).val / 512) + 7, _⟩ 0 * 1 + 1
      rw [(idx0 _).2.2.2.2.2.2.1]; omega
    | ⟨1, _⟩ =>
      show win0_3.index ⟨8 * ((i 1).val / 512) + 7, _⟩ 1 * 512 ≤ (i 1).val ∧ (i 1).val < win0_3.index ⟨8 * ((i 1).val / 512) + 7, _⟩ 1 * 512 + 512
      rw [(idx0 _).2.2.2.2.2.2.2]
      show (8 * ((i 1).val / 512) + 7) / 8 * 512 ≤ (i 1).val ∧ (i 1).val < (8 * ((i 1).val / 512) + 7) / 8 * 512 + 512
      omega

/-- THE INTERFACE. After region 0 the output row holds, at key k, maximum + log sum of key k's column of scores, the
    running pair taken after all 8 row tiles. -/
theorem lse_value (c : Dev nD) (k : Fin 8192) :
    ((dat0 (F := Ideal) V c).arrAt 3 cfg0.N : S1x8192.Idx → EReal) (ix2 (0 : Fin 1) k)
      = (Cert.AttnMath.colStat (col V c k) 8).1 + Ideal.log (Cert.AttnMath.colStat (col V c k) 8).2 :=
  congrFun (lse_array V c) (ix2 (0 : Fin 1) k)

end AtIdeal

end Cert.KernelIdeal.Val

end
-- ==== Proof.AttnReal.lean ====
/-
  Finiteness of the scores. When every entry of the mask, of the queries and of the keys is a real number, every score
  mask(r, k) · ((Σ_e Q(r, e) · K(k, e)) · 0.125) is a real number: products and finite sums of reals are real, and the
  f32 word of 0.125 is 1/8. This is the hypothesis under which the online column statistics end on the softmax weight.
-/
import proofs.«147333_j46926812676545_1_alg».proof.Proof.AttnMath

noncomputable section

namespace Cert.AttnMath

open Idealize.ShloMosaic
open scoped BigOperators

/-- With real masks, queries and keys every score is a real number. -/
theorem score_real (M : Fin 8192 → Fin 8192 → EReal) (Q K : Fin 8192 → Fin 64 → EReal)
    (hM : ∀ r k, ∃ y : ℝ, M r k = y) (hQ : ∀ r e, ∃ y : ℝ, Q r e = y) (hK : ∀ k e, ∃ y : ℝ, K k e = y)
    (r k : Fin 8192) : ∃ y : ℝ, Cert.AttnSpec.score M Q K r k = y := by
  obtain ⟨m, hm⟩ := hM r k
  choose q hq using hQ r
  choose kk hk using hK k
  refine ⟨m * ((∑ e, q e * kk e) * (1 / 8)), ?_⟩
  unfold Cert.AttnSpec.score
  rw [hm, c125_eq]
  simp only [hq, hk, ← EReal.coe_mul, ← ERealSum.coe_finset_sum]

/-- The softmax weight is a nonnegative real number when every score is real. -/
theorem weight_real (M : Fin 8192 → Fin 8192 → EReal) (Q K : Fin 8192 → Fin 64 → EReal)
    (hs : ∀ r k, ∃ y : ℝ, Cert.AttnSpec.score M Q K r k = y) (r k : Fin 8192) :
    ∃ y : ℝ, 0 ≤ y ∧ Cert.AttnSpec.weight M Q K r k = y := by
  choose L hL using fun c => hs c k
  obtain ⟨Mx, _, _, hM⟩ := OnlineLse.fold_max_coe (show 0 < 8192 by omega) L
  have hpos : 0 < ∑ c, Real.exp (L c - Mx) :=
    Finset.sum_pos (fun c _ => Real.exp_pos _) ⟨⟨0, by omega⟩, Finset.mem_univ _⟩
  refine ⟨Real.exp (L r - Mx) * (1 / ∑ c, Real.exp (L c - Mx)), mul_nonneg (Real.exp_pos _).le (one_div_pos.mpr hpos).le, ?_⟩
  unfold Cert.AttnSpec.weight Cert.AttnSpec.csum Cert.AttnSpec.cmax
  simp only [hL, hM, max_eq_right bot_le]
  rw [OnlineLse.sum_exp_coe, zero_add, ← EReal.coe_sub, Ideal.exp_coe, Ideal.div_coe hpos.ne', ← EReal.coe_mul]

end Cert.AttnMath

end
-- ==== Proof.Bridge.lean ====
/-
  From the kernel program's arrays to the specification.

  The two kernel regions are entered from the contents the host stretches leave: the mask and the key-side features as
  launched, the queries and keys as the layer-normalised projections, the values as the affinely normalised projection.
  So region 0's column of scores is the specification's, its output row is the column-wise log-sum-exp of the
  specification's scores, and, the precondition making every score a real number, the exponent region 1 forms from that
  row is the specification's softmax weight.
-/
import proofs.«147333_j46926812676545_1_alg».proof.Proof.KernelRun
import proofs.«147333_j46926812676545_1_alg».proof.Proof.KernelGlue
import proofs.«147333_j46926812676545_1_alg».proof.Proof.Value0Lse
import proofs.«147333_j46926812676545_1_alg».proof.Proof.AttnReal

set_option maxRecDepth 16384

noncomputable section

namespace Cert.KernelIdeal.Bridge

open Cert.KernelIdeal Cert.KernelIdeal.Gen Cert.KernelIdeal.Frm Cert.KernelIdeal.Glue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The specification's five functions of the launch contents -/

/-- The mask. -/
abbrev sM (c : Dev nD) : Fin 8192 → Fin 8192 → EReal := Glue.kM m c
/-- The queries: the layer-normalised projection of the query-side features. -/
abbrev sQ (c : Dev nD) : Fin 8192 → Fin 64 → EReal := Cert.HostGlue.lnProj (kX m c) (kQw m c) (kQb m c)
/-- The keys: the layer-normalised projection of the key-side features. -/
abbrev sK (c : Dev nD) : Fin 8192 → Fin 64 → EReal := Cert.HostGlue.lnProj (kH m c) (kKw m c) (kKb m c)
/-- The values: the affinely normalised projection of the key-side features. -/
abbrev sV (c : Dev nD) : Fin 8192 → Fin 64 → EReal :=
  Cert.HostGlue.bnProj (kH m c) (kVw m c) (kVb m c) (kGamma m c) (kBeta m c) (kMean m c) (kVar m c)
/-- The key-side features. -/
abbrev sH (c : Dev nD) : Fin 8192 → Fin 64 → EReal := Glue.kH m c

/-- Key k's column of the specification's scores, by row (0 past the last row). -/
abbrev scol (c : Dev nD) (k : Fin 8192) : ℕ → EReal :=
  fun i => if h : i < 8192 then Cert.AttnSpec.score (sM m c) (sQ m c) (sK m c) ⟨i, h⟩ k else 0

/-! ## Region 0 is entered from the specification's mask, queries and keys -/

theorem Mf_eq (c : Dev nD) : Val.Mf (VA m) c = sM m c := by
  funext r k
  unfold Val.Mf
  show (Gen.V5 m c (Proc.devRef .tc main_arg2) : S8192x8192.Idx → EReal) (ix2 r k) = kM m c r k
  rw [V5_M]
  rfl

theorem Qf_eq (c : Dev nD) : Val.Qf (VA m) c = sQ m c := by
  funext r e
  unfold Val.Qf
  exact V5_Q m c r e

theorem Kf_eq (c : Dev nD) : Val.Kf (VA m) c = sK m c := by
  funext k e
  unfold Val.Kf
  exact V5_K m c k e

theorem col_eq (c : Dev nD) (k : Fin 8192) : Val.col (VA m) c k = scol m c k := by
  unfold Val.col
  rw [Mf_eq, Qf_eq, Kf_eq]

/-! ## What region 1 is entered from -/

theorem VB_M (c : Dev nD) (r k : Fin 8192) :
    (VB m c main_arg2 : S8192x8192.Idx → EReal) (ix2 r k) = sM m c r k := by
  have e : W6 m c (Proc.devRef .tc main_arg2) = Gen.V5 m c (Proc.devRef .tc main_arg2) :=
    (W6_arr m c 0).trans (((dat0 (VA m) c).arrAt_in 0 rfl _).trans (A_eq0 (VA m) c 0))
  show (W6 m c (Proc.devRef .tc main_arg2) : S8192x8192.Idx → EReal) (ix2 r k) = kM m c r k
  rw [e, V5_M]
  rfl

theorem VB_Q (c : Dev nD) (r : Fin 8192) (e : Fin 64) :
    (VB m c main_v33 : S8192x64.Idx → EReal) (ix2 r e) = sQ m c r e := by
  have h : W6 m c (Proc.devRef .tc main_v33) = Gen.V5 m c (Proc.devRef .tc main_v33) :=
    (W6_arr m c 1).trans (((dat0 (VA m) c).arrAt_in 1 rfl _).trans (A_eq0 (VA m) c 1))
  show (W6 m c (Proc.devRef .tc main_v33) : S8192x64.Idx → EReal) (ix2 r e) = _
  rw [h]
  exact V5_Q m c r e

theorem VB_K (c : Dev nD) (k : Fin 8192) (e : Fin 64) :
    (VB m c main_v16 : S8192x64.Idx → EReal) (ix2 k e) = sK m c k e := by
  have h : W6 m c (Proc.devRef .tc main_v16) = Gen.V5 m c (Proc.devRef .tc main_v16) :=
    (W6_arr m c 2).trans (((dat0 (VA m) c).arrAt_in 2 rfl _).trans (A_eq0 (VA m) c 2))
  show (W6 m c (Proc.devRef .tc main_v16) : S8192x64.Idx → EReal) (ix2 k e) = _
  rw [h]
  exact V5_K m c k e

theorem VB_V (c : Dev nD) (k : Fin 8192) (d : Fin 64) :
    (VB m c main_v53 : S8192x64.Idx → EReal) (ix2 k d) = sV m c k d := by
  show (W6 m c (Proc.devRef .tc main_v53) : S8192x64.Idx → EReal) (ix2 k d) = _
  rw [W6_of_ne m c main_v53 (by decide)]
  exact V5_V m c k d

theorem VB_H (c : Dev nD) (k : Fin 8192) (d : Fin 64) :
    (VB m c main_arg1 : S8192x64.Idx → EReal) (ix2 k d) = sH m c k d := by
  show (W6 m c (Proc.devRef .tc main_arg1) : S8192x64.Idx → EReal) (ix2 k d) = kH m c k d
  rw [W6_of_ne m c main_arg1 (by decide), V5_H]
  rfl

/-- The row region 0 leaves: at key k, maximum + log sum of the specification's column k after its 8 tiles. -/
theorem VB_L (c : Dev nD) (k : Fin 8192) :
    (VB m c main_v54 : S1x8192.Idx → EReal) (ix2 (0 : Fin 1) k)
      = (Cert.AttnMath.colStat (scol m c k) 8).1 + Ideal.log (Cert.AttnMath.colStat (scol m c k) 8).2 := by
  show (W6 m c (Proc.devRef .tc main_v54) : S1x8192.Idx → EReal) (ix2 (0 : Fin 1) k) = _
  rw [show W6 m c (Proc.devRef .tc main_v54) = (dat0 (F := Ideal) (VA m) c).arrAt 3 cfg0.N from W6_arr m c 3]
  rw [← col_eq m c k]
  exact Val.lse_value (VA m) c k

/-! ## Under the precondition -/

/-- Every score is a real number. -/
theorem hs (hpre : Cert.Pre_KernelIdeal m) (c : Dev nD) :
    ∀ r k, ∃ y : ℝ, Cert.AttnSpec.score (sM m c) (sQ m c) (sK m c) r k = y :=
  Cert.AttnMath.score_real (sM m c) (sQ m c) (sK m c) (real_of_pre m hpre c).1 (Q_real m hpre c) (K_real m hpre c)

/-- The exponent region 1 forms is the specification's softmax weight. -/
theorem weight_VB (hpre : Cert.Pre_KernelIdeal m) (c : Dev nD) (r k : Fin 8192) :
    Ideal.exp (Cert.AttnSpec.score (sM m c) (sQ m c) (sK m c) r k - (VB m c main_v54 : S1x8192.Idx → EReal) (ix2 (0 : Fin 1) k))
      = Cert.AttnSpec.weight (sM m c) (sQ m c) (sK m c) r k := by
  rw [VB_L m c k]
  exact Cert.AttnMath.weight_of_colStat (sM m c) (sQ m c) (sK m c) (hs m hpre c) r k

end Cert.KernelIdeal.Bridge

end
-- ==== Proof.Payload1.lean ====
/-
  The attention kernel's arithmetic, read at an index on the extended reals.

  One grid step holds a tile of 1024 query rows against 512 keys. It recomputes the tile's scores
  mask(i, j) · ((Σ_e q(i, e) · k(j, e)) · 0.125), subtracts the column's log-sum-exp lse(j) and exponentiates: the softmax
  weight of row i within column j. The weights times the value rows, contracted over the tile's 512 keys, scaled by 0.1,
  plus the mask times the feature rows contracted over the same keys, are added to the running total. Rounding an
  operand to bf16 is the identity on the extended reals, and both products start from a zero accumulator.
-/
import proofs.«147333_j46926812676545_1_alg».proof.Proof.Payload0

noncomputable section

namespace Cert.KernelIdeal.Pay

open Idealize.ShloMosaic Idealize.ShloMosaic.ValueIdx Cert.KernelIdeal Cert.KernelIdeal.Gen
open scoped BigOperators

/-- The product of a 1024×512 by a 512×64 matrix into a zero accumulator, at (i, d): the sum over the 512 contracted
    positions j of a(i, j) · b(j, d). -/
theorem matmul_pv_apply (a : FVec Ideal S1024x512 .bf16) (b : FVec Ideal S512x64 .bf16) (i : Fin 1024) (d : Fin 64) :
    matmul dot_S1024x512_S512x64_S1024x64_1_0_0_1_n_n none a b (constant (F := Ideal) S1024x64 .f32 0x00000000#32) (ix2 i d)
      = ∑ j : Fin 512, a (ix2 i j) * b (ix2 j d) := by
  show FloatOps.matmul _ none a b _ (ix2 i d) = _
  rw [Ideal.matmul_constant_zero_apply,
    ← Equiv.sum_comp (contrEquiv1 dot_S1024x512_S512x64_S1024x64_1_0_0_1_n_n 512 rfl rfl).symm]
  refine Finset.sum_congr rfl fun c _ => ?_
  have c2 := contrEquiv1_symm_val dot_S1024x512_S512x64_S1024x64_1_0_0_1_n_n 512 rfl rfl c
  have l2 : dot_S1024x512_S512x64_S1024x64_1_0_0_1_n_n.lhsIdx (ix2 i d) ((contrEquiv1 _ 512 rfl rfl).symm c) = ix2 i c := by
    funext ax; apply Fin.ext
    match ax with
    | ⟨0, _⟩ => simp [DotDims.lhsIdx, dot_S1024x512_S512x64_S1024x64_1_0_0_1_n_n]; rfl
    | ⟨1, _⟩ => simp [DotDims.lhsIdx, dot_S1024x512_S512x64_S1024x64_1_0_0_1_n_n]; exact c2
  have r2 : dot_S1024x512_S512x64_S1024x64_1_0_0_1_n_n.rhsIdx (ix2 i d) ((contrEquiv1 _ 512 rfl rfl).symm c) = ix2 c d := by
    funext ax; apply Fin.ext
    match ax with
    | ⟨0, _⟩ => simp [DotDims.rhsIdx, dot_S1024x512_S512x64_S1024x64_1_0_0_1_n_n]; exact c2
    | ⟨1, _⟩ => simp [DotDims.rhsIdx, dot_S1024x512_S512x64_S1024x64_1_0_0_1_n_n]; rfl
  rw [l2, r2]

/-- The reset of the running total writes 0. -/
theorem k1_pay2_apply (i : Fin 1024) (d : Fin 64) : k1_pay2 (F := Ideal) (ix2 i d) = (0 : EReal) := by
  unfold k1_pay2
  rw [shapeCast_self]
  exact Ideal.ofBits_zero_f32

/-- The stored running total is the value itself (a cast to the same shape). -/
theorem k1_pay1_eq (x : FVec Ideal S1024x64 .f32) : k1_pay1 (F := Ideal) x = x := by
  unfold k1_pay1
  exact shapeCast_self _ _

/-- ONE STEP OF PASS 2 at (i, d): the running total plus 0.1 · Σ_j exp(score(i, j) − lse(j)) · v(j, d) + Σ_j mask(i, j) · h(j, d),
    the sums over the tile's 512 keys. -/
theorem k1_pay3_apply (q : Vec Ideal S1024x64 .f32) (k : Vec Ideal S512x64 .f32) (mm : Vec Ideal S1024x512 .f32)
    (lse : Vec Ideal S1x512 .f32) (v h : Vec Ideal S512x64 .f32) (acc : Vec Ideal S1024x64 .f32) (i : Fin 1024) (d : Fin 64) :
    k1_pay3 (F := Ideal) q k mm lse v h acc (ix2 i d)
      = acc (ix2 i d)
        + (Cert.AttnSpec.c01
            * (∑ j : Fin 512, Ideal.exp (mm (ix2 i j) * ((∑ e : Fin 64, q (ix2 i e) * k (ix2 j e)) * Cert.AttnSpec.c125)
                - lse (ix2 (0 : Fin 1) j)) * v (ix2 j d))
          + ∑ j : Fin 512, mm (ix2 i j) * h (ix2 j d)) := by
  unfold k1_pay3
  refine congrArg₂ (fun x y => acc (ix2 i d) + (Cert.AttnSpec.c01 * x + y))
    ((matmul_pv_apply _ _ i d).trans ?_) (matmul_pv_apply _ _ i d)
  refine Finset.sum_congr rfl fun j _ => ?_
  exact congrArg₂ (fun x y => x * y)
    (congrArg₂ (fun x y => Ideal.exp (x - y)) (k0_pay5_apply q k mm i j)
      ((bcast_row_apply _ i j).trans (congrFun (shapeCast_self lse _) _)))
    (congrFun (shapeCast_self v _) _)

end Cert.KernelIdeal.Pay

end
-- ==== Proof.Value1.lean ====
/-
  Region 1's value: what the attention kernel leaves, point by point, as terms of the blocks it reads.
  At the first column tile of a row block the accumulator is reset to zero and the tile's contribution added; at a later
  tile the contribution is added to what the tile before left; at the last tile the output block is the accumulator just
  stored.
-/
import proofs.«147333_j46926812676545_1_alg».proof.Proof.Reg1Frame
import proofs.«147333_j46926812676545_1_alg».proof.Proof.Payload1
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.KernelIdeal.Frm

variable {F : FTy → Type} [FloatOps F]

theorem hz : (![0, 0] : Fin 2 → Nat) = fun _ => 0 := funext fun a => by fin_cases a <;> rfl

/-! ## What each case's stores leave, as terms of the blocks and of what the point before left -/

/-- First column tile: the accumulator after the reset and the tile's contribution. -/
theorem soutA0_eq (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i) (x0 : Vec F S1024x512 .f32) (x1 : Vec F S1024x64 .f32) (x2 : Vec F S512x64 .f32) (x3 : Vec F S512x64 .f32) (x4 : Vec F S512x64 .f32) (x5 : Vec F S1x512 .f32) :
    sout1_A_0 c i arg2 harg2 arg3 harg3 arg4 harg4 arg5 harg5 arg6 harg6 arg7 harg7 arg8 harg8 arg9 harg9 hc0 hc1 x0 x1 x2 x3 x4 x5 = k1_pay1 (k1_pay3 x1 x2 x0 x5 x3 x4 k1_pay2) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  try sl_unfold_words
  rw [View.canon_cons_unit_zero hz]
  simp only [View.readAt_eq_ld, harg2.read_unread, harg3.read_unread, harg4.read_unread, harg5.read_unread, harg6.read_unread,
    harg7.read_unread, harg8.read_unread, harg9.read_unread,
    View.ld_unit_zero (S := S1024x512) hz, View.ld_unit_zero (S := S1x512) hz,
    View.ld_unit_zero (S := S1024x64) hz, View.ld_unit_zero (S := S512x64) hz, View.readCov_unit_zero (S := S1024x64) _ hz]

/-- Middle column tile: the accumulator the tile before left plus the tile's contribution. -/
theorem soutB0_eq (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i) (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    sout1_B_0 c i arg2 harg2 arg3 harg3 arg4 harg4 arg5 harg5 arg6 harg6 arg7 harg7 arg8 harg8 arg9 harg9 hc0 hc1 x0 x1 x2 x3 x4 x5 xs0 = k1_pay1 (k1_pay3 x1 x2 x0 x5 x3 x4 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  try sl_unfold_words
  rw [View.canon_cons_unit_zero hz]
  simp only [View.readAt_eq_ld, harg2.read_unread, harg3.read_unread, harg4.read_unread, harg5.read_unread, harg6.read_unread,
    harg7.read_unread, harg8.read_unread, harg9.read_unread,
    View.ld_unit_zero (S := S1024x512) hz, View.ld_unit_zero (S := S1x512) hz,
    View.ld_unit_zero (S := S1024x64) hz, View.ld_unit_zero (S := S512x64) hz, View.readCov_unit_zero (S := S1024x64) _ hz]

/-- Last column tile: the accumulator. -/
theorem soutC0_eq (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i) (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    sout1_C_0 c i arg2 harg2 arg3 harg3 arg4 harg4 arg5 harg5 arg6 harg6 arg7 harg7 arg8 harg8 arg9 harg9 hc0 hc1 x0 x1 x2 x3 x4 x5 xs0 = k1_pay1 (k1_pay3 x1 x2 x0 x5 x3 x4 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  try sl_unfold_words
  rw [View.canon_cons_unit_zero hz]
  simp only [View.readAt_eq_ld, harg2.read_unread, harg3.read_unread, harg4.read_unread, harg5.read_unread, harg6.read_unread,
    harg7.read_unread, harg8.read_unread, harg9.read_unread,
    View.ld_unit_zero (S := S1024x512) hz, View.ld_unit_zero (S := S1x512) hz,
    View.ld_unit_zero (S := S1024x64) hz, View.ld_unit_zero (S := S512x64) hz, View.readCov_unit_zero (S := S1024x64) _ hz]

/-- Last column tile: the output block, the accumulator just stored. -/
theorem outC6_eq (c : Dev nD) (i : grid1.Coords) (arg2 : Memref sig .tc .vmem S1024x512 .f32) (harg2 : arg2.IsWhole) (arg3 : Memref sig .tc .vmem S1024x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i) (x0 : Vec F S1024x512 .f32) (x1 : Vec F S1024x64 .f32) (x2 : Vec F S512x64 .f32) (x3 : Vec F S512x64 .f32) (x4 : Vec F S512x64 .f32) (x5 : Vec F S1x512 .f32) (xs0 : Vec F S1024x64 .f32) :
    out1_C_6 c i arg2 harg2 arg3 harg3 arg4 harg4 arg5 harg5 arg6 harg6 arg7 harg7 arg8 harg8 arg9 harg9 hc0 hc1 x0 x1 x2 x3 x4 x5 xs0 = k1_pay1 (k1_pay3 x1 x2 x0 x5 x3 x4 xs0) := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  try sl_unfold_words
  rw [View.canon_cons_unit_zero hz]
  simp only [View.readAt_eq_ld, harg2.read_unread, harg3.read_unread, harg4.read_unread, harg5.read_unread, harg6.read_unread,
    harg7.read_unread, harg8.read_unread, harg9.read_unread,
    View.ld_unit_zero (S := S1024x512) hz, View.ld_unit_zero (S := S1x512) hz,
    View.ld_unit_zero (S := S1024x64) hz, View.ld_unit_zero (S := S512x64) hz, View.readCov_unit_zero (S := S1024x64) _ hz]

end Cert.KernelIdeal.Val1

end
-- ==== Proof.Value1Out.lean ====
/-
  Region 1's value at the extended reals: the output array is, entry by entry, the running total after the 16 column tiles.

  The grid is 8 row blocks by 16 column tiles, point t = 16 · (row block) + (column tile). At point t the kernel reads rows
  1024 · (t div 16) … of the mask and of the queries, rows 512 · (t mod 16) … of the keys, the values and the features, and
  columns 512 · (t mod 16) … of the mask and of the row of log-sum-exps. By induction over the points the accumulator holds,
  at (i, d), the running total of row 1024 · (t div 16) + i after t mod 16 + 1 tiles; the last tile of a row block copies
  it to the output block, and those 8 blocks tile the output array.
-/
import proofs.«147333_j46926812676545_1_alg».proof.Proof.Value1
import proofs.«147333_j46926812676545_1_alg».proof.Proof.AttnMath
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.KernelIdeal.Frm Cert.KernelIdeal.Pay
open Idealize.ShloMosaic.ValueIdx
open scoped BigOperators

/-! ## The blocks a point reads, and what it leaves in terms of the point before -/

section AnyF

variable {F : FTy → Type} [FloatOps F]
variable (V : (c : Dev nD) → (b : Ref sig .tc) → Buf (Elt F) ((c : Thread nD τ).loc b))

/-- The index maps over the grid: the mask block is (row block, column tile), the query block (row block, 0), the key, value
    and feature blocks (column tile, 0), the log-sum-exp block (0, column tile), the output block (row block, 0). -/
theorem idx1 : ∀ t : Fin cfg1.N, win1_0.index t 0 = t.val / 16 ∧ win1_0.index t 1 = t.val % 16 ∧ win1_1.index t 0 = t.val / 16
    ∧ win1_1.index t 1 = 0 ∧ win1_2.index t 0 = t.val % 16 ∧ win1_2.index t 1 = 0 ∧ win1_3.index t 0 = t.val % 16 ∧ win1_3.index t 1 = 0
    ∧ win1_4.index t 0 = t.val % 16 ∧ win1_4.index t 1 = 0 ∧ win1_5.index t 0 = 0 ∧ win1_5.index t 1 = t.val % 16
    ∧ win1_6.index t 0 = t.val / 16 ∧ win1_6.index t 1 = 0 :=
  (by decide +kernel : ∀ t : Fin grid1.N, win1_0.index t 0 = t.val / 16 ∧ win1_0.index t 1 = t.val % 16 ∧ win1_1.index t 0 = t.val / 16
    ∧ win1_1.index t 1 = 0 ∧ win1_2.index t 0 = t.val % 16 ∧ win1_2.index t 1 = 0 ∧ win1_3.index t 0 = t.val % 16 ∧ win1_3.index t 1 = 0
    ∧ win1_4.index t 0 = t.val % 16 ∧ win1_4.index t 1 = 0 ∧ win1_5.index t 0 = 0 ∧ win1_5.index t 1 = t.val % 16
    ∧ win1_6.index t 0 = t.val / 16 ∧ win1_6.index t 1 = 0)

theorem iblk1_0_apply (c : Dev nD) (t : Fin cfg1.N) (x : S1024x512.Idx) (k : S8192x8192.Idx)
    (hk0 : (k 0).val = 1024 * (t.val / 16) + (x 0).val) (hk1 : (k 1).val = 512 * (t.val % 16) + (x 1).val) :
    (iblk1 V c 0 t : Vec F S1024x512 .f32) x = (V c main_arg2 : S8192x8192.Idx → Elt F .f32) k := by
  unfold iblk1
  rw [View.read_apply]
  show V c main_arg2 _ = V c main_arg2 _
  congr 1
  funext a
  apply Fin.ext
  match a with
  | ⟨0, _⟩ => show win1_0.index t 0 * S1024x512.size 0 + 1 * (x 0).val = (k 0).val; rw [(idx1 t).1, hk0]; show _ * 1024 + _ = _; omega
  | ⟨1, _⟩ => show win1_0.index t 1 * S1024x512.size 1 + 1 * (x 1).val = (k 1).val; rw [(idx1 t).2.1, hk1]; show _ * 512 + _ = _; omega

theorem iblk1_1_apply (c : Dev nD) (t : Fin cfg1.N) (x : S1024x64.Idx) (k : S8192x64.Idx)
    (hk0 : (k 0).val = 1024 * (t.val / 16) + (x 0).val) (hk1 : (k 1).val = (x 1).val) :
    (iblk1 V c 1 t : Vec F S1024x64 .f32) x = (V c main_v33 : S8192x64.Idx → Elt F .f32) k := by
  unfold iblk1
  rw [View.read_apply]
  show V c main_v33 _ = V c main_v33 _
  congr 1
  funext a
  apply Fin.ext
  match a with
  | ⟨0, _⟩ => show win1_1.index t 0 * S1024x64.size 0 + 1 * (x 0).val = (k 0).val; rw [(idx1 t).2.2.1, hk0]; show _ * 1024 + _ = _; omega
  | ⟨1, _⟩ => show win1_1.index t 1 * S1024x64.size 1 + 1 * (x 1).val = (k 1).val; rw [(idx1 t).2.2.2.1, hk1]; show _ * 64 + _ = _; omega

theorem iblk1_2_apply (c : Dev nD) (t : Fin cfg1.N) (x : S512x64.Idx) (k : S8192x64.Idx)
    (hk0 : (k 0).val = 512 * (t.val % 16) + (x 0).val) (hk1 : (k 1).val = (x 1).val) :
    (iblk1 V c 2 t : Vec F S512x64 .f32) x = (V c main_v16 : S8192x64.Idx → Elt F .f32) k := by
  unfold iblk1
  rw [View.read_apply]
  show V c main_v16 _ = V c main_v16 _
  congr 1
  funext a
  apply Fin.ext
  match a with
  | ⟨0, _⟩ => show win1_2.index t 0 * S512x64.size 0 + 1 * (x 0).val = (k 0).val; rw [(idx1 t).2.2.2.2.1, hk0]; show _ * 512 + _ = _; omega
  | ⟨1, _⟩ => show win1_2.index t 1 * S512x64.size 1 + 1 * (x 1).val = (k 1).val; rw [(idx1 t).2.2.2.2.2.1, hk1]; show _ * 64 + _ = _; omega

theorem iblk1_3_apply (c : Dev nD) (t : Fin cfg1.N) (x : S512x64.Idx) (k : S8192x64.Idx)
    (hk0 : (k 0).val = 512 * (t.val % 16) + (x 0).val) (hk1 : (k 1).val = (x 1).val) :
    (iblk1 V c 3 t : Vec F S512x64 .f32) x = (V c main_v53 : S8192x64.Idx → Elt F .f32) k := by
  unfold iblk1
  rw [View.read_apply]
  show V c main_v53 _ = V c main_v53 _
  congr 1
  funext a
  apply Fin.ext
  match a with
  | ⟨0, _⟩ => show win1_3.index t 0 * S512x64.size 0 + 1 * (x 0).val = (k 0).val; rw [(idx1 t).2.2.2.2.2.2.1, hk0]; show _ * 512 + _ = _; omega
  | ⟨1, _⟩ => show win1_3.index t 1 * S512x64.size 1 + 1 * (x 1).val = (k 1).val; rw [(idx1 t).2.2.2.2.2.2.2.1, hk1]; show _ * 64 + _ = _; omega

theorem iblk1_4_apply (c : Dev nD) (t : Fin cfg1.N) (x : S512x64.Idx) (k : S8192x64.Idx)
    (hk0 : (k 0).val = 512 * (t.val % 16) + (x 0).val) (hk1 : (k 1).val = (x 1).val) :
    (iblk1 V c 4 t : Vec F S512x64 .f32) x = (V c main_arg1 : S8192x64.Idx → Elt F .f32) k := by
  unfold iblk1
  rw [View.read_apply]
  show V c main_arg1 _ = V c main_arg1 _
  congr 1
  funext a
  apply Fin.ext
  match a with
  | ⟨0, _⟩ => show win1_4.index t 0 * S512x64.size 0 + 1 * (x 0).val = (k 0).val; rw [(idx1 t).2.2.2.2.2.2.2.2.1, hk0]; show _ * 512 + _ = _; omega
  | ⟨1, _⟩ => show win1_4.index t 1 * S512x64.size 1 + 1 * (x 1).val = (k 1).val; rw [(idx1 t).2.2.2.2.2.2.2.2.2.1, hk1]; show _ * 64 + _ = _; omega

theorem iblk1_5_apply (c : Dev nD) (t : Fin cfg1.N) (x : S1x512.Idx) (k : S1x8192.Idx)
    (hk0 : (k 0).val = (x 0).val) (hk1 : (k 1).val = 512 * (t.val % 16) + (x 1).val) :
    (iblk1 V c 5 t : Vec F S1x512 .f32) x = (V c main_v54 : S1x8192.Idx → Elt F .f32) k := by
  unfold iblk1
  rw [View.read_apply]
  show V c main_v54 _ = V c main_v54 _
  congr 1
  funext a
  apply Fin.ext
  match a with
  | ⟨0, _⟩ => show win1_5.index t 0 * S1x512.size 0 + 1 * (x 0).val = (k 0).val; rw [(idx1 t).2.2.2.2.2.2.2.2.2.2.1, hk0]; show _ * 1 + _ = _; omega
  | ⟨1, _⟩ => show win1_5.index t 1 * S1x512.size 1 + 1 * (x 1).val = (k 1).val; rw [(idx1 t).2.2.2.2.2.2.2.2.2.2.2.1, hk1]; show _ * 512 + _ = _; omega

/-- At the first column tile of a row block the accumulator is the reset value plus the tile's contribution. -/
theorem acc_first (c : Dev nD) (t : Fin cfg1.N) (h0 : t.val % 16 = 0) :
    (outsAt1 V c t.val t.isLt).2 = k1_pay1 (F := F) (k1_pay3 (F := F) (iblk1 V c 1 t : Vec F S1024x64 .f32) (iblk1 V c 2 t : Vec F S512x64 .f32) (iblk1 V c 0 t : Vec F S1024x512 .f32) (iblk1 V c 5 t : Vec F S1x512 .f32) (iblk1 V c 3 t : Vec F S512x64 .f32) (iblk1 V c 4 t : Vec F S512x64 .f32) (k1_pay2 (F := F))) := by
  have h1 : ¬t.val % 16 = 15 := by omega
  have e := outsAt1_A V c t h0 h1
  have e1 : (outsAt1 V c t.val t.isLt).2 = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) := by rw [e]
  exact e1.trans (soutA0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

/-- At a later column tile the accumulator is what the tile before left plus the tile's contribution. -/
theorem acc_next (c : Dev nD) (t : Fin cfg1.N) (h0 : ¬t.val % 16 = 0) :
    (outsAt1 V c t.val t.isLt).2 = k1_pay1 (F := F) (k1_pay3 (F := F) (iblk1 V c 1 t : Vec F S1024x64 .f32) (iblk1 V c 2 t : Vec F S512x64 .f32) (iblk1 V c 0 t : Vec F S1024x512 .f32) (iblk1 V c 5 t : Vec F S1x512 .f32) (iblk1 V c 3 t : Vec F S512x64 .f32) (iblk1 V c 4 t : Vec F S512x64 .f32) (outsAt1 V c (t.val - 1) (Nat.lt_of_le_of_lt (Nat.sub_le _ _) t.isLt)).2) := by
  by_cases h1 : t.val % 16 = 15
  · have e := outsAt1_C V c t h0 h1
    have e1 : (outsAt1 V c t.val t.isLt).2 = sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 := by rw [e]
    exact e1.trans (soutC0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2)
  · have e := outsAt1_B V c t h0 h1
    have e1 : (outsAt1 V c t.val t.isLt).2 = sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 := by rw [e]
    exact e1.trans (soutB0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2)

/-- At the last column tile the output block is the accumulator the same point leaves. -/
theorem out_last (c : Dev nD) (t : Fin cfg1.N) (h15 : t.val % 16 = 15) :
    (outsAt1 V c t.val t.isLt).1 = (outsAt1 V c t.val t.isLt).2 := by
  have h0 : ¬t.val % 16 = 0 := by omega
  have e := outsAt1_C V c t h0 h15
  have e0 : (outsAt1 V c t.val t.isLt).1 = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h15) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 := by rw [e]
  have e1 : (outsAt1 V c t.val t.isLt).2 = sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h15) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 := by rw [e]
  rw [e0, e1, outC6_eq, soutC0_eq]

end AnyF

/-! ## At the extended reals -/

section AtIdeal

variable (V : (c : Dev nD) → (b : Ref sig .tc) → Buf (Elt Ideal) ((c : Thread nD τ).loc b))

/-- The mask, the queries, the keys, the values, the features and the row of log-sum-exps as the region finds them, on
    plain indices. -/
def Mf (c : Dev nD) (r k : Fin 8192) : EReal := (V c main_arg2 : S8192x8192.Idx → EReal) (ix2 r k)
def Qf (c : Dev nD) (r : Fin 8192) (e : Fin 64) : EReal := (V c main_v33 : S8192x64.Idx → EReal) (ix2 r e)
def Kf (c : Dev nD) (k : Fin 8192) (e : Fin 64) : EReal := (V c main_v16 : S8192x64.Idx → EReal) (ix2 k e)
def Vf (c : Dev nD) (k : Fin 8192) (d : Fin 64) : EReal := (V c main_v53 : S8192x64.Idx → EReal) (ix2 k d)
def Hf (c : Dev nD) (k : Fin 8192) (d : Fin 64) : EReal := (V c main_arg1 : S8192x64.Idx → EReal) (ix2 k d)
def Lf (c : Dev nD) (k : Fin 8192) : EReal := (V c main_v54 : S1x8192.Idx → EReal) (ix2 (0 : Fin 1) k)

/-- The exponential of row r's score against key k less key k's log-sum-exp. -/
def aW (c : Dev nD) (r k : Fin 8192) : EReal :=
  Ideal.exp (Cert.AttnSpec.score (Mf V c) (Qf V c) (Kf V c) r k - Lf V c k)

/-- Column tile j's contribution to the result at (r, d) (the arrays read past the last key, which no tile does, as 0). -/
def f (c : Dev nD) (r : Fin 8192) (d : Fin 64) : ℕ → EReal := fun j =>
  Cert.AttnSpec.c01 * (∑ k : Fin 512, (if h : 512 * j + k.val < 8192 then aW V c r ⟨512 * j + k.val, h⟩ else 0)
      * (if h : 512 * j + k.val < 8192 then Vf V c ⟨512 * j + k.val, h⟩ d else 0))
    + ∑ k : Fin 512, (if h : 512 * j + k.val < 8192 then Mf V c r ⟨512 * j + k.val, h⟩ else 0)
      * (if h : 512 * j + k.val < 8192 then Hf V c ⟨512 * j + k.val, h⟩ d else 0)

/-- One point's update at (i, d): the accumulator plus the column tile's contribution to row 1024 · (t div 16) + i. -/
theorem tile_step (c : Dev nD) (t : Fin cfg1.N) (i : Fin 1024) (d : Fin 64) (r : Fin 8192)
    (hr : r.val = 1024 * (t.val / 16) + i.val) (acc : Vec Ideal S1024x64 .f32) :
    k1_pay3 (F := Ideal) (iblk1 V c 1 t : Vec Ideal S1024x64 .f32) (iblk1 V c 2 t : Vec Ideal S512x64 .f32)
        (iblk1 V c 0 t : Vec Ideal S1024x512 .f32) (iblk1 V c 5 t : Vec Ideal S1x512 .f32)
        (iblk1 V c 3 t : Vec Ideal S512x64 .f32) (iblk1 V c 4 t : Vec Ideal S512x64 .f32) acc (ix2 i d)
      = acc (ix2 i d) + f V c r d (t.val % 16) := by
  have hN : t.val < 128 := lt_of_lt_of_eq t.isLt N_1
  refine (k1_pay3_apply _ _ _ _ _ _ acc i d).trans ?_
  unfold f
  refine congrArg (acc (ix2 i d) + ·) ?_
  refine congrArg₂ (fun x y => Cert.AttnSpec.c01 * x + y) (Finset.sum_congr rfl fun k _ => ?_)
    (Finset.sum_congr rfl fun k _ => ?_)
  · have hk : 512 * (t.val % 16) + k.val < 8192 := by omega
    rw [dif_pos hk, dif_pos hk]
    unfold aW Cert.AttnSpec.score Mf Qf Kf Lf Vf
    rw [iblk1_0_apply V c t (ix2 i k) (ix2 r ⟨512 * (t.val % 16) + k.val, hk⟩) hr rfl,
      iblk1_5_apply V c t (ix2 (0 : Fin 1) k) (ix2 (0 : Fin 1) ⟨512 * (t.val % 16) + k.val, hk⟩) rfl rfl,
      iblk1_3_apply V c t (ix2 k d) (ix2 ⟨512 * (t.val % 16) + k.val, hk⟩ d) rfl rfl]
    refine congrArg (fun s => Ideal.exp (_ * (s * Cert.AttnSpec.c125) - _) * _) (Finset.sum_congr rfl fun e _ => ?_)
    rw [iblk1_1_apply V c t (ix2 i e) (ix2 r e) hr rfl,
      iblk1_2_apply V c t (ix2 k e) (ix2 ⟨512 * (t.val % 16) + k.val, hk⟩ e) rfl rfl]
  · have hk : 512 * (t.val % 16) + k.val < 8192 := by omega
    rw [dif_pos hk, dif_pos hk]
    unfold Mf Hf
    rw [iblk1_0_apply V c t (ix2 i k) (ix2 r ⟨512 * (t.val % 16) + k.val, hk⟩) hr rfl,
      iblk1_4_apply V c t (ix2 k d) (ix2 ⟨512 * (t.val % 16) + k.val, hk⟩ d) rfl rfl]

/-- THE INDUCTION OVER THE POINTS. After point n the accumulator holds, at (i, d), the running total of row
    1024 · (n div 16) + i after its first n mod 16 + 1 column tiles. -/
theorem acc_at (c : Dev nD) (i : Fin 1024) (d : Fin 64) : ∀ (n : ℕ) (hn : n < cfg1.N) (r : Fin 8192),
    r.val = 1024 * (n / 16) + i.val →
    (outsAt1 V c n hn).2 (ix2 i d) = Cert.AttnMath.accum (f V c r d) (n % 16 + 1) := by
  intro n
  induction n using Nat.strong_induction_on with
  | _ n ih =>
    intro hn r hr
    have hN : n < 128 := lt_of_lt_of_eq hn N_1
    by_cases h0 : n % 16 = 0
    · have e := acc_first V c ⟨n, hn⟩ h0
      have hstep : Cert.AttnMath.accum (f V c r d) (n % 16 + 1) = 0 + f V c r d (n % 16) := by
        rw [h0]; rfl
      rw [hstep]
      refine (congrFun e (ix2 i d)).trans ?_
      rw [k1_pay1_eq]
      refine (tile_step V c ⟨n, hn⟩ i d r hr _).trans ?_
      rw [k1_pay2_apply]
    · have e := acc_next V c ⟨n, hn⟩ h0
      have p := ih (n - 1) (by omega) (Nat.lt_of_le_of_lt (Nat.sub_le _ _) hn) r (by omega)
      have hm : (n - 1) % 16 + 1 = n % 16 := by omega
      rw [hm] at p
      have hstep : Cert.AttnMath.accum (f V c r d) (n % 16 + 1)
          = Cert.AttnMath.accum (f V c r d) (n % 16) + f V c r d (n % 16) := rfl
      rw [hstep]
      refine (congrFun e (ix2 i d)).trans ?_
      rw [k1_pay1_eq]
      refine (tile_step V c ⟨n, hn⟩ i d r hr _).trans ?_
      rw [p]

/-- The output block at the last column tile of a row block: at (i, d), the running total of row 1024 · (t div 16) + i
    after all its 16 tiles. -/
theorem out_last_apply (c : Dev nD) (t : Fin cfg1.N) (h15 : t.val % 16 = 15) (i : Fin 1024) (d : Fin 64) (r : Fin 8192)
    (hr : r.val = 1024 * (t.val / 16) + i.val) :
    (outsAt1 V c t.val t.isLt).1 (ix2 i d) = Cert.AttnMath.accum (f V c r d) 16 := by
  have p := acc_at V c i d t.val t.isLt r hr
  have h16 : t.val % 16 + 1 = 16 := by omega
  rw [h16] at p
  rw [out_last V c t h15]
  exact p

/-- The output array the region leaves: at (r, d), the running total of row r after its 16 column tiles. -/
def outArr (c : Dev nD) : S8192x64.Idx → EReal := fun y =>
  Cert.AttnMath.accum (f V c ⟨(y 0).val, idx2_lt0 y⟩ ⟨(y 1).val, idx2_lt1 y⟩) 16

/-- What a writing point writes back is its block of that array. -/
theorem flushed6_eq (c : Dev nD) (t : Fin cfg1.N) (hf : (cfg1.win 6).flush t = true) :
    (dat1 (F := Ideal) V c).flushed 6 t = ((cfg1.win 6).blk t).view.read (Elt Ideal) (outArr V c) := by
  have h15 : t.val % 16 = 15 := (flush1_6 t).mp hf
  have hN : t.val < 128 := lt_of_lt_of_eq t.isLt N_1
  have key : ∀ y : S1024x64.Idx, (outsAt1 V c t.val t.isLt).1 y = outArr V c (((cfg1.win 6).blk t).view.emb y) := by
    intro y
    obtain ⟨i, d, rfl⟩ : ∃ (i : Fin 1024) (d : Fin 64), y = ix2 i d := ⟨y 0, y 1, eq_ix2 y⟩
    rw [out_last_apply V c t h15 i d ⟨1024 * (t.val / 16) + i.val, by omega⟩ rfl]
    unfold outArr
    have e0 : (⟨((((cfg1.win 6).blk t).view.emb (ix2 i d)) 0).val, idx2_lt0 _⟩ : Fin 8192)
        = ⟨1024 * (t.val / 16) + i.val, by omega⟩ :=
      Fin.ext (by
        show win1_6.index t 0 * 1024 + 1 * i.val = 1024 * (t.val / 16) + i.val
        rw [(idx1 t).2.2.2.2.2.2.2.2.2.2.2.2.1]; omega)
    have e1 : (⟨((((cfg1.win 6).blk t).view.emb (ix2 i d)) 1).val, idx2_lt1 _⟩ : Fin 64) = d :=
      Fin.ext (by
        show win1_6.index t 1 * 64 + 1 * d.val = d.val
        rw [(idx1 t).2.2.2.2.2.2.2.2.2.2.2.2.2]; omega)
    rw [e0, e1]
  show (cfg1.win 6).cut (grid1.coords t) ((dat1 (F := Ideal) V c).after 6 t) = _
  rw [after1_6]
  funext y
  rw [View.read_apply]
  exact key y

/-- An index of the output array is in point t's block iff each coordinate is in the block's range on its axis. -/
theorem mem_blk6 (t : Fin cfg1.N) (i : S8192x64.Idx) :
    i ∈ ((cfg1.win 6).blk t).view.set ↔ ∀ a : Fin 2, win1_6.index t a * S1024x64.size a ≤ (i a).val ∧ (i a).val < win1_6.index t a * S1024x64.size a + S1024x64.size a := by
  show i ∈ ((View.whole main_v55).slice (win1_6.rect t)).set ↔ _
  rw [View.set_slice_whole, Rect.mem_set_unit]
  exact Iff.rfl

/-- The 8 written blocks tile the output array, so the array ends holding it. -/
theorem out_array (c : Dev nD) : (dat1 (F := Ideal) V c).arrAt 6 cfg1.N = outArr V c :=
  (dat1 (F := Ideal) V c).arrAt_eq_of_cover 6 (outArr V c) (flushed6_eq V c) fun i => by
    have hi0 : (i 0).val < 8192 := (i 0).isLt
    have hi1 : (i 1).val < 64 := (i 1).isLt
    have hN : cfg1.N = 128 := N_1
    refine ⟨⟨16 * ((i 0).val / 1024) + 15, by omega⟩, (flush1_6 _).mpr (by show (16 * ((i 0).val / 1024) + 15) % 16 = 15; omega), ?_⟩
    rw [mem_blk6]
    intro a
    match a with
    | ⟨0, _⟩ =>
      show win1_6.index ⟨16 * ((i 0).val / 1024) + 15, _⟩ 0 * 1024 ≤ (i 0).val ∧ (i 0).val < win1_6.index ⟨16 * ((i 0).val / 1024) + 15, _⟩ 0 * 1024 + 1024
      rw [(idx1 _).2.2.2.2.2.2.2.2.2.2.2.2.1]
      show (16 * ((i 0).val / 1024) + 15) / 16 * 1024 ≤ (i 0).val ∧ (i 0).val < (16 * ((i 0).val / 1024) + 15) / 16 * 1024 + 1024
      omega
    | ⟨1, _⟩ =>
      show win1_6.index ⟨16 * ((i 0).val / 1024) + 15, _⟩ 1 * 64 ≤ (i 1).val ∧ (i 1).val < win1_6.index ⟨16 * ((i 0).val / 1024) + 15, _⟩ 1 * 64 + 64
      rw [(idx1 _).2.2.2.2.2.2.2.2.2.2.2.2.2]; omega

/-- THE INTERFACE. After region 1 the output array holds, at (r, d), the running total of row r after all 16 column
    tiles. -/
theorem out_value (c : Dev nD) (r : Fin 8192) (d : Fin 64) :
    ((dat1 (F := Ideal) V c).arrAt 6 cfg1.N : S8192x64.Idx → EReal) (ix2 r d) = Cert.AttnMath.accum (f V c r d) 16 :=
  congrFun (out_array V c) (ix2 r d)

end AtIdeal

end Cert.KernelIdeal.Val1

end
-- ==== Proof.BridgeOut.lean ====
/-
  The kernel program's result is the specification's.

  Region 1 is entered from the specification's mask, queries, keys, values and features and from the row of column-wise
  log-sum-exps region 0 left, so the weight it forms at (r, k) is the specification's softmax weight (the precondition
  makes every score a real number), and its running total over the 16 tiles of 512 keys ends on
  0.1 · Σ_k weight(r, k) · V(k, d) + Σ_k M(r, k) · H(k, d): the specification's result at (r, d).
-/
import proofs.«147333_j46926812676545_1_alg».proof.Proof.Bridge
import proofs.«147333_j46926812676545_1_alg».proof.Proof.Value1Out

set_option maxRecDepth 16384

noncomputable section

namespace Cert.KernelIdeal.Bridge

open Cert.KernelIdeal Cert.KernelIdeal.Gen Cert.KernelIdeal.Frm Cert.KernelIdeal.Glue
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-! ## Region 1's entry functions are the specification's -/

theorem Mf1_eq (c : Dev nD) : Val1.Mf (VB m) c = sM m c := by
  funext r k
  unfold Val1.Mf
  exact VB_M m c r k

theorem Qf1_eq (c : Dev nD) : Val1.Qf (VB m) c = sQ m c := by
  funext r e
  unfold Val1.Qf
  exact VB_Q m c r e

theorem Kf1_eq (c : Dev nD) : Val1.Kf (VB m) c = sK m c := by
  funext k e
  unfold Val1.Kf
  exact VB_K m c k e

theorem Vf1_eq (c : Dev nD) : Val1.Vf (VB m) c = sV m c := by
  funext k d
  unfold Val1.Vf
  exact VB_V m c k d

theorem Hf1_eq (c : Dev nD) : Val1.Hf (VB m) c = sH m c := by
  funext k d
  unfold Val1.Hf
  exact VB_H m c k d

/-- The weight region 1 forms is the specification's softmax weight. -/
theorem aW1_eq (hpre : Cert.Pre_KernelIdeal m) (c : Dev nD) (r : Fin 8192) :
    Val1.aW (VB m) c r = fun k => Cert.AttnSpec.weight (sM m c) (sQ m c) (sK m c) r k := by
  funext k
  unfold Val1.aW Val1.Lf
  rw [Mf1_eq, Qf1_eq, Kf1_eq]
  exact weight_VB m hpre c r k

/-- THE RESULT. Under the precondition the array region 1 leaves holds, at (r, d), the specification's result. -/
theorem result_value (hpre : Cert.Pre_KernelIdeal m) (c : Dev nD) (r : Fin 8192) (d : Fin 64) :
    ((dat1 (F := Ideal) (VB m) c).arrAt 6 cfg1.N : S8192x64.Idx → EReal) (ix2 r d)
      = Cert.AttnSpec.out (sM m c) (sQ m c) (sK m c) (sV m c) (sH m c) r d := by
  rw [Val1.out_value (VB m) c r d]
  unfold Val1.f
  rw [aW1_eq m hpre c r, Vf1_eq, Mf1_eq, Hf1_eq]
  exact Cert.AttnMath.out_of_accum (sM m c) (sV m c) (sH m c) r d
    (fun k => Cert.AttnSpec.weight (sM m c) (sQ m c) (sK m c) r k)

end Cert.KernelIdeal.Bridge

end
-- ==== Proof.Agree.lean ====
/-
  The two programs read the same arguments: from memories that agree on the thirteen argument arrays, the reference's
  and the kernel program's arguments on plain indices are the same functions, hence so are the three projections and the
  specification's value built from them.
-/
import proofs.«147333_j46926812676545_1_alg».proof.Defs
import proofs.«147333_j46926812676545_1_alg».proof.Proof.RefValue
import proofs.«147333_j46926812676545_1_alg».proof.Proof.KernelGlue

noncomputable section

namespace Cert.Proof.Agree

open Idealize.ShloMosaic Idealize.ShloMosaic.TcCoe Idealize.SL.Sem Idealize.ShloMosaic.ValueIdx
open Cert.KernelIdeal.Glue (kX kH kM kQw kQb kKw kKb kVw kVb kGamma kBeta kMean kVar)

/-- From agreeing memories the specification's value over the reference's arguments is its value over the kernel
    program's arguments. -/
theorem out_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : (∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
        ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
        ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)))
    (c : Dev Cert.KernelIdeal.nD) (i : Fin 8192) (d : Fin 64) :
    Cert.AttnSpec.out (Cert.ReferenceIdeal.RefValue.argM m' c) (Cert.ReferenceIdeal.RefValue.Qf m' c)
        (Cert.ReferenceIdeal.RefValue.Kf m' c) (Cert.ReferenceIdeal.RefValue.Vf m' c) (Cert.ReferenceIdeal.RefValue.Hf m' c) i d
      = Cert.AttnSpec.out (Cert.KernelIdeal.Glue.kM m c) (Cert.HostGlue.lnProj (kX m c) (kQw m c) (kQb m c))
          (Cert.HostGlue.lnProj (kH m c) (kKw m c) (kKb m c))
          (Cert.HostGlue.bnProj (kH m c) (kVw m c) (kVb m c) (kGamma m c) (kBeta m c) (kMean m c) (kVar m c))
          (Cert.KernelIdeal.Glue.kH m c) i d := by
  have e0 : Cert.ReferenceIdeal.RefValue.argX m' c = kX m c :=
    funext fun a => funext fun b => congrFun (hagree c).1 (ix2 a b)
  have e1 : Cert.ReferenceIdeal.RefValue.argH m' c = kH m c :=
    funext fun a => funext fun b => congrFun (hagree c).2.1 (ix2 a b)
  have e2 : Cert.ReferenceIdeal.RefValue.argM m' c = kM m c :=
    funext fun a => funext fun b => congrFun (hagree c).2.2.1 (ix2 a b)
  have e3 : Cert.ReferenceIdeal.RefValue.argQw m' c = kQw m c :=
    funext fun a => funext fun b => congrFun (hagree c).2.2.2.1 (ix2 a b)
  have e4 : Cert.ReferenceIdeal.RefValue.argQb m' c = kQb m c :=
    funext fun b => congrFun (hagree c).2.2.2.2.1 (ix1 b)
  have e5 : Cert.ReferenceIdeal.RefValue.argKw m' c = kKw m c :=
    funext fun a => funext fun b => congrFun (hagree c).2.2.2.2.2.1 (ix2 a b)
  have e6 : Cert.ReferenceIdeal.RefValue.argKb m' c = kKb m c :=
    funext fun b => congrFun (hagree c).2.2.2.2.2.2.1 (ix1 b)
  have e7 : Cert.ReferenceIdeal.RefValue.argVw m' c = kVw m c :=
    funext fun a => funext fun b => congrFun (hagree c).2.2.2.2.2.2.2.1 (ix2 a b)
  have e8 : Cert.ReferenceIdeal.RefValue.argVb m' c = kVb m c :=
    funext fun b => congrFun (hagree c).2.2.2.2.2.2.2.2.1 (ix1 b)
  have e9 : Cert.ReferenceIdeal.RefValue.argGamma m' c = kGamma m c :=
    funext fun b => congrFun (hagree c).2.2.2.2.2.2.2.2.2.1 (ix1 b)
  have e10 : Cert.ReferenceIdeal.RefValue.argBeta m' c = kBeta m c :=
    funext fun b => congrFun (hagree c).2.2.2.2.2.2.2.2.2.2.1 (ix1 b)
  have e11 : Cert.ReferenceIdeal.RefValue.argMean m' c = kMean m c :=
    funext fun b => congrFun (hagree c).2.2.2.2.2.2.2.2.2.2.2.1 (ix1 b)
  have e12 : Cert.ReferenceIdeal.RefValue.argVar m' c = kVar m c :=
    funext fun b => congrFun (hagree c).2.2.2.2.2.2.2.2.2.2.2.2 (ix1 b)
  unfold Cert.ReferenceIdeal.RefValue.Qf Cert.ReferenceIdeal.RefValue.Kf Cert.ReferenceIdeal.RefValue.Vf
    Cert.ReferenceIdeal.RefValue.Hf
  rw [e0, e1, e2, e3, e4, e5, e6, e7, e8, e9, e10, e11, e12]

end Cert.Proof.Agree

end
-- ==== Proof.Algebraic.lean ====
/-
  The algebraic conjunct. The idealized kernel's run ends with the result array at what region 1's write-backs leave;
  read at (r, d) that is the sixteen-tile accumulation of 0.1 * (exp (score - lse) · values) + mask · features, where lse
  is region 0's column-wise maximum + log of the sum of exponentials, so the exponential is the column softmax weight —
  this needs every score to be a real, which the finite inputs give through the two layer-normalised projections — and
  the accumulation is the whole sum: the specification. The idealized reference's run ends with its result array at the
  same specification of its own arguments, and the two memories agree on the arguments.
-/
import proofs.«147333_j46926812676545_1_alg».proof.Defs
import proofs.«147333_j46926812676545_1_alg».proof.Proof.KernelRun
import proofs.«147333_j46926812676545_1_alg».proof.Proof.RefValue
import proofs.«147333_j46926812676545_1_alg».proof.Proof.BridgeOut
import proofs.«147333_j46926812676545_1_alg».proof.Proof.Agree

noncomputable section

namespace Cert.Proof.Algebraic

open Idealize.ShloMosaic Idealize.SL.Sem

theorem algebraic : Cert.algebraic_KernelIdeal_ReferenceIdeal := by
  intro m ρ m' ρ' hpre hagree
  refine ⟨fun c => (Cert.KernelIdeal.Frm.dat1 (F := Ideal) (Cert.KernelIdeal.Frm.VB m) c).arrAt 6 Cert.KernelIdeal.cfg1.N,
    Cert.KernelIdeal.Frm.run_result (F := Ideal) m ρ, ?_⟩
  refine (θ_run Cert.ReferenceIdeal.defs _ _).mono (fun r h c => ⟨?_, (h c).2⟩) (Cert.ReferenceIdeal.RefValue.run m' ρ')
  funext j
  obtain ⟨i, d, rfl⟩ : ∃ (i : Fin 8192) (d : Fin 64), j = ValueIdx.ix2 i d := ⟨j 0, j 1, ValueIdx.eq_ix2 j⟩
  exact ((h c).1 i d).trans ((Cert.Proof.Agree.out_agree m m' hagree c i d).trans
    (Cert.KernelIdeal.Bridge.result_value m hpre c i d).symm)

end Cert.Proof.Algebraic

end
-- ==== Proof.lean ====
/-
  Masked attention whose softmax runs down the columns, computed by a kernel in two sweeps — first the column-wise
  log-sum-exp of the masked scores by a running maximum and rescaled sum over row tiles, then 0.1 * (exp (score - lse) ·
  values) + mask · features accumulated over column tiles — against the reference's one-shot column softmax.
  Each kernel program's frame is its run through five stretches of host operations and the two kernel regions, read at
  the argument arrays (Proof/Frames.lean over Proof/KernelRun.lean and its word-level copy); the reference's frame is its
  run with the result dropped. The idealization rewrote nothing. Over the extended reals with finite inputs both programs
  end at one specification (Proof/AttnSpec.lean): Proof/Algebraic.lean.
-/
import proofs.«147333_j46926812676545_1_alg».proof.Defs
import proofs.«147333_j46926812676545_1_alg».proof.Proof.Frames
import proofs.«147333_j46926812676545_1_alg».proof.Proof.Algebraic
import proofs.«147333_j46926812676545_1_alg».proof.Proof.Gen.Kernel
import proofs.«147333_j46926812676545_1_alg».proof.Proof.Gen.KernelIdeal
import proofs.«147333_j46926812676545_1_alg».proof.Proof.Gen.ReferenceIdeal
import proofs.«147333_j46926812676545_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Algebraic.algebraic⟩

end Cert.Proof

end
